-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S3x1024x1024 : Shape := ⟨3, ![3, 1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn {F : FTy → Type} [FloatOps F] (main_arg0 : FVec F S8x2048x1024 .f32) (main_arg1 : FVec F S3x1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S3x1024x1024 .f32 := Host.absf main_arg1
  let main_cst_0 : FVec F S_ .f32 := constant S_ .f32 0x7F800000#32
  let main_v5 : FVec F S3x1024x1024 .f32 := broadcastInDim S3x1024x1024 ![] bcast_S_S3x1024x1024 main_cst_0
  let main_v6 : IVec S3x1024x1024 1 := cmpf .olt main_v4 main_v5
  let main_c_1 : IVec S_ 1 := constantI S_ 1 1#1
  let main_v7 : IVec S_ 1 := (fun x v => Host.reduce IntOp.andi x v reducesTo_S3x1024x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S3x1024x1024 : Shape := ⟨3, ![3, 1024, 1024]⟩
abbrev S16384x1024 : Shape := ⟨2, ![16384, 1024]⟩
abbrev S512x1024 : Shape := ⟨2, ![512, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x512x1 : Shape := ⟨3, ![1, 512, 1]⟩
abbrev S1x512 : Shape := ⟨2, ![1, 512]⟩

abbrev nBuf : Space → Nat
  | .hbm => 11
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S3x1024x1024, .f32⟩
  | .hbm, ⟨2, _⟩ => ⟨S16384x1024, .f32⟩
  | .hbm, ⟨3, _⟩ => ⟨S3x1024x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S8x2048x1024, .bf16⟩
  | .hbm, ⟨8, _⟩ => ⟨S8x2048x1024, .bf16⟩
  | .hbm, ⟨9, _⟩ => ⟨S8x2048x1024, .bf16⟩
  | .hbm, ⟨10, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S3x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x512x1024, .f32⟩
  | .local _ .vmem, ⟨16, _⟩ => ⟨S1x512x1024, .f32⟩
  | .local _ .vmem, ⟨17, _⟩ => ⟨S1x512x1, .f32⟩
  | .local _ .vmem, ⟨18, _⟩ => ⟨S1x512x1, .f32⟩
  | .local _ .vmem, ⟨19, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 2], ![false, false, false]⟩

def k1_cond2 (i : grid1.Coords) : BitVec 1 :=
  let arg2 : BitVec 32 := BitVec.ofNat 32 (i 2).val
  let c1_i32 : BitVec 32 := 1#32
  let v40 : BitVec 1 := Scalar.cmpi .eq arg2 c1_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x1024_S16384x1024 : S8x2048x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  packedbf16_S512x1024_S512x1024_0_0 : (Rect.unit (s := S512x1024) ![0, 0] S512x1024.size inb_S512x1024_S512x1024_0_0).PackedRows (EltTy.packing .bf16)
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  shapeCasts_S16384x1024_S8x2048x1024 : S16384x1024.ShapeCasts S8x2048x1024
  inb_S1x512x1_S1x512x1_0_0_0 : ∀ a, (![0, 0, 0] : Fin 3 → Nat) a + S1x512x1.size a ≤ S1x512x1.size a
  h_S1x512x1 : 0 < S1x512x1.numel
  shapeCasts_S1x512x1_S1x512x1 : S1x512x1.ShapeCasts S1x512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x1024x1024_S1x1024x1024_0_0_0 : ∀ a, (![0, 0, 0] : Fin 3 → Nat) a + S1x1024x1024.size a ≤ S1x1024x1024.size a
  shapeCasts_S1x1024x1024_S1x1024x1024 : S1x1024x1024.ShapeCasts S1x1024x1024
  reduces_S1x512x1024_S1x512 : S1x512x1024.Reduces [2] S1x512
  shapeCasts_S1x512_S1x512x1 : S1x512.ShapeCasts S1x512x1
  broadcasts_S1x512x1_S1x512x1024 : S1x512x1.Broadcasts S1x512x1024
  dot_S512x1024_S1024x1024_S512x1024_1_0_0_1_n_n_wf : DotDims.WF S512x1024 S1024x1024 S512x1024 [1] [0] [0] [1] [] []
  dot_S1x512x1024_S1x1024x1024_S1x512x1024_2_2_1_1_0_0_wf : DotDims.WF S1x512x1024 S1x1024x1024 S1x512x1024 [2] [2] [1] [1] [0] [0]
  dot_S1x512x1024_S1x1024x1024_S1x512x1024_2_1_1_2_0_0_wf : DotDims.WF S1x512x1024 S1x1024x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024x1024.size a ≤ S3x1024x1024.size a
  hwx0_1 : ∀ i : grid0.Coords, EltTy.bits .bf16 = 32 ∨ (Rect.block (s := S3x1024x1024) S3x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x2048x1024.size a
  hwx1_1 : ∀ i : grid1.Coords, EltTy.bits .bf16 = 32 ∨ (Rect.block (s := S8x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x2048x1024.size a
  hwx1_2 : ∀ i : grid1.Coords, EltTy.bits .bf16 = 32 ∨ (Rect.block (s := S8x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x512x1024_S1x1024x1024_S1x512x1024_2_2_1_1_0_0 : DotDims S1x512x1024 S1x1024x1024 S1x512x1024 where
  lhsContracting := [2]
  rhsContracting := [2]
  lhsNonContracting := [1]
  rhsNonContracting := [1]
  lhsBatch := [0]
  rhsBatch := [0]
  wf := dot_S1x512x1024_S1x1024x1024_S1x512x1024_2_2_1_1_0_0_wf
def dot_S1x512x1024_S1x1024x1024_S1x512x1024_2_1_1_2_0_0 : DotDims S1x512x1024 S1x1024x1024 S1x512x1024 where
  lhsContracting := [2]
  rhsContracting := [1]
  lhsNonContracting := [1]
  rhsNonContracting := [2]
  lhsBatch := [0]
  rhsBatch := [0]
  wf := dot_S1x512x1024_S1x1024x1024_S1x512x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S3x1024x1024, .f32⟩
  | .hbm, ⟨2, _⟩ => ⟨S1x1024x1024, .f32⟩
  | .hbm, ⟨3, _⟩ => ⟨S1024x1024, .f32⟩
  | .hbm, ⟨4, _⟩ => ⟨S8x2048x1024, .f32⟩
  | .hbm, ⟨5, _⟩ => ⟨S1x1024x1024, .f32⟩
  | .hbm, ⟨6, _⟩ => ⟨S1024x1024, .f32⟩
  | .hbm, ⟨7, _⟩ => ⟨S8x2048x1024, .f32⟩
  | .hbm, ⟨8, _⟩ => ⟨S1x1024x1024, .f32⟩
  | .hbm, ⟨9, _⟩ => ⟨S1024x1024, .f32⟩
  | .hbm, ⟨10, _⟩ => ⟨S8x2048x1024, .f32⟩
  | .hbm, ⟨11, _⟩ => ⟨S8x2048x2048, .f32⟩
  | .hbm, ⟨12, _⟩ => ⟨S_, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024x1024_S1x1024x1024_1_0_0 : S3x1024x1024.Slices ![1, 0, 0] S1x1024x1024
  slices_S3x1024x1024_S1x1024x1024_2_0_0 : S3x1024x1024.Slices ![2, 0, 0] S1x1024x1024
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.K.Defs.lean ====
/-
  The pure pieces of the two kernel regions, stated once for the frame halves and the value proofs alike,
  at any float instance `F` and at a parameter `V` (the buffer contents a region is entered from).

  Region 0 (the three projections): at a grid point the body reads a 512-row block of the flattened input and the
  whole weight stack, and stores three 512x1024 blocks: block * W[0] * 2^-5, block * W[1], block * W[2].

  Region 1 (attention, keys in two tiles of 1024): three scratch arrays are carried from the first key tile of a
  query block to the second -- the running row maximum, the running row sum and the running weighted sum of value
  rows. `step` is one key tile's update of the three; `fin` is the quotient stored after the last tile.
-/
import proofs.«165592_j29360396436110_2_alg».proof.Proof.Gen.Kernel.Skeleton
import proofs.«165592_j29360396436110_2_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512x1024 block. -/
abbrev rB0 : Rect S512x1024 := Rect.unit (s := S512x1024) ![0, 0] S512x1024.size inb_S512x1024_S512x1024_0_0
/-- Matrix `j` of the weight stack. -/
abbrev rW0_0 : Rect S3x1024x1024 := Rect.unit (s := S3x1024x1024) ![0, 0, 0] S1x1024x1024.size inb_S3x1024x1024_S1x1024x1024_0_0_0
abbrev rW0_1 : Rect S3x1024x1024 := Rect.unit (s := S3x1024x1024) ![1, 0, 0] S1x1024x1024.size inb_S3x1024x1024_S1x1024x1024_1_0_0
abbrev rW0_2 : Rect S3x1024x1024 := Rect.unit (s := S3x1024x1024) ![2, 0, 0] S1x1024x1024.size inb_S3x1024x1024_S1x1024x1024_2_0_0

/-- What the body leaves in the query window's buffer: its one store, of the scaled product with W[0]. -/
def out0_2 (x0 : Vec F S512x1024 .f32) (x1 : Vec F S3x1024x1024 .bf16) : Vec F S512x1024 .bf16 :=
  View.canon [⟨rB0, k0_pay2 (View.ld x0 rB0) (View.ld x1 rW0_0)⟩]
/-- The key window's: the product with W[1]. -/
def out0_3 (x0 : Vec F S512x1024 .f32) (x1 : Vec F S3x1024x1024 .bf16) : Vec F S512x1024 .bf16 :=
  View.canon [⟨rB0, k0_pay3 (View.ld x0 rB0) (View.ld x1 rW0_1)⟩]
/-- The value window's: the product with W[2]. -/
def out0_4 (x0 : Vec F S512x1024 .f32) (x1 : Vec F S3x1024x1024 .bf16) : Vec F S512x1024 .bf16 :=
  View.canon [⟨rB0, k0_pay4 (View.ld x0 rB0) (View.ld x1 rW0_2)⟩]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried arrays: running row maximum, running row sum, running weighted sum of value rows. -/
abbrev Scr (F : FTy → Type) : Type := Vec F S1x512x1 .f32 × Vec F S1x512x1 .f32 × Vec F S1x512x1024 .f32

/-- What the first key tile starts from: maximum -inf, sum 0, weighted sum 0. -/
def scr0 : Scr F := (k1_pay4, k1_pay5, k1_pay6)

/-- One key tile's update, from the query block `q`, the key tile `k`, the value tile `v` and the carried arrays:
    the new maximum; the old sum rescaled plus the tile's sum of exponentials; the old weighted sum rescaled plus
    the tile's exponentials times the value rows. -/
def step (q : Vec F S1x512x1024 .bf16) (k v : Vec F S1x1024x1024 .bf16) (s : Scr F) : Scr F :=
  (k1_pay2 (k1_pay9 q k s.1), k1_pay12 q k s.1 s.1 s.2.1, k1_pay1 (k1_pay7 v) (k1_pay10 q k s.1 s.1) (k1_pay11 q k s.1) s.2.2)

/-- The quotient stored after the last key tile: weighted sum over sum. -/
def fin (s : Scr F) : Vec F S1x512x1024 .f32 := k1_pay3 s.2.2 s.2.1

/-- The carried arrays after the body at position `n`: at an even position (first key tile of a query block) one
    step from the start, at an odd one a step from what the position before left. -/
def scrAt (c : Dev nD) : (n : ℕ) → n < cfg1.N → Scr F
  | 0, hn => step (iblk1 V c 0 ⟨0, hn⟩) (iblk1 V c 1 ⟨0, hn⟩) (iblk1 V c 2 ⟨0, hn⟩) scr0
  | n + 1, hn => step (iblk1 V c 0 ⟨n + 1, hn⟩) (iblk1 V c 1 ⟨n + 1, hn⟩) (iblk1 V c 2 ⟨n + 1, hn⟩)
      (if (n + 1) % 2 = 0 then scr0 else scrAt c n (Nat.lt_of_succ_lt hn))

end Cert.Kernel.Hand

end
-- ==== Proof.K.Reg0.lean ====
/-
  Region 0 (the three projections), the frame half: what each window's staging buffer holds when the body is
  entered at a grid point, what the body leaves in it, and the proof that the body, run on those buffers, does so.

  The grid has 32 points; point t works on rows 512 t .. 512 t + 511 of the flattened 16384 x 1024 input. Two
  windows are read: window 0 is that 512 x 1024 block of f32 (a new block at every point), window 1 is the whole
  stack of three 1024 x 1024 bf16 weight matrices (one block, the same at every point, moved in once). Three windows
  are written, each a 512 x 1024 bf16 block moved out at every point: with X the input block rounded to bf16,
      window 2 <- round ((X . W[0]) * 2^-5),   window 3 <- round (X . W[1]),   window 4 <- round (X . W[2]).
  The body reads the input block whole, reads matrix j of the stack through the rectangle [j, 0, 0] + 1x1024x1024,
  reads each output buffer once without using what it read, and stores each product whole.
-/
import proofs.«165592_j29360396436110_2_alg».proof.Proof.K.Defs
import proofs.«165592_j29360396436110_2_alg».proof.Proof.Gen.Kernel.Launch
import proofs.«165592_j29360396436110_2_alg».proof.Proof.Gen.Kernel.Skeleton
import proofs.«165592_j29360396436110_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one 512 x 1024 rectangle tiles the 512 x 1024 shape walks the long axes coordinate by coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One whole-block store covers the block -/

/-- Each output buffer receives a single store, through the rectangle that is the whole 512 x 1024 block; so every
    index of the block lies in the rectangle of some (namely that) store. The rectangle has the block's own sizes
    at offset 0: one tile of the block's size tiles the block, which is checked by evaluation. -/
theorem covB0 (p : Vec F S512x1024 .bf16) (y : S512x1024.Idx) :
    ∃ pc ∈ ([⟨rB0, p⟩] : List (View.Piece (Elt F) S512x1024 .bf16)), y ∈ pc.1.set :=
  View.cover_of_tiled [⟨rB0, p⟩] S512x1024.size (by rfl) y

/-! ## The body on five whole buffers -/

set_option maxHeartbeats 1000000 in
/-- The body's triple. Given the input buffer reading x0, the weight buffer reading x1 and the three output buffers
    at any contents whatever, the body ends with the two inputs as they were and output j holding the j-th product
    computed from x0 and x1 (the definitions out0_2, out0_3, out0_4). The loads return x0 through the whole-block
    rectangle and x1 through matrix j's rectangle; the loads of the outputs return values nobody uses, and only need
    the buffers to be owned; after the store, an output buffer read back is the stored payload at every index, because
    the one store covers the block. The memory operations are run one at a time by symbolic execution. -/
theorem proj_triple0 (c : Dev nD) (E : Set ℕ) (i : grid0.Coords)
    (a0 : Memref sig .tc .vmem S512x1024 .f32) (ha0 : a0.IsWhole)
    (a1 : Memref sig .tc .vmem S3x1024x1024 .bf16) (ha1 : a1.IsWhole)
    (a2 : Memref sig .tc .vmem S512x1024 .bf16) (ha2 : a2.IsWhole)
    (a3 : Memref sig .tc .vmem S512x1024 .bf16) (ha3 : a3.IsWhole)
    (a4 : Memref sig .tc .vmem S512x1024 .bf16) (ha4 : a4.IsWhole)
    (x0 : Vec F S512x1024 .f32) (x1 : Vec F S3x1024x1024 .bf16) (K : PUnit → sProp 𝕄) :
    iprop(owns (c : Thread nD τ) a0 fullShare x0 ∗ owns (c : Thread nD τ) a1 fullShare x1
        ∗ (∃ d, owns (c : Thread nD τ) a2 fullShare d) ∗ (∃ d, owns (c : Thread nD τ) a3 fullShare d)
        ∗ (∃ d, owns (c : Thread nD τ) a4 fullShare d)
        ∗ (iprop(owns (c : Thread nD τ) a0 fullShare x0 ∗ owns (c : Thread nD τ) a1 fullShare x1
            ∗ owns (c : Thread nD τ) a2 fullShare (out0_2 x0 x1) ∗ owns (c : Thread nD τ) a3 fullShare (out0_3 x0 x1)
            ∗ owns (c : Thread nD τ) a4 fullShare (out0_4 x0 x1)) -∗ K ⟨⟩))
      ⊢ wp frame (wpE (defs₀ (F := F)) Variants.none c none) E (cc0__proj_kernel i a0 ha0 a1 ha1 a2 ha2 a3 ha3 a4 ha4) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (covB0 _)
  isplitl [H3]
  · iexists _; isplitr
    swap; · iexact H3
    ipureintro
    exact View.read_writes_eq_canon _ _ _ (covB0 _)
  iexists _; isplitr
  swap; · iexact H4
  ipureintro
  exact View.read_writes_eq_canon _ _ _ (covB0 _)

/-! ## The pipeline's proof data -/

/-- Region 0's data on core c. The five arrays are what the region finds (V). After the body at point t the two
    input buffers still hold their blocks and the three output buffers hold the three products of those blocks. The
    invariant is the one of a body that touches nothing but its windows (the other scoped buffers and the generator
    register pass through); the arrays are held whole; the core owes nothing to anyone. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window: the case split on the window, reduced. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-! ## What an input buffer holds when the body is entered -/

/-- The input block's buffer holds block t of the flattened input at point t. The window is moved in at every point,
    so this is just "a fetched buffer holds the block"; stated through the lemma that also covers an unfetched point
    (there the block index has not moved since the last fetch and the body left the block in place). -/
theorem holds0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight stack's buffer holds the whole stack at every point, though it is moved in at the first point only:
    its block index is the same at all points (there is one block), and the body never writes the buffer, so what was
    fetched at point 0 is still there and is also what a fetch at point t would bring. -/
theorem holds0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the body is handed at point t: the invariant, the core's (empty) debts, and each window's current staging
    buffer -- the inputs' at what they hold, the outputs' at whatever an earlier point or nobody left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, and each buffer at what the data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at point t. The two input buffers hold their blocks (holds0_0, holds0_1), so the body's triple applies
    at x0 := the input block, x1 := the weight stack; the output buffers are handed over at whatever they hold. The
    invariant and the debts are the same before and after the point and pass through untouched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [holds0_0, holds0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_triple0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation as the pipeline rule asks it, at every point: the conjunction over the five windows written out
    window by window is the pre- and postcondition above. -/
theorem body_obligation0 (c : Dev nD) : BodyObligation (dat0 (F := F) V c) (defs₀ (F := F)) Variants.none () Set.univ := fun t => by
  rw [bigSep_W0, bigSep_W0]
  exact body0_at V c t

end Cert.Kernel.Hand

end
-- ==== Proof.K.Reg1Runs.lean ====
/-
  Region 1 (attention over two key tiles): the kernel body run whole, once for each of its two control cases.

  The body is called at the 64 points of the grid 8 x 4 x 2; the last coordinate is the key tile. Its first
  conditional (reset the three carried arrays) is taken exactly when that coordinate is 0, its second (store the
  quotient into the output block) exactly when it is 1. So a point is in one of two cases:

    even position (key tile 0):  reset the running maximum, sum and weighted sum; load the query block, the key
                                 tile and the value tile; update the three carried arrays. The output block is
                                 left as it was found.
    odd position (key tile 1):   the same update from what the even position before left in the carried arrays;
                                 then the weighted sum divided by the sum is stored into the output block.

  For each case the run is a subtype: the lists of pieces the body's stores leave in each buffer it stores into,
  together with the proof that from the buffers it is handed the body reaches any continuation that accepts the
  inputs as they were and the stored-into buffers with those pieces written. The pieces are not written down here:
  they are found by running the body symbolically, store by store.
-/
import proofs.«165592_j29360396436110_2_alg».proof.Proof.K.Defs
import proofs.«165592_j29360396436110_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, in closed form over the grid -/

/-- The body's first condition as it computes it from the key-tile coordinate: "the coordinate equals 0", through
    a comparison, a zero-extension and a comparison with zero. -/
abbrev cond1_0 (i : grid1.Coords) : Prop :=
  (Scalar.cmpi .ne (Scalar.extui (Scalar.cmpi .eq (BitVec.ofNat 32 (i 2).val) 0#32)) 0#32) = 1#1

/-- The key tile is the fastest coordinate and has extent 2, so it is 0 exactly at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second condition: "the key-tile coordinate equals 1". -/
abbrev cond1_1 (i : grid1.Coords) : Prop := k1_cond2 i = 1#1

/-- It holds exactly at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are live -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle at the even positions (nothing is stored into it there) -/
theorem idleAt1_3 : ∀ t : Fin cfg1.N, t.val % 2 = 0 → cfg1.idle 3 (grid1.coords t) = true := by decide +kernel
/-- and is not written back there; -/
theorem noFlush1_3 : ∀ t : Fin cfg1.N, t.val % 2 = 0 → (cfg1.win 3).flush t = false := by decide +kernel
/-- it is live at the odd positions. -/
theorem liveAt1_3 : ∀ t : Fin cfg1.N, t.val % 2 = 1 → cfg1.idle 3 (grid1.coords t) = false := by decide +kernel

/-! ## The buffers the body is called on -/

/-- Each window's current staging memref at point `t`, spelt as the pipeline passes it, with its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)

/-- The three carried arrays: whole scoped buffers of the kernel's own, passed beside the windows. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
/-- The views through which what they hold is stated. -/
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The other scoped buffers of the core that are no staging buffer of this pipeline: the first region's nine
    staging buffers, each at some contents. The body never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Nine conjuncts in front of a tail, regrouped as one block beside the tail (separating conjunction is
    associative). -/
theorem regroup1 (A1 A2 A3 A4 A5 A6 A7 A8 A9 B G : sProp 𝕄) :
    iprop((A1 ∗ A2 ∗ A3 ∗ A4 ∗ A5 ∗ A6 ∗ A7 ∗ A8 ∗ A9 ∗ B) ∗ G)
      = iprop(((A1 ∗ A2 ∗ A3 ∗ A4 ∗ A5 ∗ A6 ∗ A7 ∗ A8 ∗ A9) ∗ B) ∗ G) := by
  have h₁ : iprop((A1 ∗ A2 ∗ A3 ∗ A4 ∗ A5 ∗ A6 ∗ A7 ∗ A8 ∗ A9 ∗ B) ∗ G)
      ⊢ iprop(((A1 ∗ A2 ∗ A3 ∗ A4 ∗ A5 ∗ A6 ∗ A7 ∗ A8 ∗ A9) ∗ B) ∗ G) := by
    iintro ⟨⟨H1, H2, H3, H4, H5, H6, H7, H8, H9, HB⟩, HG⟩; iframe
  have h₂ : iprop(((A1 ∗ A2 ∗ A3 ∗ A4 ∗ A5 ∗ A6 ∗ A7 ∗ A8 ∗ A9) ∗ B) ∗ G)
      ⊢ iprop((A1 ∗ A2 ∗ A3 ∗ A4 ∗ A5 ∗ A6 ∗ A7 ∗ A8 ∗ A9 ∗ B) ∗ G) := by
    iintro ⟨⟨⟨H1, H2, H3, H4, H5, H6, H7, H8, H9⟩, HB⟩, HG⟩; iframe
  exact BI.equiv_iff.mp ⟨h₁, h₂⟩

/-- What the launch hands the region, regrouped: the nine foreign buffers, the three carried arrays as memrefs owned
    at some contents, and the generator register at some state. -/
theorem PhiA1_eq (c : Dev nD) :
    (Pipeline.ΦA spec1 c : sProp 𝕄)
      = iprop(iprop(others1 (F := F) c ∗ (∃ d, owns (c : Thread nD τ) scM1_0 fullShare d)
          ∗ (∃ d, owns (c : Thread nD τ) scM1_1 fullShare d) ∗ (∃ d, owns (c : Thread nD τ) scM1_2 fullShare d)) ∗ (∃ r, prngReg c r)) := by
  unfold Pipeline.ΦA; rw [scopedRest1_eq]; unfold others1
  simp only [scM1_0, scM1_1, scM1_2, owns_whole]
  exact regroup1 _ _ _ _ _ _ _ _ _ _ _

/-! ## The even case: reset, then one update -/

set_option maxHeartbeats 1000000 in
/-- The pieces the body's stores leave in the three carried arrays at an even position (first condition taken,
    second not), with the proof that, handed the query block `x0`, the key tile `x1` and the value tile `x2` in
    their staging memrefs, the output's staging memref at any contents `xi3` and the three carried arrays at
    anything, the body reaches a continuation that takes back the four window buffers as they were and each carried
    array with its pieces written. Nothing is assumed of the carried arrays because the body overwrites each of
    them whole before its first read. -/
noncomputable def kernelRun1_E (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i)
    (x0 : Vec F S1x512x1024 .bf16) (x1 x2 : Vec F S1x1024x1024 .bf16) :
    Σ' (LS0 : List (View.Piece (Elt F) S1x512x1 .f32)) (LS1 : List (View.Piece (Elt F) S1x512x1 .f32)),
      { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

/-! ## The odd case: one update from the carried arrays, then the quotient -/

set_option maxHeartbeats 1000000 in
/-- The pieces the body's stores leave in the output block and in the three carried arrays at an odd position (first
    condition not taken, second taken), with the proof that, handed the three input blocks, the output's staging
    memref at anything and the carried arrays at the contents `xs0`, `xs1`, `xs2` the position before left, the body
    reaches a continuation that takes back the inputs as they were and the other four buffers with their pieces
    written. -/
noncomputable def kernelRun1_O (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i)
    (x0 : Vec F S1x512x1024 .bf16) (x1 x2 : Vec F S1x1024x1024 .bf16)
    (xs0 xs1 : Vec F S1x512x1 .f32) (xs2 : Vec F S1x512x1024 .f32) :
    Σ' (L3 : List (View.Piece (Elt F) S1x512x1024 .f32)) (LS0 : List (View.Piece (Elt F) S1x512x1 .f32))
      (LS1 : List (View.Piece (Elt F) S1x512x1 .f32)),
      { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1.lean ====
/-
  Region 1 (attention over two key tiles): the proof data of its pipeline, the invariant that carries the three
  scratch arrays from one grid point to the next, and the body obligation.

  The grid is 8 x 4 x 2 and the last coordinate, the key tile, moves fastest: positions 2k and 2k+1 are the two key
  tiles of one query block. The body keeps, for the 512 query rows of the block, a running row maximum m, a running
  row sum l and a running weighted sum acc of value rows. At the even position it resets them (m = -inf, l = 0,
  acc = 0) and folds in key tile 0; at the odd position it folds in key tile 1 and stores acc / l into the output
  block, which is written back to the result array there and only there.

  So the invariant between positions says: after position n the three scratch arrays hold exactly `scrAt … n` (the
  pure fold of `step` over the key tiles seen so far in the current query block). The body obligation is then two
  cases, one per parity, each closed by the corresponding whole-body run: what the run's stores leave, read back
  through whole-buffer loads and stores, is a component of `step` (or `fin` of it, for the output block).
-/
import proofs.«165592_j29360396436110_2_alg».proof.Proof.K.Reg1Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces the runs found, read back as the pure update

Every load and store of the body is of a whole buffer, so a store's canonical contents are its payload and a load
reads the buffer's contents: what the last store into each carried array leaves is one component of `step` applied
to the three input blocks and to the contents the first reads of the carried arrays saw. -/

theorem zeros3_1 : (![0, 0, 0] : Fin 3 → Nat) = fun _ => 0 := funext fun a => by fin_cases a <;> rfl

/-- Even position, running maximum: reset to -inf, then the maximum with the tile's row maxima. -/
theorem canon1_E_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).1 = (step x0 x1 x2 scr0).1 := by
  unfold kernelRun1_E
  dsimp only
  sl_unfold_words
  refine (View.canon_cons_unit_zero (S := S1x512x1) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Even position, running sum: reset to 0, then rescaled and increased by the tile's sum of exponentials. -/
theorem canon1_E_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).2.1 = (step x0 x1 x2 scr0).2.1 := by
  unfold kernelRun1_E
  dsimp only
  sl_unfold_words
  refine (View.canon_cons_unit_zero (S := S1x512x1) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Even position, running weighted sum: reset to 0, then rescaled and increased by the exponentials times the
    value rows. -/
theorem canon1_E_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).2.2.1 = (step x0 x1 x2 scr0).2.2 := by
  unfold kernelRun1_E
  dsimp only
  sl_unfold_words
  refine (View.canon_cons_unit_zero (S := S1x512x1024) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running maximum: the update of what the position before left. -/
theorem canon1_O_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.1 = (step x0 x1 x2 (xs0, xs1, xs2)).1 := by
  unfold kernelRun1_O
  dsimp only
  sl_unfold_words
  refine (View.canon_unit_zero (S := S1x512x1) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running sum. -/
theorem canon1_O_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.2.1 = (step x0 x1 x2 (xs0, xs1, xs2)).2.1 := by
  unfold kernelRun1_O
  dsimp only
  sl_unfold_words
  refine (View.canon_unit_zero (S := S1x512x1) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running weighted sum. -/
theorem canon1_O_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.2.2.1 = (step x0 x1 x2 (xs0, xs1, xs2)).2.2 := by
  unfold kernelRun1_O
  dsimp only
  sl_unfold_words
  refine (View.canon_unit_zero (S := S1x512x1024) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, the output block: the updated weighted sum over the updated sum, both read back after their
    stores. -/
theorem canon1_O_3 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).1 = fin (step x0 x1 x2 (xs0, xs1, xs2)) := by
  unfold kernelRun1_O
  dsimp only
  sl_unfold_words
  refine (View.canon_unit_zero (S := S1x512x1024) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-! ## The pieces cover

In both cases the last store into each buffer is of the whole buffer, so the pieces tile it. -/

theorem scover1_E_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1.Idx) : ∃ pc ∈ (kernelRun1_E c i arg3 harg3 arg4 harg4 arg5 harg5 arg6 harg6 arg7 harg7 arg8 harg8 arg9 harg9 hc0 hc1 x0 x1 x2).1, y ∈ pc.1.set :=
  View.cover_of_tiledL (kernelRun1_E c i arg3 harg3 arg4 harg4 arg5 harg5 arg6 harg6 arg7 harg7 arg8 harg8 arg9 harg9 hc0 hc1 x0 x1 x2).1 S1x512x1.size (by sl_kernel_rfl) y
theorem scover1_E_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1.Idx) : ∃ pc ∈ (kernelRun1_E c i arg3 harg3 arg4 harg4 arg5 harg5 arg6 harg6 arg7 harg7 arg8 harg8 arg9 harg9 hc0 hc1 x0 x1 x2).2.1, y ∈ pc.1.set :=
  View.cover_of_tiledL (kernelRun1_E c i arg3 harg3 arg4 harg4 arg5 harg5 arg6 harg6 arg7 harg7 arg8 harg8 arg9 harg9 hc0 hc1 x0 x1 x2).2.1 S1x512x1.size (by sl_kernel_rfl) y
theorem scover1_E_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1024.Idx) : ∃ pc ∈ (kernelRun1_E c i arg3 harg3 arg4 harg4 arg5 harg5 arg6 harg6 arg7 harg7 arg8 harg8 arg9 harg9 hc0 hc1 x0 x1 x2).2.2.1, y ∈ pc.1.set :=
  View.cover_of_tiledL (kernelRun1_E c i arg3 harg3 arg4 harg4 arg5 harg5 arg6 harg6 arg7 harg7 arg8 harg8 arg9 harg9 hc0 hc1 x0 x1 x2).2.2.1 S1x512x1024.size (by sl_kernel_rfl) y
theorem cover1_O_3 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1024.Idx) : ∃ pc ∈ (kernelRun1_O c i arg3 harg3 arg4 harg4 arg5 harg5 arg6 harg6 arg7 harg7 arg8 harg8 arg9 harg9 hc0 hc1 x0 x1 x2 xs0 xs1 xs2).1, y ∈ pc.1.set :=
  View.cover_of_tiledL (kernelRun1_O c i arg3 harg3 arg4 harg4 arg5 harg5 arg6 harg6 arg7 harg7 arg8 harg8 arg9 harg9 hc0 hc1 x0 x1 x2 xs0 xs1 xs2).1 S1x512x1024.size (by sl_kernel_rfl) y
theorem scover1_O_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1.Idx) : ∃ pc ∈ (kernelRun1_O c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.1 S1x512x1.size (by sl_kernel_rfl) y
theorem scover1_O_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1.Idx) : ∃ pc ∈ (kernelRun1_O c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.2.1 S1x512x1.size (by sl_kernel_rfl) y
theorem scover1_O_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1024.Idx) : ∃ pc ∈ (kernelRun1_O c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.2.2.1 S1x512x1024.size (by sl_kernel_rfl) y

/-! ## The carried arrays, position by position -/

/-- At an even position (first key tile of a query block) the carried arrays after the body are one update of the
    start values. -/
theorem scrAt_even1 (c : Dev nD) (t : Fin cfg1.N) (h : t.val % 2 = 0) :
    scrAt V c t.val t.isLt = step (iblk1 V c 0 t) (iblk1 V c 1 t) (iblk1 V c 2 t) scr0 := by
  obtain ⟨n, hn⟩ := t
  cases n with
  | zero => rfl
  | succ n =>
    show step _ _ _ (if (n + 1) % 2 = 0 then scr0 else scrAt V c n _) = _
    rw [if_pos h]

/-- At an odd position they are one update of what the position before left. -/
theorem scrAt_odd1 (c : Dev nD) (t : Fin cfg1.N) (h : t.val % 2 = 1) :
    scrAt V c t.val t.isLt = step (iblk1 V c 0 t) (iblk1 V c 1 t) (iblk1 V c 2 t)
      (scrAt V c (t.val - 1) (Nat.lt_of_le_of_lt (Nat.sub_le _ _) t.isLt)) := by
  obtain ⟨n, hn⟩ := t
  cases n with
  | zero => exact absurd h (by dsimp only; omega)
  | succ n =>
    show step _ _ _ (if (n + 1) % 2 = 0 then scr0 else scrAt V c n _) = _
    rw [if_neg (by dsimp only at h; omega)]; rfl

/-! ## The invariant -/

/-- The region's invariant before position `n`. Before the first point it is what the launch hands over (every scoped
    buffer that is no staging buffer of this pipeline at some contents, the generator register at some state);
    after position `n` the three carried arrays are owned at exactly `scrAt … n`, the nine foreign buffers are still
    at some contents, and so is the generator register. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare (scrAt V c n hn).1
      ∗ owns (c : Thread nD τ) scM1_1 fullShare (scrAt V c n hn).2.1
      ∗ owns (c : Thread nD τ) scM1_2 fullShare (scrAt V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare (scrAt V c n hn).1
      ∗ owns (c : Thread nD τ) scM1_1 fullShare (scrAt V c n hn).2.1
      ∗ owns (c : Thread nD τ) scM1_2 fullShare (scrAt V c n hn).2.2) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare (scrAt V c (n - 1) (by omega)).1
      ∗ owns (c : Thread nD τ) scM1_1 fullShare (scrAt V c (n - 1) (by omega)).2.1
      ∗ owns (c : Thread nD τ) scM1_2 fullShare (scrAt V c (n - 1) (by omega)).2.2) ∗ (∃ r, prngReg c r)) := by
  cases n with
  | zero => exact absurd rfl hz
  | succ n => rfl

/-! ## The proof data -/

/-- The proof data of the attention pipeline on core `c`: the arrays as the region finds them; after the body each
    input window's buffer still holds its block and the output window's holds the quotient of the carried arrays at
    that position (read only at the odd positions, where the block is written back); the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin (scrAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin (scrAt V c t.val t.isLt) := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- An input window's current staging buffer holds its block at every point, fetched there or not: the body leaves
    the block in place, and an input not fetched at a point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## What each buffer holds after the body at a point

The run's pieces written over ANY prior contents of a carried array read back as that array's component of
`scrAt` at the point: the pieces cover, their canonical contents are a component of `step`, and `scrAt` at the
point is that `step`. -/

section AtPoint
variable (c : Dev nD) (t : Fin cfg1.N)

/-- The even case's run at point `t`: on the pipeline's current staging memrefs and the three carried arrays, from
    the three input blocks at `t`. -/
abbrev runAtE (hc0 : cond1_0 (grid1.coords t)) (hc1 : ¬cond1_1 (grid1.coords t)) :=
  (kernelRun1_E c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))

/-- The odd case's run at point `t`, from the input blocks at `t` and what the position before left in the carried
    arrays. -/
abbrev runAtO (hc0 : ¬cond1_0 (grid1.coords t)) (hc1 : cond1_1 (grid1.coords t)) :=
  (kernelRun1_O c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
      (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)

theorem left1_E_0 (h0 : t.val % 2 = 0) (hc0 : cond1_0 (grid1.coords t)) (hc1 : ¬cond1_1 (grid1.coords t))
    (f : VS1_0.ty.Contents (Elt F)) :
    VS1_0.read (Elt F) (VS1_0.writes (Elt F) f (runAtE V c t hc0 hc1).1) = (scrAt V c t.val t.isLt).1 :=
  (View.read_writes_eq_canon VS1_0 f (runAtE V c t hc0 hc1).1
      (scover1_E_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.1) (scrAt_even1 V c t h0).symm))

theorem left1_E_1 (h0 : t.val % 2 = 0) (hc0 : cond1_0 (grid1.coords t)) (hc1 : ¬cond1_1 (grid1.coords t))
    (f : VS1_1.ty.Contents (Elt F)) :
    VS1_1.read (Elt F) (VS1_1.writes (Elt F) f (runAtE V c t hc0 hc1).2.1) = (scrAt V c t.val t.isLt).2.1 :=
  (View.read_writes_eq_canon VS1_1 f (runAtE V c t hc0 hc1).2.1
      (scover1_E_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.2.1) (scrAt_even1 V c t h0).symm))

theorem left1_E_2 (h0 : t.val % 2 = 0) (hc0 : cond1_0 (grid1.coords t)) (hc1 : ¬cond1_1 (grid1.coords t))
    (f : VS1_2.ty.Contents (Elt F)) :
    VS1_2.read (Elt F) (VS1_2.writes (Elt F) f (runAtE V c t hc0 hc1).2.2.1) = (scrAt V c t.val t.isLt).2.2 :=
  (View.read_writes_eq_canon VS1_2 f (runAtE V c t hc0 hc1).2.2.1
      (scover1_E_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.2.2) (scrAt_even1 V c t h0).symm))

theorem left1_O_0 (h1 : t.val % 2 = 1) (hc0 : ¬cond1_0 (grid1.coords t)) (hc1 : cond1_1 (grid1.coords t))
    (f : VS1_0.ty.Contents (Elt F)) :
    VS1_0.read (Elt F) (VS1_0.writes (Elt F) f (runAtO V c t hc0 hc1).2.1) = (scrAt V c t.val t.isLt).1 :=
  (View.read_writes_eq_canon VS1_0 f (runAtO V c t hc0 hc1).2.1
      (scover1_O_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.1) (scrAt_odd1 V c t h1).symm))

theorem left1_O_1 (h1 : t.val % 2 = 1) (hc0 : ¬cond1_0 (grid1.coords t)) (hc1 : cond1_1 (grid1.coords t))
    (f : VS1_1.ty.Contents (Elt F)) :
    VS1_1.read (Elt F) (VS1_1.writes (Elt F) f (runAtO V c t hc0 hc1).2.2.1) = (scrAt V c t.val t.isLt).2.1 :=
  (View.read_writes_eq_canon VS1_1 f (runAtO V c t hc0 hc1).2.2.1
      (scover1_O_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.2.1) (scrAt_odd1 V c t h1).symm))

theorem left1_O_2 (h1 : t.val % 2 = 1) (hc0 : ¬cond1_0 (grid1.coords t)) (hc1 : cond1_1 (grid1.coords t))
    (f : VS1_2.ty.Contents (Elt F)) :
    VS1_2.read (Elt F) (VS1_2.writes (Elt F) f (runAtO V c t hc0 hc1).2.2.2.1) = (scrAt V c t.val t.isLt).2.2 :=
  (View.read_writes_eq_canon VS1_2 f (runAtO V c t hc0 hc1).2.2.2.1
      (scover1_O_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.2.2) (scrAt_odd1 V c t h1).symm))

/-- The output block after the body at an odd point: the quotient of the carried arrays there. -/
theorem left1_O_3 (h1 : t.val % 2 = 1) (hc0 : ¬cond1_0 (grid1.coords t)) (hc1 : cond1_1 (grid1.coords t))
    (f : (ms1_3 t).view.ty.Contents (Elt F)) :
    (ms1_3 t).view.read (Elt F) ((ms1_3 t).view.writes (Elt F) f (runAtO V c t hc0 hc1).1) = fin (scrAt V c t.val t.isLt) :=
  (View.read_writes_eq_canon (ms1_3 t).view f (runAtO V c t hc0 hc1).1
      (cover1_O_3 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_3 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg fin (scrAt_odd1 V c t h1).symm))

end AtPoint

/-! ## The body obligation, at a generic point -/

/-- What the body is called with at point `t`: the invariant, what the core owes, and each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input windows' buffers hold their blocks. The position's parity says which case the
    point is in. At an even position the invariant hands over the carried arrays at whatever they hold (what the
    launch left, or the finished values of the query block before), the even run applies, the output window's buffer
    comes back as it went in, and the carried arrays come back at one update of the start values. At an odd position
    the invariant hands over the carried arrays at what the even position before left, the odd run applies, the
    carried arrays come back at one more update and the output window's buffer at their quotient. The nine foreign
    buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t h0) (noFlush1_3 t h0)]
    by_cases hz : t.val = 0
    · rw [PhiS1_castSucc V c t, PhiS1_zero V c _ _ hz, PhiA1_eq]
      iintro ⟨⟨⟨Hoth, HS0, HS1, HS2⟩, Hg⟩, Ho, ⟨%d0, H0⟩, ⟨%d1, H1⟩, ⟨%d2, H2⟩, ⟨%d3, H3⟩⟩
      iapply ((runAtE V c t hc0 hc1).2.2.2 ((dat1 V c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitr [Hg]
        · isplitl [Hoth]; · iexact Hoth
          isplitl [HS0]
          · unfold owns; iexists _; isplitr
            swap; · iexact HS0
            ipureintro; exact left1_E_0 V c t h0 hc0 hc1 _
          isplitl [HS1]
          · unfold owns; iexists _; isplitr
            swap; · iexact HS1
            ipureintro; exact left1_E_1 V c t h0 hc0 hc1 _
          unfold owns; iexists _; isplitr
          swap; · iexact HS2
          ipureintro; exact left1_E_2 V c t h0 hc0 hc1 _
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((runAtE V c t hc0 hc1).2.2.2 ((dat1 V c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitr [Hg]
        · isplitl [Hoth]; · iexact Hoth
          isplitl [HS0]
          · unfold owns; iexists _; isplitr
            swap; · iexact HS0
            ipureintro; exact left1_E_0 V c t h0 hc0 hc1 _
          isplitl [HS1]
          · unfold owns; iexists _; isplitr
            swap; · iexact HS1
            ipureintro; exact left1_E_1 V c t h0 hc0 hc1 _
          unfold owns; iexists _; isplitr
          swap; · iexact HS2
          ipureintro; exact left1_E_2 V c t h0 hc0 hc1 _
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3 t h1], after1_3]
    rw [PhiS1_castSucc V c t, PhiS1_pos V c _ _ hz]
    iintro ⟨⟨⟨Hoth, HS0, HS1, HS2⟩, Hg⟩, Ho, ⟨%d0, H0⟩, ⟨%d1, H1⟩, ⟨%d2, H2⟩, ⟨%d3, H3⟩⟩
    iapply ((runAtO V c t hc0 hc1).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hoth HS0 HS1 HS2 Hg]
    · isplitr [Hg]
      · isplitl [Hoth]; · iexact Hoth
        isplitl [HS0]
        · unfold owns; iexists _; isplitr
          swap; · iexact HS0
          ipureintro; exact left1_O_0 V c t h1 hc0 hc1 _
        isplitl [HS1]
        · unfold owns; iexists _; isplitr
          swap; · iexact HS1
          ipureintro; exact left1_O_1 V c t h1 hc0 hc1 _
        unfold owns; iexists _; isplitr
        swap; · iexact HS2
        ipureintro; exact left1_O_2 V c t h1 hc0 hc1 _
      iexact Hg
    isplitl [Ho]; · iexact Ho
    isplitl [H0]; · iexact H0
    isplitl [H1]; · iexact H1
    isplitl [H2]; · iexact H2
    unfold owns; iexists _; isplitr
    swap; · iexact H3
    ipureintro; exact left1_O_3 V c t h1 hc0 hc1 _

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives back what the launch handed over: the carried arrays' contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0, HS1, HS2⟩, Hg⟩
  isplitr [Hg]
  · isplitl [Hoth]; · iexact Hoth
    isplitl [HS0]; · iexists _; iexact HS0
    isplitl [HS1]; · iexists _; iexact HS1
    iexists _; iexact HS2
  iexact Hg

/-- In particular after the last. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.Hand

end
-- ==== Proof.K.Run.lean ====
/-
  The whole program as a chain of four items -- host operations, region 0, host operations, region 1 -- and
  its run: the contents of every buffer outside the kernels' own memory at each boundary, named as a fold
  from the launch memory; each region entered from the boundary before it and left at the one after it, its
  window arrays holding what its write-backs leave; and at the end every such buffer read at the last boundary.
  Nothing writes an argument array, so the two arguments end as launched; the result array ends at what
  region 1's write-backs leave in it.
-/
import proofs.«165592_j29360396436110_2_alg».proof.Proof.K.Reg0
import proofs.«165592_j29360396436110_2_alg».proof.Proof.K.Reg1
import proofs.«165592_j29360396436110_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the first host operations (the flattened input, the weight stack in the narrow format): region 0's entry. -/
abbrev W1 (c : Dev nD) : Valuation τ sig (Elt F) := StableHlo.after hostOps0 (W0 m c)
/-- The same read at the core's own references. -/
abbrev Vin0 : (c : Dev nD) → (b : Ref sig .tc) → Buf (Elt F) ((c : Thread nD τ).loc b) := fun c b => W1 m c b
/-- At region 0's exit: its window arrays at what the write-backs leave, everything else as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second host operations (the three projections reshaped to [8, 2048, 1024]): region 1's entry. -/
abbrev W3 (c : Dev nD) : Valuation τ sig (Elt F) := StableHlo.after hostOps1 (W2 m c)
abbrev Vin1 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-! ### The arguments end as launched: no host operation writes one and no window stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-! ## The proof data of both pipelines and the state carried between items -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tn (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0: entered from every buffer at `W1`, left at `W2`. Its window arrays are split out of the buffers and
    put back at their exit contents; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at `W3`, left at `W4`. Its invariant starts as the plain one (every
    scratch array at anything) and ends giving the plain one back, the carried arrays' contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (show Pipeline.ΦA spec1 c ⊢ (pdats m 1 c).Φ 0 from hin1 (Vin1 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (Vin1 m) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- The program IS the run of the four items. -/
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each buffer outside the kernels' own memory holds the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.Kernel.Hand

end
-- ==== Proof.KI.Defs.lean ====
/-
  The pure pieces of the two kernel regions, stated once for the frame halves and the value proofs alike,
  at any float instance `F` and at a parameter `V` (the buffer contents a region is entered from).

  Region 0 (the three projections): at a grid point the body reads a 512-row block of the flattened input and the
  whole weight stack, and stores three 512x1024 blocks: block * W[0] * 2^-5, block * W[1], block * W[2].

  Region 1 (attention, keys in two tiles of 1024): three scratch arrays are carried from the first key tile of a
  query block to the second -- the running row maximum, the running row sum and the running weighted sum of value
  rows. `step` is one key tile's update of the three; `fin` is the quotient stored after the last tile.
-/
import proofs.«165592_j29360396436110_2_alg».proof.Proof.Gen.KernelIdeal.Skeleton
import proofs.«165592_j29360396436110_2_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512x1024 block. -/
abbrev rB0 : Rect S512x1024 := Rect.unit (s := S512x1024) ![0, 0] S512x1024.size inb_S512x1024_S512x1024_0_0
/-- Matrix `j` of the weight stack. -/
abbrev rW0_0 : Rect S3x1024x1024 := Rect.unit (s := S3x1024x1024) ![0, 0, 0] S1x1024x1024.size inb_S3x1024x1024_S1x1024x1024_0_0_0
abbrev rW0_1 : Rect S3x1024x1024 := Rect.unit (s := S3x1024x1024) ![1, 0, 0] S1x1024x1024.size inb_S3x1024x1024_S1x1024x1024_1_0_0
abbrev rW0_2 : Rect S3x1024x1024 := Rect.unit (s := S3x1024x1024) ![2, 0, 0] S1x1024x1024.size inb_S3x1024x1024_S1x1024x1024_2_0_0

/-- What the body leaves in the query window's buffer: its one store, of the scaled product with W[0]. -/
def out0_2 (x0 : Vec F S512x1024 .f32) (x1 : Vec F S3x1024x1024 .bf16) : Vec F S512x1024 .bf16 :=
  View.canon [⟨rB0, k0_pay2 (View.ld x0 rB0) (View.ld x1 rW0_0)⟩]
/-- The key window's: the product with W[1]. -/
def out0_3 (x0 : Vec F S512x1024 .f32) (x1 : Vec F S3x1024x1024 .bf16) : Vec F S512x1024 .bf16 :=
  View.canon [⟨rB0, k0_pay3 (View.ld x0 rB0) (View.ld x1 rW0_1)⟩]
/-- The value window's: the product with W[2]. -/
def out0_4 (x0 : Vec F S512x1024 .f32) (x1 : Vec F S3x1024x1024 .bf16) : Vec F S512x1024 .bf16 :=
  View.canon [⟨rB0, k0_pay4 (View.ld x0 rB0) (View.ld x1 rW0_2)⟩]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three carried arrays: running row maximum, running row sum, running weighted sum of value rows. -/
abbrev Scr (F : FTy → Type) : Type := Vec F S1x512x1 .f32 × Vec F S1x512x1 .f32 × Vec F S1x512x1024 .f32

/-- What the first key tile starts from: maximum -inf, sum 0, weighted sum 0. -/
def scr0 : Scr F := (k1_pay4, k1_pay5, k1_pay6)

/-- One key tile's update, from the query block `q`, the key tile `k`, the value tile `v` and the carried arrays:
    the new maximum; the old sum rescaled plus the tile's sum of exponentials; the old weighted sum rescaled plus
    the tile's exponentials times the value rows. -/
def step (q : Vec F S1x512x1024 .bf16) (k v : Vec F S1x1024x1024 .bf16) (s : Scr F) : Scr F :=
  (k1_pay2 (k1_pay9 q k s.1), k1_pay12 q k s.1 s.1 s.2.1, k1_pay1 (k1_pay7 v) (k1_pay10 q k s.1 s.1) (k1_pay11 q k s.1) s.2.2)

/-- The quotient stored after the last key tile: weighted sum over sum. -/
def fin (s : Scr F) : Vec F S1x512x1024 .f32 := k1_pay3 s.2.2 s.2.1

/-- The carried arrays after the body at position `n`: at an even position (first key tile of a query block) one
    step from the start, at an odd one a step from what the position before left. -/
def scrAt (c : Dev nD) : (n : ℕ) → n < cfg1.N → Scr F
  | 0, hn => step (iblk1 V c 0 ⟨0, hn⟩) (iblk1 V c 1 ⟨0, hn⟩) (iblk1 V c 2 ⟨0, hn⟩) scr0
  | n + 1, hn => step (iblk1 V c 0 ⟨n + 1, hn⟩) (iblk1 V c 1 ⟨n + 1, hn⟩) (iblk1 V c 2 ⟨n + 1, hn⟩)
      (if (n + 1) % 2 = 0 then scr0 else scrAt c n (Nat.lt_of_succ_lt hn))

end Cert.KernelIdeal.Hand

end
-- ==== Proof.KI.Reg0.lean ====
/-
  Region 0 (the three projections), the frame half: what each window's staging buffer holds when the body is
  entered at a grid point, what the body leaves in it, and the proof that the body, run on those buffers, does so.

  The grid has 32 points; point t works on rows 512 t .. 512 t + 511 of the flattened 16384 x 1024 input. Two
  windows are read: window 0 is that 512 x 1024 block of f32 (a new block at every point), window 1 is the whole
  stack of three 1024 x 1024 bf16 weight matrices (one block, the same at every point, moved in once). Three windows
  are written, each a 512 x 1024 bf16 block moved out at every point: with X the input block rounded to bf16,
      window 2 <- round ((X . W[0]) * 2^-5),   window 3 <- round (X . W[1]),   window 4 <- round (X . W[2]).
  The body reads the input block whole, reads matrix j of the stack through the rectangle [j, 0, 0] + 1x1024x1024,
  reads each output buffer once without using what it read, and stores each product whole.
-/
import proofs.«165592_j29360396436110_2_alg».proof.Proof.KI.Defs
import proofs.«165592_j29360396436110_2_alg».proof.Proof.Gen.KernelIdeal.Launch
import proofs.«165592_j29360396436110_2_alg».proof.Proof.Gen.KernelIdeal.Skeleton
import proofs.«165592_j29360396436110_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that one 512 x 1024 rectangle tiles the 512 x 1024 shape walks the long axes coordinate by coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One whole-block store covers the block -/

/-- Each output buffer receives a single store, through the rectangle that is the whole 512 x 1024 block; so every
    index of the block lies in the rectangle of some (namely that) store. The rectangle has the block's own sizes
    at offset 0: one tile of the block's size tiles the block, which is checked by evaluation. -/
theorem covB0 (p : Vec F S512x1024 .bf16) (y : S512x1024.Idx) :
    ∃ pc ∈ ([⟨rB0, p⟩] : List (View.Piece (Elt F) S512x1024 .bf16)), y ∈ pc.1.set :=
  View.cover_of_tiled [⟨rB0, p⟩] S512x1024.size (by rfl) y

/-! ## The body on five whole buffers -/

set_option maxHeartbeats 1000000 in
/-- The body's triple. Given the input buffer reading x0, the weight buffer reading x1 and the three output buffers
    at any contents whatever, the body ends with the two inputs as they were and output j holding the j-th product
    computed from x0 and x1 (the definitions out0_2, out0_3, out0_4). The loads return x0 through the whole-block
    rectangle and x1 through matrix j's rectangle; the loads of the outputs return values nobody uses, and only need
    the buffers to be owned; after the store, an output buffer read back is the stored payload at every index, because
    the one store covers the block. The memory operations are run one at a time by symbolic execution. -/
theorem proj_triple0 (c : Dev nD) (E : Set ℕ) (i : grid0.Coords)
    (a0 : Memref sig .tc .vmem S512x1024 .f32) (ha0 : a0.IsWhole)
    (a1 : Memref sig .tc .vmem S3x1024x1024 .bf16) (ha1 : a1.IsWhole)
    (a2 : Memref sig .tc .vmem S512x1024 .bf16) (ha2 : a2.IsWhole)
    (a3 : Memref sig .tc .vmem S512x1024 .bf16) (ha3 : a3.IsWhole)
    (a4 : Memref sig .tc .vmem S512x1024 .bf16) (ha4 : a4.IsWhole)
    (x0 : Vec F S512x1024 .f32) (x1 : Vec F S3x1024x1024 .bf16) (K : PUnit → sProp 𝕄) :
    iprop(owns (c : Thread nD τ) a0 fullShare x0 ∗ owns (c : Thread nD τ) a1 fullShare x1
        ∗ (∃ d, owns (c : Thread nD τ) a2 fullShare d) ∗ (∃ d, owns (c : Thread nD τ) a3 fullShare d)
        ∗ (∃ d, owns (c : Thread nD τ) a4 fullShare d)
        ∗ (iprop(owns (c : Thread nD τ) a0 fullShare x0 ∗ owns (c : Thread nD τ) a1 fullShare x1
            ∗ owns (c : Thread nD τ) a2 fullShare (out0_2 x0 x1) ∗ owns (c : Thread nD τ) a3 fullShare (out0_3 x0 x1)
            ∗ owns (c : Thread nD τ) a4 fullShare (out0_4 x0 x1)) -∗ K ⟨⟩))
      ⊢ wp frame (wpE (defs₀ (F := F)) Variants.none c none) E (cc0__proj_kernel i a0 ha0 a1 ha1 a2 ha2 a3 ha3 a4 ha4) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (covB0 _)
  isplitl [H3]
  · iexists _; isplitr
    swap; · iexact H3
    ipureintro
    exact View.read_writes_eq_canon _ _ _ (covB0 _)
  iexists _; isplitr
  swap; · iexact H4
  ipureintro
  exact View.read_writes_eq_canon _ _ _ (covB0 _)

/-! ## The pipeline's proof data -/

/-- Region 0's data on core c. The five arrays are what the region finds (V). After the body at point t the two
    input buffers still hold their blocks and the three output buffers hold the three products of those blocks. The
    invariant is the one of a body that touches nothing but its windows (the other scoped buffers and the generator
    register pass through); the arrays are held whole; the core owes nothing to anyone. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window: the case split on the window, reduced. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-! ## What an input buffer holds when the body is entered -/

/-- The input block's buffer holds block t of the flattened input at point t. The window is moved in at every point,
    so this is just "a fetched buffer holds the block"; stated through the lemma that also covers an unfetched point
    (there the block index has not moved since the last fetch and the body left the block in place). -/
theorem holds0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight stack's buffer holds the whole stack at every point, though it is moved in at the first point only:
    its block index is the same at all points (there is one block), and the body never writes the buffer, so what was
    fetched at point 0 is still there and is also what a fetch at point t would bring. -/
theorem holds0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the body is handed at point t: the invariant, the core's (empty) debts, and each window's current staging
    buffer -- the inputs' at what they hold, the outputs' at whatever an earlier point or nobody left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back: the same invariant and debts, and each buffer at what the data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at point t. The two input buffers hold their blocks (holds0_0, holds0_1), so the body's triple applies
    at x0 := the input block, x1 := the weight stack; the output buffers are handed over at whatever they hold. The
    invariant and the debts are the same before and after the point and pass through untouched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [holds0_0, holds0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (proj_triple0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation as the pipeline rule asks it, at every point: the conjunction over the five windows written out
    window by window is the pre- and postcondition above. -/
theorem body_obligation0 (c : Dev nD) : BodyObligation (dat0 (F := F) V c) (defs₀ (F := F)) Variants.none () Set.univ := fun t => by
  rw [bigSep_W0, bigSep_W0]
  exact body0_at V c t

end Cert.KernelIdeal.Hand

end
-- ==== Proof.KI.Reg1Runs.lean ====
/-
  Region 1 (attention over two key tiles): the kernel body run whole, once for each of its two control cases.

  The body is called at the 64 points of the grid 8 x 4 x 2; the last coordinate is the key tile. Its first
  conditional (reset the three carried arrays) is taken exactly when that coordinate is 0, its second (store the
  quotient into the output block) exactly when it is 1. So a point is in one of two cases:

    even position (key tile 0):  reset the running maximum, sum and weighted sum; load the query block, the key
                                 tile and the value tile; update the three carried arrays. The output block is
                                 left as it was found.
    odd position (key tile 1):   the same update from what the even position before left in the carried arrays;
                                 then the weighted sum divided by the sum is stored into the output block.

  For each case the run is a subtype: the lists of pieces the body's stores leave in each buffer it stores into,
  together with the proof that from the buffers it is handed the body reaches any continuation that accepts the
  inputs as they were and the stored-into buffers with those pieces written. The pieces are not written down here:
  they are found by running the body symbolically, store by store.
-/
import proofs.«165592_j29360396436110_2_alg».proof.Proof.KI.Defs
import proofs.«165592_j29360396436110_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, in closed form over the grid -/

/-- The body's first condition as it computes it from the key-tile coordinate: "the coordinate equals 0", through
    a comparison, a zero-extension and a comparison with zero. -/
abbrev cond1_0 (i : grid1.Coords) : Prop :=
  (Scalar.cmpi .ne (Scalar.extui (Scalar.cmpi .eq (BitVec.ofNat 32 (i 2).val) 0#32)) 0#32) = 1#1

/-- The key tile is the fastest coordinate and has extent 2, so it is 0 exactly at the even positions. -/
theorem hcond1_0 : ∀ t : Fin cfg1.N, cond1_0 (grid1.coords t) ↔ t.val % 2 = 0 :=
  (by decide +kernel : ∀ t : Fin grid1.N, cond1_0 (grid1.coords t) ↔ t.val % 2 = 0)

/-- The body's second condition: "the key-tile coordinate equals 1". -/
abbrev cond1_1 (i : grid1.Coords) : Prop := k1_cond2 i = 1#1

/-- It holds exactly at the odd positions. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are live -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle at the even positions (nothing is stored into it there) -/
theorem idleAt1_3 : ∀ t : Fin cfg1.N, t.val % 2 = 0 → cfg1.idle 3 (grid1.coords t) = true := by decide +kernel
/-- and is not written back there; -/
theorem noFlush1_3 : ∀ t : Fin cfg1.N, t.val % 2 = 0 → (cfg1.win 3).flush t = false := by decide +kernel
/-- it is live at the odd positions. -/
theorem liveAt1_3 : ∀ t : Fin cfg1.N, t.val % 2 = 1 → cfg1.idle 3 (grid1.coords t) = false := by decide +kernel

/-! ## The buffers the body is called on -/

/-- Each window's current staging memref at point `t`, spelt as the pipeline passes it, with its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)

/-- The three carried arrays: whole scoped buffers of the kernel's own, passed beside the windows. -/
abbrev scM1_0 : Memref sig .tc .vmem S1x512x1 .f32 := Memref.whole cc1_scratch0
abbrev scM1_1 : Memref sig .tc .vmem S1x512x1 .f32 := Memref.whole cc1_scratch1
abbrev scM1_2 : Memref sig .tc .vmem S1x512x1024 .f32 := Memref.whole cc1_scratch2
/-- The views through which what they hold is stated. -/
abbrev VS1_0 : View sig .tc .vmem S1x512x1 .f32 := scM1_0.view
abbrev VS1_1 : View sig .tc .vmem S1x512x1 .f32 := scM1_1.view
abbrev VS1_2 : View sig .tc .vmem S1x512x1024 .f32 := scM1_2.view

/-- The other scoped buffers of the core that are no staging buffer of this pipeline: the first region's nine
    staging buffers, each at some contents. The body never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Nine conjuncts in front of a tail, regrouped as one block beside the tail (separating conjunction is
    associative). -/
theorem regroup1 (A1 A2 A3 A4 A5 A6 A7 A8 A9 B G : sProp 𝕄) :
    iprop((A1 ∗ A2 ∗ A3 ∗ A4 ∗ A5 ∗ A6 ∗ A7 ∗ A8 ∗ A9 ∗ B) ∗ G)
      = iprop(((A1 ∗ A2 ∗ A3 ∗ A4 ∗ A5 ∗ A6 ∗ A7 ∗ A8 ∗ A9) ∗ B) ∗ G) := by
  have h₁ : iprop((A1 ∗ A2 ∗ A3 ∗ A4 ∗ A5 ∗ A6 ∗ A7 ∗ A8 ∗ A9 ∗ B) ∗ G)
      ⊢ iprop(((A1 ∗ A2 ∗ A3 ∗ A4 ∗ A5 ∗ A6 ∗ A7 ∗ A8 ∗ A9) ∗ B) ∗ G) := by
    iintro ⟨⟨H1, H2, H3, H4, H5, H6, H7, H8, H9, HB⟩, HG⟩; iframe
  have h₂ : iprop(((A1 ∗ A2 ∗ A3 ∗ A4 ∗ A5 ∗ A6 ∗ A7 ∗ A8 ∗ A9) ∗ B) ∗ G)
      ⊢ iprop((A1 ∗ A2 ∗ A3 ∗ A4 ∗ A5 ∗ A6 ∗ A7 ∗ A8 ∗ A9 ∗ B) ∗ G) := by
    iintro ⟨⟨⟨H1, H2, H3, H4, H5, H6, H7, H8, H9⟩, HB⟩, HG⟩; iframe
  exact BI.equiv_iff.mp ⟨h₁, h₂⟩

/-- What the launch hands the region, regrouped: the nine foreign buffers, the three carried arrays as memrefs owned
    at some contents, and the generator register at some state. -/
theorem PhiA1_eq (c : Dev nD) :
    (Pipeline.ΦA spec1 c : sProp 𝕄)
      = iprop(iprop(others1 (F := F) c ∗ (∃ d, owns (c : Thread nD τ) scM1_0 fullShare d)
          ∗ (∃ d, owns (c : Thread nD τ) scM1_1 fullShare d) ∗ (∃ d, owns (c : Thread nD τ) scM1_2 fullShare d)) ∗ (∃ r, prngReg c r)) := by
  unfold Pipeline.ΦA; rw [scopedRest1_eq]; unfold others1
  simp only [scM1_0, scM1_1, scM1_2, owns_whole]
  exact regroup1 _ _ _ _ _ _ _ _ _ _ _

/-! ## The even case: reset, then one update -/

set_option maxHeartbeats 1000000 in
/-- The pieces the body's stores leave in the three carried arrays at an even position (first condition taken,
    second not), with the proof that, handed the query block `x0`, the key tile `x1` and the value tile `x2` in
    their staging memrefs, the output's staging memref at any contents `xi3` and the three carried arrays at
    anything, the body reaches a continuation that takes back the four window buffers as they were and each carried
    array with its pieces written. Nothing is assumed of the carried arrays because the body overwrites each of
    them whole before its first read. -/
noncomputable def kernelRun1_E (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i)
    (x0 : Vec F S1x512x1024 .bf16) (x1 x2 : Vec F S1x1024x1024 .bf16) :
    Σ' (LS0 : List (View.Piece (Elt F) S1x512x1 .f32)) (LS1 : List (View.Piece (Elt F) S1x512x1 .f32)),
      { LS2 : List (View.Piece (Elt F) S1x512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

/-! ## The odd case: one update from the carried arrays, then the quotient -/

set_option maxHeartbeats 1000000 in
/-- The pieces the body's stores leave in the output block and in the three carried arrays at an odd position (first
    condition not taken, second taken), with the proof that, handed the three input blocks, the output's staging
    memref at anything and the carried arrays at the contents `xs0`, `xs1`, `xs2` the position before left, the body
    reaches a continuation that takes back the inputs as they were and the other four buffers with their pieces
    written. -/
noncomputable def kernelRun1_O (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i)
    (x0 : Vec F S1x512x1024 .bf16) (x1 x2 : Vec F S1x1024x1024 .bf16)
    (xs0 xs1 : Vec F S1x512x1 .f32) (xs2 : Vec F S1x512x1024 .f32) :
    Σ' (L3 : List (View.Piece (Elt F) S1x512x1024 .f32)) (LS0 : List (View.Piece (Elt F) S1x512x1 .f32))
      (LS1 : List (View.Piece (Elt F) S1x512x1 .f32)),
      { LS2 : List (View.Piece (Elt F) S1x512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E
              (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1.lean ====
/-
  Region 1 (attention over two key tiles): the proof data of its pipeline, the invariant that carries the three
  scratch arrays from one grid point to the next, and the body obligation.

  The grid is 8 x 4 x 2 and the last coordinate, the key tile, moves fastest: positions 2k and 2k+1 are the two key
  tiles of one query block. The body keeps, for the 512 query rows of the block, a running row maximum m, a running
  row sum l and a running weighted sum acc of value rows. At the even position it resets them (m = -inf, l = 0,
  acc = 0) and folds in key tile 0; at the odd position it folds in key tile 1 and stores acc / l into the output
  block, which is written back to the result array there and only there.

  So the invariant between positions says: after position n the three scratch arrays hold exactly `scrAt … n` (the
  pure fold of `step` over the key tiles seen so far in the current query block). The body obligation is then two
  cases, one per parity, each closed by the corresponding whole-body run: what the run's stores leave, read back
  through whole-buffer loads and stores, is a component of `step` (or `fin` of it, for the output block).
-/
import proofs.«165592_j29360396436110_2_alg».proof.Proof.KI.Reg1Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces the runs found, read back as the pure update

Every load and store of the body is of a whole buffer, so a store's canonical contents are its payload and a load
reads the buffer's contents: what the last store into each carried array leaves is one component of `step` applied
to the three input blocks and to the contents the first reads of the carried arrays saw. -/

theorem zeros3_1 : (![0, 0, 0] : Fin 3 → Nat) = fun _ => 0 := funext fun a => by fin_cases a <;> rfl

/-- Even position, running maximum: reset to -inf, then the maximum with the tile's row maxima. -/
theorem canon1_E_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).1 = (step x0 x1 x2 scr0).1 := by
  unfold kernelRun1_E
  dsimp only
  sl_unfold_words
  refine (View.canon_cons_unit_zero (S := S1x512x1) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Even position, running sum: reset to 0, then rescaled and increased by the tile's sum of exponentials. -/
theorem canon1_E_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).2.1 = (step x0 x1 x2 scr0).2.1 := by
  unfold kernelRun1_E
  dsimp only
  sl_unfold_words
  refine (View.canon_cons_unit_zero (S := S1x512x1) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Even position, running weighted sum: reset to 0, then rescaled and increased by the exponentials times the
    value rows. -/
theorem canon1_E_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) :
    View.canon (kernelRun1_E c i arg3 harg3 arg4 harg4 arg5 harg5 arg6 harg6 arg7 harg7 arg8 harg8 arg9 harg9 hc0 hc1 x0 x1 x2).2.2.1 = (step x0 x1 x2 scr0).2.2 := by
  unfold kernelRun1_E
  dsimp only
  sl_unfold_words
  refine (View.canon_cons_unit_zero (S := S1x512x1024) zeros3_1 _ _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running maximum: the update of what the position before left. -/
theorem canon1_O_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.1 = (step x0 x1 x2 (xs0, xs1, xs2)).1 := by
  unfold kernelRun1_O
  dsimp only
  sl_unfold_words
  refine (View.canon_unit_zero (S := S1x512x1) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running sum. -/
theorem canon1_O_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.2.1 = (step x0 x1 x2 (xs0, xs1, xs2)).2.1 := by
  unfold kernelRun1_O
  dsimp only
  sl_unfold_words
  refine (View.canon_unit_zero (S := S1x512x1) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, running weighted sum. -/
theorem canon1_O_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).2.2.2.1 = (step x0 x1 x2 (xs0, xs1, xs2)).2.2 := by
  unfold kernelRun1_O
  dsimp only
  sl_unfold_words
  refine (View.canon_unit_zero (S := S1x512x1024) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-- Odd position, the output block: the updated weighted sum over the updated sum, both read back after their
    stores. -/
theorem canon1_O_3 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) :
    View.canon (kernelRun1_O c i arg3 harg3 arg4 harg4 arg5 harg5 arg6 harg6 arg7 harg7 arg8 harg8 arg9 harg9 hc0 hc1 x0 x1 x2 xs0 xs1 xs2).1 = fin (step x0 x1 x2 (xs0, xs1, xs2)) := by
  unfold kernelRun1_O
  dsimp only
  sl_unfold_words
  refine (View.canon_unit_zero (S := S1x512x1024) zeros3_1 _ _).trans ?_
  simp only [View.readAt_eq_ld, harg3.read_unread, harg4.read_unread, harg5.read_unread, harg7.read_unread, harg8.read_unread, harg9.read_unread,
    View.ld_unit_zero (S := S1x512x1024) zeros3_1, View.ld_unit_zero (S := S1x1024x1024) zeros3_1, View.ld_unit_zero (S := S1x512x1) zeros3_1,
    View.readCov_unit_zero (S := S1x512x1) _ zeros3_1, View.readCov_unit_zero (S := S1x512x1024) _ zeros3_1]
  rfl

/-! ## The pieces cover

In both cases the last store into each buffer is of the whole buffer, so the pieces tile it. -/

theorem scover1_E_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1.Idx) : ∃ pc ∈ (kernelRun1_E c i arg3 harg3 arg4 harg4 arg5 harg5 arg6 harg6 arg7 harg7 arg8 harg8 arg9 harg9 hc0 hc1 x0 x1 x2).1, y ∈ pc.1.set :=
  View.cover_of_tiledL (kernelRun1_E c i arg3 harg3 arg4 harg4 arg5 harg5 arg6 harg6 arg7 harg7 arg8 harg8 arg9 harg9 hc0 hc1 x0 x1 x2).1 S1x512x1.size (by sl_kernel_rfl) y
theorem scover1_E_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1.Idx) : ∃ pc ∈ (kernelRun1_E c i arg3 harg3 arg4 harg4 arg5 harg5 arg6 harg6 arg7 harg7 arg8 harg8 arg9 harg9 hc0 hc1 x0 x1 x2).2.1, y ∈ pc.1.set :=
  View.cover_of_tiledL (kernelRun1_E c i arg3 harg3 arg4 harg4 arg5 harg5 arg6 harg6 arg7 harg7 arg8 harg8 arg9 harg9 hc0 hc1 x0 x1 x2).2.1 S1x512x1.size (by sl_kernel_rfl) y
theorem scover1_E_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : cond1_0 i) (hc1 : ¬cond1_1 i) (x0 : Vec F S1x512x1024 .bf16) (x1 x2 : Vec F S1x1024x1024 .bf16) (y : S1x512x1024.Idx) : ∃ pc ∈ (kernelRun1_E c i arg3 harg3 arg4 harg4 arg5 harg5 arg6 harg6 arg7 harg7 arg8 harg8 arg9 harg9 hc0 hc1 x0 x1 x2).2.2.1, y ∈ pc.1.set :=
  View.cover_of_tiledL (kernelRun1_E c i arg3 harg3 arg4 harg4 arg5 harg5 arg6 harg6 arg7 harg7 arg8 harg8 arg9 harg9 hc0 hc1 x0 x1 x2).2.2.1 S1x512x1024.size (by sl_kernel_rfl) y
theorem cover1_O_3 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1024.Idx) : ∃ pc ∈ (kernelRun1_O c i arg3 harg3 arg4 harg4 arg5 harg5 arg6 harg6 arg7 harg7 arg8 harg8 arg9 harg9 hc0 hc1 x0 x1 x2 xs0 xs1 xs2).1, y ∈ pc.1.set :=
  View.cover_of_tiledL (kernelRun1_O c i arg3 harg3 arg4 harg4 arg5 harg5 arg6 harg6 arg7 harg7 arg8 harg8 arg9 harg9 hc0 hc1 x0 x1 x2 xs0 xs1 xs2).1 S1x512x1024.size (by sl_kernel_rfl) y
theorem scover1_O_0 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1.Idx) : ∃ pc ∈ (kernelRun1_O c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.1 S1x512x1.size (by sl_kernel_rfl) y
theorem scover1_O_1 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1.Idx) : ∃ pc ∈ (kernelRun1_O c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.2.1 S1x512x1.size (by sl_kernel_rfl) y
theorem scover1_O_2 (c : Dev nD) (i : grid1.Coords)
    (arg3 : Memref sig .tc .vmem S1x512x1024 .bf16) (harg3 : arg3.IsWhole)
    (arg4 : Memref sig .tc .vmem S1x1024x1024 .bf16) (harg4 : arg4.IsWhole)
    (arg5 : Memref sig .tc .vmem S1x1024x1024 .bf16) (harg5 : arg5.IsWhole)
    (arg6 : Memref sig .tc .vmem S1x512x1024 .f32) (harg6 : arg6.IsWhole)
    (arg7 : Memref sig .tc .vmem S1x512x1 .f32) (harg7 : arg7.IsWhole)
    (arg8 : Memref sig .tc .vmem S1x512x1 .f32) (harg8 : arg8.IsWhole)
    (arg9 : Memref sig .tc .vmem S1x512x1024 .f32) (harg9 : arg9.IsWhole)
    (hc0 : ¬cond1_0 i) (hc1 : cond1_1 i) (x0 : Vec F S1x512x1024 .bf16) (x1 x2 : Vec F S1x1024x1024 .bf16)
    (xs0 xs1 : Vec F S1x512x1 .f32) (xs2 : Vec F S1x512x1024 .f32) (y : S1x512x1024.Idx) : ∃ pc ∈ (kernelRun1_O c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_O c i arg3 harg3 arg4 harg4 arg5 harg5 arg6 harg6 arg7 harg7 arg8 harg8 arg9 harg9 hc0 hc1 x0 x1 x2 xs0 xs1 xs2).2.2.2.1 S1x512x1024.size (by sl_kernel_rfl) y

/-! ## The carried arrays, position by position -/

/-- At an even position (first key tile of a query block) the carried arrays after the body are one update of the
    start values. -/
theorem scrAt_even1 (c : Dev nD) (t : Fin cfg1.N) (h : t.val % 2 = 0) :
    scrAt V c t.val t.isLt = step (iblk1 V c 0 t) (iblk1 V c 1 t) (iblk1 V c 2 t) scr0 := by
  obtain ⟨n, hn⟩ := t
  cases n with
  | zero => rfl
  | succ n =>
    show step _ _ _ (if (n + 1) % 2 = 0 then scr0 else scrAt V c n _) = _
    rw [if_pos h]

/-- At an odd position they are one update of what the position before left. -/
theorem scrAt_odd1 (c : Dev nD) (t : Fin cfg1.N) (h : t.val % 2 = 1) :
    scrAt V c t.val t.isLt = step (iblk1 V c 0 t) (iblk1 V c 1 t) (iblk1 V c 2 t)
      (scrAt V c (t.val - 1) (Nat.lt_of_le_of_lt (Nat.sub_le _ _) t.isLt)) := by
  obtain ⟨n, hn⟩ := t
  cases n with
  | zero => exact absurd h (by dsimp only; omega)
  | succ n =>
    show step _ _ _ (if (n + 1) % 2 = 0 then scr0 else scrAt V c n _) = _
    rw [if_neg (by dsimp only at h; omega)]; rfl

/-! ## The invariant -/

/-- The region's invariant before position `n`. Before the first point it is what the launch hands over (every scoped
    buffer that is no staging buffer of this pipeline at some contents, the generator register at some state);
    after position `n` the three carried arrays are owned at exactly `scrAt … n`, the nine foreign buffers are still
    at some contents, and so is the generator register. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare (scrAt V c n hn).1
      ∗ owns (c : Thread nD τ) scM1_1 fullShare (scrAt V c n hn).2.1
      ∗ owns (c : Thread nD τ) scM1_2 fullShare (scrAt V c n hn).2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare (scrAt V c n hn).1
      ∗ owns (c : Thread nD τ) scM1_1 fullShare (scrAt V c n hn).2.1
      ∗ owns (c : Thread nD τ) scM1_2 fullShare (scrAt V c n hn).2.2) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare (scrAt V c (n - 1) (by omega)).1
      ∗ owns (c : Thread nD τ) scM1_1 fullShare (scrAt V c (n - 1) (by omega)).2.1
      ∗ owns (c : Thread nD τ) scM1_2 fullShare (scrAt V c (n - 1) (by omega)).2.2) ∗ (∃ r, prngReg c r)) := by
  cases n with
  | zero => exact absurd rfl hz
  | succ n => rfl

/-! ## The proof data -/

/-- The proof data of the attention pipeline on core `c`: the arrays as the region finds them; after the body each
    input window's buffer still holds its block and the output window's holds the quotient of the carried arrays at
    that position (read only at the odd positions, where the block is written back); the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin (scrAt V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin (scrAt V c t.val t.isLt) := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- An input window's current staging buffer holds its block at every point, fetched there or not: the body leaves
    the block in place, and an input not fetched at a point has the block index of the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## What each buffer holds after the body at a point

The run's pieces written over ANY prior contents of a carried array read back as that array's component of
`scrAt` at the point: the pieces cover, their canonical contents are a component of `step`, and `scrAt` at the
point is that `step`. -/

section AtPoint
variable (c : Dev nD) (t : Fin cfg1.N)

/-- The even case's run at point `t`: on the pipeline's current staging memrefs and the three carried arrays, from
    the three input blocks at `t`. -/
abbrev runAtE (hc0 : cond1_0 (grid1.coords t)) (hc1 : ¬cond1_1 (grid1.coords t)) :=
  (kernelRun1_E c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))

/-- The odd case's run at point `t`, from the input blocks at `t` and what the position before left in the carried
    arrays. -/
abbrev runAtO (hc0 : ¬cond1_0 (grid1.coords t)) (hc1 : cond1_1 (grid1.coords t)) :=
  (kernelRun1_O c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
      (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)

theorem left1_E_0 (h0 : t.val % 2 = 0) (hc0 : cond1_0 (grid1.coords t)) (hc1 : ¬cond1_1 (grid1.coords t))
    (f : VS1_0.ty.Contents (Elt F)) :
    VS1_0.read (Elt F) (VS1_0.writes (Elt F) f (runAtE V c t hc0 hc1).1) = (scrAt V c t.val t.isLt).1 :=
  (View.read_writes_eq_canon VS1_0 f (runAtE V c t hc0 hc1).1
      (scover1_E_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.1) (scrAt_even1 V c t h0).symm))

theorem left1_E_1 (h0 : t.val % 2 = 0) (hc0 : cond1_0 (grid1.coords t)) (hc1 : ¬cond1_1 (grid1.coords t))
    (f : VS1_1.ty.Contents (Elt F)) :
    VS1_1.read (Elt F) (VS1_1.writes (Elt F) f (runAtE V c t hc0 hc1).2.1) = (scrAt V c t.val t.isLt).2.1 :=
  (View.read_writes_eq_canon VS1_1 f (runAtE V c t hc0 hc1).2.1
      (scover1_E_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.2.1) (scrAt_even1 V c t h0).symm))

theorem left1_E_2 (h0 : t.val % 2 = 0) (hc0 : cond1_0 (grid1.coords t)) (hc1 : ¬cond1_1 (grid1.coords t))
    (f : VS1_2.ty.Contents (Elt F)) :
    VS1_2.read (Elt F) (VS1_2.writes (Elt F) f (runAtE V c t hc0 hc1).2.2.1) = (scrAt V c t.val t.isLt).2.2 :=
  (View.read_writes_eq_canon VS1_2 f (runAtE V c t hc0 hc1).2.2.1
      (scover1_E_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t))).trans
    ((canon1_E_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)).trans
      (congrArg (fun s : Scr F => s.2.2) (scrAt_even1 V c t h0).symm))

theorem left1_O_0 (h1 : t.val % 2 = 1) (hc0 : ¬cond1_0 (grid1.coords t)) (hc1 : cond1_1 (grid1.coords t))
    (f : VS1_0.ty.Contents (Elt F)) :
    VS1_0.read (Elt F) (VS1_0.writes (Elt F) f (runAtO V c t hc0 hc1).2.1) = (scrAt V c t.val t.isLt).1 :=
  (View.read_writes_eq_canon VS1_0 f (runAtO V c t hc0 hc1).2.1
      (scover1_O_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_0 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.1) (scrAt_odd1 V c t h1).symm))

theorem left1_O_1 (h1 : t.val % 2 = 1) (hc0 : ¬cond1_0 (grid1.coords t)) (hc1 : cond1_1 (grid1.coords t))
    (f : VS1_1.ty.Contents (Elt F)) :
    VS1_1.read (Elt F) (VS1_1.writes (Elt F) f (runAtO V c t hc0 hc1).2.2.1) = (scrAt V c t.val t.isLt).2.1 :=
  (View.read_writes_eq_canon VS1_1 f (runAtO V c t hc0 hc1).2.2.1
      (scover1_O_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_1 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.2.1) (scrAt_odd1 V c t h1).symm))

theorem left1_O_2 (h1 : t.val % 2 = 1) (hc0 : ¬cond1_0 (grid1.coords t)) (hc1 : cond1_1 (grid1.coords t))
    (f : VS1_2.ty.Contents (Elt F)) :
    VS1_2.read (Elt F) (VS1_2.writes (Elt F) f (runAtO V c t hc0 hc1).2.2.2.1) = (scrAt V c t.val t.isLt).2.2 :=
  (View.read_writes_eq_canon VS1_2 f (runAtO V c t hc0 hc1).2.2.2.1
      (scover1_O_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_2 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg (fun s : Scr F => s.2.2) (scrAt_odd1 V c t h1).symm))

/-- The output block after the body at an odd point: the quotient of the carried arrays there. -/
theorem left1_O_3 (h1 : t.val % 2 = 1) (hc0 : ¬cond1_0 (grid1.coords t)) (hc1 : cond1_1 (grid1.coords t))
    (f : (ms1_3 t).view.ty.Contents (Elt F)) :
    (ms1_3 t).view.read (Elt F) ((ms1_3 t).view.writes (Elt F) f (runAtO V c t hc0 hc1).1) = fin (scrAt V c t.val t.isLt) :=
  (View.read_writes_eq_canon (ms1_3 t).view f (runAtO V c t hc0 hc1).1
      (cover1_O_3 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2)).trans
    ((canon1_O_3 c (grid1.coords t) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _) hc0 hc1 (iblk1 V c 0 t) (iblk1 V c 1 t) (iblk1 V c 2 t)
        (scrAt V c (t.val - 1) (Nat.lt_of_le_of_lt (Nat.sub_le _ _) t.isLt)).1 (scrAt V c (t.val - 1) (Nat.lt_of_le_of_lt (Nat.sub_le _ _) t.isLt)).2.1 (scrAt V c (t.val - 1) (Nat.lt_of_le_of_lt (Nat.sub_le _ _) t.isLt)).2.2).trans
      (congrArg fin (scrAt_odd1 V c t h1).symm))

end AtPoint

/-! ## The body obligation, at a generic point -/

/-- What the body is called with at point `t`: the invariant, what the core owes, and each window's current staging
    buffer at what it then holds; -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The input windows' buffers hold their blocks. The position's parity says which case the
    point is in. At an even position the invariant hands over the carried arrays at whatever they hold (what the
    launch left, or the finished values of the query block before), the even run applies, the output window's buffer
    comes back as it went in, and the carried arrays come back at one update of the start values. At an odd position
    the invariant hands over the carried arrays at what the even position before left, the odd run applies, the
    carried arrays come back at one more update and the output window's buffer at their quotient. The nine foreign
    buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 2 = 0
  · have hc0 : cond1_0 (grid1.coords t) := (hcond1_0 t).mpr h0
    have hc1 : ¬cond1_1 (grid1.coords t) := fun h => by have := (hcond1_1 t).mp h; omega
    rw [Dat.leavesExact_idle (dat1 V c) 3 t (idleAt1_3 t h0) (noFlush1_3 t h0)]
    by_cases hz : t.val = 0
    · rw [PhiS1_castSucc V c t, PhiS1_zero V c _ _ hz, PhiA1_eq]
      iintro ⟨⟨⟨Hoth, HS0, HS1, HS2⟩, Hg⟩, Ho, ⟨%d0, H0⟩, ⟨%d1, H1⟩, ⟨%d2, H2⟩, ⟨%d3, H3⟩⟩
      iapply ((runAtE V c t hc0 hc1).2.2.2 ((dat1 V c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hoth HS0 HS1 HS2 Hg]
      · isplitr [Hg]
        · isplitl [Hoth]; · iexact Hoth
          isplitl [HS0]
          · unfold owns; iexists _; isplitr
            swap; · iexact HS0
            ipureintro; exact left1_E_0 V c t h0 hc0 hc1 _
          isplitl [HS1]
          · unfold owns; iexists _; isplitr
            swap; · iexact HS1
            ipureintro; exact left1_E_1 V c t h0 hc0 hc1 _
          unfold owns; iexists _; isplitr
          swap; · iexact HS2
          ipureintro; exact left1_E_2 V c t h0 hc0 hc1 _
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply ((runAtE V c t hc0 hc1).2.2.2 ((dat1 V c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hoth HS0 HS1 HS2 Hg]
      · isplitr [Hg]
        · isplitl [Hoth]; · iexact Hoth
          isplitl [HS0]
          · unfold owns; iexists _; isplitr
            swap; · iexact HS0
            ipureintro; exact left1_E_0 V c t h0 hc0 hc1 _
          isplitl [HS1]
          · unfold owns; iexists _; isplitr
            swap; · iexact HS1
            ipureintro; exact left1_E_1 V c t h0 hc0 hc1 _
          unfold owns; iexists _; isplitr
          swap; · iexact HS2
          ipureintro; exact left1_E_2 V c t h0 hc0 hc1 _
        iexact Hg
      isplitl [Ho]; · iexact Ho
      isplitl [H0]; · iexact H0
      isplitl [H1]; · iexact H1
      isplitl [H2]; · iexact H2
      iexists _; iexact H3
  · have h1 : t.val % 2 = 1 := by omega
    have hc0 : ¬cond1_0 (grid1.coords t) := fun h => h0 ((hcond1_0 t).mp h)
    have hc1 : cond1_1 (grid1.coords t) := (hcond1_1 t).mpr h1
    have hz : t.val ≠ 0 := by omega
    rw [show (dat1 V c).leavesExact 3 t = owns (c : Thread nD τ) (ms1_3 t) fullShare ((dat1 V c).after 3 t) from by
      unfold Dat.leavesExact; rw [liveAt1_3 t h1], after1_3]
    rw [PhiS1_castSucc V c t, PhiS1_pos V c _ _ hz]
    iintro ⟨⟨⟨Hoth, HS0, HS1, HS2⟩, Hg⟩, Ho, ⟨%d0, H0⟩, ⟨%d1, H1⟩, ⟨%d2, H2⟩, ⟨%d3, H3⟩⟩
    iapply ((runAtO V c t hc0 hc1).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [Hoth HS0 HS1 HS2 Hg]
    · isplitr [Hg]
      · isplitl [Hoth]; · iexact Hoth
        isplitl [HS0]
        · unfold owns; iexists _; isplitr
          swap; · iexact HS0
          ipureintro; exact left1_O_0 V c t h1 hc0 hc1 _
        isplitl [HS1]
        · unfold owns; iexists _; isplitr
          swap; · iexact HS1
          ipureintro; exact left1_O_1 V c t h1 hc0 hc1 _
        unfold owns; iexists _; isplitr
        swap; · iexact HS2
        ipureintro; exact left1_O_2 V c t h1 hc0 hc1 _
      iexact Hg
    isplitl [Ho]; · iexact Ho
    isplitl [H0]; · iexact H0
    isplitl [H1]; · iexact H1
    isplitl [H2]; · iexact H2
    unfold owns; iexists _; isplitr
    swap; · iexact H3
    ipureintro; exact left1_O_3 V c t h1 hc0 hc1 _

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives back what the launch handed over: the carried arrays' contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hoth, HS0, HS1, HS2⟩, Hg⟩
  isplitr [Hg]
  · isplitl [Hoth]; · iexact Hoth
    isplitl [HS0]; · iexists _; iexact HS0
    isplitl [HS1]; · iexists _; iexact HS1
    iexists _; iexact HS2
  iexact Hg

/-- In particular after the last. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.Hand

end
-- ==== Proof.KI.Run.lean ====
/-
  The whole program as a chain of four items -- host operations, region 0, host operations, region 1 -- and
  its run: the contents of every buffer outside the kernels' own memory at each boundary, named as a fold
  from the launch memory; each region entered from the boundary before it and left at the one after it, its
  window arrays holding what its write-backs leave; and at the end every such buffer read at the last boundary.
  Nothing writes an argument array, so the two arguments end as launched; the result array ends at what
  region 1's write-backs leave in it.
-/
import proofs.«165592_j29360396436110_2_alg».proof.Proof.KI.Reg0
import proofs.«165592_j29360396436110_2_alg».proof.Proof.KI.Reg1
import proofs.«165592_j29360396436110_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the first host operations (the flattened input, the weight stack in the narrow format): region 0's entry. -/
abbrev W1 (c : Dev nD) : Valuation τ sig (Elt F) := StableHlo.after hostOps0 (W0 m c)
/-- The same read at the core's own references. -/
abbrev Vin0 : (c : Dev nD) → (b : Ref sig .tc) → Buf (Elt F) ((c : Thread nD τ).loc b) := fun c b => W1 m c b
/-- At region 0's exit: its window arrays at what the write-backs leave, everything else as entered. -/
def W2 (c : Dev nD) : Valuation τ sig (Elt F) :=
  Pipeline.withArrays spec0 c (W1 m c) fun w => (dat0 (Vin0 m) c).arrAt w cfg0.N
theorem W2_arr (c : Dev nD) (w : Fin cfg0.W) :
    W2 m c (Proc.devRef .tc (Pipeline.arrRef spec0 w)) = (dat0 (Vin0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev Vout0 : (c : Dev nD) → (b : Ref sig .tc) → Buf (Elt F) ((c : Thread nD τ).loc b) := fun c b => W2 m c b
theorem hF0 (c : Dev nD) (w : Fin cfg0.W) : (dat0 (Vin0 m) c).arrAt w cfg0.N = Vout0 m c (Pipeline.arrRef spec0 w) :=
  (W2_arr m c w).symm
theorem hrest0 (c : Dev nD) : ∀ b, b ∉ Finset.univ.image (Pipeline.arrRef spec0) → Vout0 m c b = Vin0 m c b :=
  fun b hb => W2_of_ne m c b fun w e => hb (Finset.mem_image.mpr ⟨w, Finset.mem_univ _, e⟩)

/-- After the second host operations (the three projections reshaped to [8, 2048, 1024]): region 1's entry. -/
abbrev W3 (c : Dev nD) : Valuation τ sig (Elt F) := StableHlo.after hostOps1 (W2 m c)
abbrev Vin1 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (Vin1 m) c).arrAt w cfg1.N
theorem W4_arr (c : Dev nD) (w : Fin cfg1.W) :
    W4 m c (Proc.devRef .tc (Pipeline.arrRef spec1 w)) = (dat1 (Vin1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev Vout1 : (c : Dev nD) → (b : Ref sig .tc) → Buf (Elt F) ((c : Thread nD τ).loc b) := fun c b => W4 m c b
theorem hF1 (c : Dev nD) (w : Fin cfg1.W) : (dat1 (Vin1 m) c).arrAt w cfg1.N = Vout1 m c (Pipeline.arrRef spec1 w) :=
  (W4_arr m c w).symm
theorem hrest1 (c : Dev nD) : ∀ b, b ∉ Finset.univ.image (Pipeline.arrRef spec1) → Vout1 m c b = Vin1 m c b :=
  fun b hb => W4_of_ne m c b fun w e => hb (Finset.mem_image.mpr ⟨w, Finset.mem_univ _, e⟩)

/-! ### The arguments end as launched: no host operation writes one and no window stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-! ## The proof data of both pipelines and the state carried between items -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev Rd (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the `owes`. -/
abbrev Tn (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0: entered from every buffer at `W1`, left at `W2`. Its window arrays are split out of the buffers and
    put back at their exit contents; the generator register goes into the region's invariant and comes back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every buffer at `W3`, left at `W4`. Its invariant starts as the plain one (every
    scratch array at anything) and ends giving the plain one back, the carried arrays' contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (show Pipeline.ΦA spec1 c ⊢ (pdats m 1 c).Φ 0 from hin1 (Vin1 m) c)
    unfold Pipeline.ΦA
    iintro ⟨Hp, -, Hr⟩
    isplitl [Hr]; · iexact Hr
    iexact Hp
  hout c := by
    refine (show (pdats m 1 c).Φ (Fin.last _) ⊢ Pipeline.ΦA spec1 c from hout1 (Vin1 m) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four items, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- The program IS the run of the four items. -/
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each buffer outside the kernels' own memory holds the last boundary's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tn m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.KernelIdeal.Hand

end
-- ==== Proof.KI.Host.lean ====
/-
  The host operations between the launch and the regions, read at an index: the input flattened to
  [16384, 1024] (row b * 2048 + s of the flat array is row s of batch b), the weight stack converted to the narrow
  format (the identity on extended reals), and the three projections reshaped back to [8, 2048, 1024].
-/
import proofs.«165592_j29360396436110_2_alg».proof.Proof.KI.Run
import Idealize.ShloMosaic.Lib.Pipeline.Value
import Idealize.ShloMosaic.Lib.ValueIdx
import Idealize.ShloMosaic.Lib.StableHlo.Run

noncomputable section

namespace Cert.KernelIdeal.HandVal

open Idealize.ShloMosaic Idealize.ShloMosaic.TcCoe Idealize.SL.Sem Idealize.ShloMosaic.ValueIdx Idealize.ShloMosaic.StableHlo
open Cert.KernelIdeal Cert.KernelIdeal.Gen Cert.KernelIdeal.Hand

variable (m : (ℓ : Loc nD τ sig) → Buf (Elt Ideal) ℓ) (c : Dev nD)

/-- Row s of batch b in the flattened arrays. -/
def flat (b : Fin 8) (s : Fin 2048) : Fin 16384 := ⟨b.val * 2048 + s.val, by have := b.isLt; have := s.isLt; omega⟩

/-- Region 0's first array is the input, flattened. -/
theorem vin0_v0 : (Vin0 m c main_v0 : S16384x1024.Idx → EReal)
    = shapeCast S16384x1024 (m ((c : Thread nD τ).loc main_arg0) : S8x2048x1024.Idx → EReal) shapeCasts_S8x2048x1024_S16384x1024 := by
  show StableHlo.after hostOps0 (fun b => m (c, b)) (Proc.devRef .tc main_v0) = _
  after_results; rfl

theorem vin0_v0_apply (b : Fin 8) (s : Fin 2048) (d : Fin 1024) :
    (Vin0 m c main_v0 : S16384x1024.Idx → EReal) (ix2 (flat b s) d) = (m ((c : Thread nD τ).loc main_arg0) : S8x2048x1024.Idx → EReal) (ix3 b s d) := by
  rw [vin0_v0]
  exact shapeCast_apply _ shapeCasts_S8x2048x1024_S16384x1024 (ix2 (flat b s) d) (ix3 b s d)
    (by rewrite [Shape.rowMajor_val_three, Shape.rowMajor_val_two]; show (b.val * 2048 + s.val) * 1024 + d.val = (b.val * 2048 + s.val) * 1024 + d.val; rfl)

/-- Its second is the weight stack (the change of format is the identity). -/
theorem vin0_v1 : (Vin0 m c main_v1 : S3x1024x1024.Idx → EReal) = (m ((c : Thread nD τ).loc main_arg1) : S3x1024x1024.Idx → EReal) := by
  show StableHlo.after hostOps0 (fun b => m (c, b)) (Proc.devRef .tc main_v1) = _
  after_results; rfl

/-- Region 1's arrays are region 0's outputs, reshaped. -/
theorem vin1_v3 : (Vin1 m c main_v3 : S8x2048x1024.Idx → EReal)
    = shapeCast S8x2048x1024 ((dat0 (Vin0 m) c).arrAt 2 cfg0.N : S16384x1024.Idx → EReal) shapeCasts_S16384x1024_S8x2048x1024 := by
  rw [← W2_arr m c 2]
  show StableHlo.after hostOps1 (W2 m c) (Proc.devRef .tc main_v3) = _
  after_results; rfl
theorem vin1_v4 : (Vin1 m c main_v4 : S8x2048x1024.Idx → EReal)
    = shapeCast S8x2048x1024 ((dat0 (Vin0 m) c).arrAt 3 cfg0.N : S16384x1024.Idx → EReal) shapeCasts_S16384x1024_S8x2048x1024 := by
  rw [← W2_arr m c 3]
  show StableHlo.after hostOps1 (W2 m c) (Proc.devRef .tc main_v4) = _
  after_results; rfl
theorem vin1_v5 : (Vin1 m c main_v5 : S8x2048x1024.Idx → EReal)
    = shapeCast S8x2048x1024 ((dat0 (Vin0 m) c).arrAt 4 cfg0.N : S16384x1024.Idx → EReal) shapeCasts_S16384x1024_S8x2048x1024 := by
  rw [← W2_arr m c 4]
  show StableHlo.after hostOps1 (W2 m c) (Proc.devRef .tc main_v5) = _
  after_results; rfl

theorem unflat_apply (a : S16384x1024.Idx → EReal) (b : Fin 8) (s : Fin 2048) (e : Fin 1024) :
    shapeCast S8x2048x1024 a shapeCasts_S16384x1024_S8x2048x1024 (ix3 b s e) = a (ix2 (flat b s) e) :=
  shapeCast_apply a shapeCasts_S16384x1024_S8x2048x1024 (ix3 b s e) (ix2 (flat b s) e)
    (by rewrite [Shape.rowMajor_val_three, Shape.rowMajor_val_two]; show (b.val * 2048 + s.val) * 1024 + e.val = (b.val * 2048 + s.val) * 1024 + e.val; rfl)

end Cert.KernelIdeal.HandVal

end
-- ==== Proof.KI.Val1.lean ====
/-
  Region 1's result array as ONE function of the arrays the region is entered from.

  The grid is 8 batches x 4 query blocks x 2 key tiles, point t = ((b * 4 + qi) * 2 + kt). At a point the query
  window holds rows qi*512 .. qi*512+511 of batch b of the query array, the key and value windows rows
  kt*1024 .. kt*1024+1023 of batch b of theirs, and the output window is written back at the odd points (kt = 1) to
  rows qi*512 .. of batch b of the result. After an odd point the carried arrays are two updates from the start (the
  even point's, then the odd point's), so entry (b, s, e) of the result is the final quotient of those two updates at
  the query block s / 512, read at row s % 512.
-/
import proofs.«165592_j29360396436110_2_alg».proof.Proof.KI.Reg1
import Idealize.ShloMosaic.Lib.Pipeline.Value
import Idealize.ShloMosaic.Lib.ValueIdx

noncomputable section

namespace Cert.KernelIdeal.HandVal

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

/-! ## The printed index maps, decided once over the grid -/

theorem idx_q : ∀ t : Fin cfg1.N, win1_0.index t (0 : Fin 3) = t.val / 8 ∧ win1_0.index t (1 : Fin 3) = t.val / 2 % 4 ∧ win1_0.index t (2 : Fin 3) = 0 :=
  (by decide +kernel : ∀ t : Fin grid1.N, _)
theorem idx_k : ∀ t : Fin cfg1.N, win1_1.index t (0 : Fin 3) = t.val / 8 ∧ win1_1.index t (1 : Fin 3) = t.val % 2 ∧ win1_1.index t (2 : Fin 3) = 0 :=
  (by decide +kernel : ∀ t : Fin grid1.N, _)
theorem idx_v : ∀ t : Fin cfg1.N, win1_2.index t (0 : Fin 3) = t.val / 8 ∧ win1_2.index t (1 : Fin 3) = t.val % 2 ∧ win1_2.index t (2 : Fin 3) = 0 :=
  (by decide +kernel : ∀ t : Fin grid1.N, _)
theorem idx_o : ∀ t : Fin cfg1.N, win1_3.index t (0 : Fin 3) = t.val / 8 ∧ win1_3.index t (1 : Fin 3) = t.val / 2 % 4 ∧ win1_3.index t (2 : Fin 3) = 0 :=
  (by decide +kernel : ∀ t : Fin grid1.N, _)

/-! ## The input blocks as rows of the arrays -/

/-- The query block at point t, row r, column e, is the query array at batch t / 8, row (t / 2 % 4) * 512 + r. -/
theorem qblk_apply (c : Dev nD) (t : Fin cfg1.N) (r : Fin 512) (e : Fin 1024) (k : S8x2048x1024.Idx)
    (hk0 : (k 0).val = t.val / 8) (hk1 : (k 1).val = t.val / 2 % 4 * 512 + r.val) (hk2 : (k 2).val = e.val) :
    (iblk1 V c 0 t : Vec F S1x512x1024 .bf16) (ix3 (0 : Fin 1) r e) = (V c main_v3 : S8x2048x1024.Idx → Elt F .bf16) k := by
  obtain ⟨e0, e1, e2⟩ := idx_q t
  unfold iblk1
  rw [View.read_apply]
  show V c main_v3 _ = V c main_v3 _
  congr 1
  funext a
  apply Fin.ext
  match a with
  | ⟨0, _⟩ => show win1_0.index t (0 : Fin 3) * 1 + 1 * (0 : ℕ) = (k 0).val; rw [e0, hk0]; omega
  | ⟨1, _⟩ => show win1_0.index t (1 : Fin 3) * 512 + 1 * r.val = (k 1).val; rw [e1, hk1]; omega
  | ⟨2, _⟩ => show win1_0.index t (2 : Fin 3) * 1024 + 1 * e.val = (k 2).val; rw [e2, hk2]; omega

/-- The key tile at point t, row kk, is the key array at batch t / 8, row (t % 2) * 1024 + kk. -/
theorem kblk_apply (c : Dev nD) (t : Fin cfg1.N) (kk : Fin 1024) (e : Fin 1024) (k : S8x2048x1024.Idx)
    (hk0 : (k 0).val = t.val / 8) (hk1 : (k 1).val = t.val % 2 * 1024 + kk.val) (hk2 : (k 2).val = e.val) :
    (iblk1 V c 1 t : Vec F S1x1024x1024 .bf16) (ix3 (0 : Fin 1) kk e) = (V c main_v4 : S8x2048x1024.Idx → Elt F .bf16) k := by
  obtain ⟨e0, e1, e2⟩ := idx_k t
  unfold iblk1
  rw [View.read_apply]
  show V c main_v4 _ = V c main_v4 _
  congr 1
  funext a
  apply Fin.ext
  match a with
  | ⟨0, _⟩ => show win1_1.index t (0 : Fin 3) * 1 + 1 * (0 : ℕ) = (k 0).val; rw [e0, hk0]; omega
  | ⟨1, _⟩ => show win1_1.index t (1 : Fin 3) * 1024 + 1 * kk.val = (k 1).val; rw [e1, hk1]; omega
  | ⟨2, _⟩ => show win1_1.index t (2 : Fin 3) * 1024 + 1 * e.val = (k 2).val; rw [e2, hk2]; omega

/-- The value tile likewise, of the value array. -/
theorem vblk_apply (c : Dev nD) (t : Fin cfg1.N) (kk : Fin 1024) (e : Fin 1024) (k : S8x2048x1024.Idx)
    (hk0 : (k 0).val = t.val / 8) (hk1 : (k 1).val = t.val % 2 * 1024 + kk.val) (hk2 : (k 2).val = e.val) :
    (iblk1 V c 2 t : Vec F S1x1024x1024 .bf16) (ix3 (0 : Fin 1) kk e) = (V c main_v5 : S8x2048x1024.Idx → Elt F .bf16) k := by
  obtain ⟨e0, e1, e2⟩ := idx_v t
  unfold iblk1
  rw [View.read_apply]
  show V c main_v5 _ = V c main_v5 _
  congr 1
  funext a
  apply Fin.ext
  match a with
  | ⟨0, _⟩ => show win1_2.index t (0 : Fin 3) * 1 + 1 * (0 : ℕ) = (k 0).val; rw [e0, hk0]; omega
  | ⟨1, _⟩ => show win1_2.index t (1 : Fin 3) * 1024 + 1 * kk.val = (k 1).val; rw [e1, hk1]; omega
  | ⟨2, _⟩ => show win1_2.index t (2 : Fin 3) * 1024 + 1 * e.val = (k 2).val; rw [e2, hk2]; omega

/-! ## The carried arrays after an even and after an odd position -/

theorem scrAt_congr (c : Dev nD) {n n' : ℕ} (h : n = n') (hn : n < cfg1.N) (hn' : n' < cfg1.N) :
    scrAt V c n hn = scrAt V c n' hn' := by subst h; rfl

/-- After an even position: one update from the start. -/
theorem scrAt_even (c : Dev nD) (n : ℕ) (hn : n < cfg1.N) (he : n % 2 = 0) :
    scrAt V c n hn = step (iblk1 V c 0 ⟨n, hn⟩) (iblk1 V c 1 ⟨n, hn⟩) (iblk1 V c 2 ⟨n, hn⟩) scr0 := by
  cases n with
  | zero => rfl
  | succ k =>
    exact (show scrAt V c (k + 1) hn = step (iblk1 V c 0 ⟨k + 1, hn⟩) (iblk1 V c 1 ⟨k + 1, hn⟩) (iblk1 V c 2 ⟨k + 1, hn⟩)
      (if (k + 1) % 2 = 0 then scr0 else scrAt V c k (Nat.lt_of_succ_lt hn)) from rfl).trans (by rw [if_pos he])

/-- After an odd position: the even position's update, then the odd position's. -/
theorem scrAt_odd (c : Dev nD) (n : ℕ) (hn : n + 1 < cfg1.N) (ho : (n + 1) % 2 = 1) :
    scrAt V c (n + 1) hn = step (iblk1 V c 0 ⟨n + 1, hn⟩) (iblk1 V c 1 ⟨n + 1, hn⟩) (iblk1 V c 2 ⟨n + 1, hn⟩)
      (step (iblk1 V c 0 ⟨n, Nat.lt_of_succ_lt hn⟩) (iblk1 V c 1 ⟨n, Nat.lt_of_succ_lt hn⟩) (iblk1 V c 2 ⟨n, Nat.lt_of_succ_lt hn⟩) scr0) := by
  have e1 : scrAt V c (n + 1) hn = step (iblk1 V c 0 ⟨n + 1, hn⟩) (iblk1 V c 1 ⟨n + 1, hn⟩) (iblk1 V c 2 ⟨n + 1, hn⟩)
      (if (n + 1) % 2 = 0 then scr0 else scrAt V c n (Nat.lt_of_succ_lt hn)) := rfl
  rw [e1, if_neg (by omega), scrAt_even V c n (Nat.lt_of_succ_lt hn) (by omega)]

/-! ## The result array -/

/-- The odd point of the query block that holds row s of batch b. -/
theorem ptOdd_lt (i : S8x2048x1024.Idx) : ((i 0).val * 4 + (i 1).val / 512) * 2 + 1 < cfg1.N := by
  have h0 : (i 0).val < 8 := (i 0).isLt
  have h1 : (i 1).val < 2048 := (i 1).isLt
  rw [show cfg1.N = 64 from N_1]; omega

/-- The result, index by index: the final quotient of the carried arrays after the odd point of the entry's query
    block, at the entry's row within the block. -/
def G1 (c : Dev nD) : Buf (Elt F) ((c : Thread nD τ).loc main_v6) := fun i =>
  (fin (scrAt V c (((i 0).val * 4 + (i 1).val / 512) * 2 + 1) (ptOdd_lt i)) : Vec F S1x512x1024 .f32)
    (ix3 (0 : Fin 1) (⟨(i 1).val % 512, Nat.mod_lt _ (by norm_num)⟩ : Fin 512) (⟨(i 2).val, (i 2).isLt⟩ : Fin 1024))

/-- What an odd point writes back is its block of `G1`. -/
theorem flushed1_eq (c : Dev nD) (t : Fin cfg1.N) (hf : (cfg1.win 3).flush t = true) :
    (dat1 V c).flushed 3 t = ((cfg1.win 3).blk t).view.read (Elt F) (G1 V c) := by
  have ho : t.val % 2 = 1 := (flush1_3 t).mp hf
  have hN : t.val < 64 := lt_of_lt_of_eq t.isLt N_1
  obtain ⟨e0, e1, e2⟩ := idx_o t
  show (cfg1.win 3).cut (grid1.coords t) ((dat1 V c).after 3 t) = _
  rw [after1_3]
  funext y
  have hy0 : (y 0).val < 1 := (y 0).isLt
  have hy1 : (y 1).val < 512 := (y 1).isLt
  have hy2 : (y 2).val < 1024 := (y 2).isLt
  have E0 : ((((cfg1.win 3).blk t).view.emb y) 0).val = win1_3.index t (0 : Fin 3) * 1 + 1 * (y 0).val := rfl
  have E1 : ((((cfg1.win 3).blk t).view.emb y) 1).val = win1_3.index t (1 : Fin 3) * 512 + 1 * (y 1).val := rfl
  have E2 : ((((cfg1.win 3).blk t).view.emb y) 2).val = win1_3.index t (2 : Fin 3) * 1024 + 1 * (y 2).val := rfl
  show (fin (scrAt V c t.val t.isLt) : Vec F S1x512x1024 .f32) y = G1 V c (((cfg1.win 3).blk t).view.emb y)
  unfold G1
  refine congr (congrArg fin (scrAt_congr V c ?_ _ _)) ?_
  · rw [E0, E1, e0, e1]; omega
  · funext a
    apply Fin.ext
    match a with
    | ⟨0, _⟩ => show (y 0).val = 0; omega
    | ⟨1, _⟩ => show (y 1).val = ((((cfg1.win 3).blk t).view.emb y) 1).val % 512; rw [E1, e1]; omega
    | ⟨2, _⟩ => show (y 2).val = ((((cfg1.win 3).blk t).view.emb y) 2).val; rw [E2, e2]; omega

/-- An index of the result array is in point t's block iff each coordinate is in the block's range on its axis. -/
theorem mem_blk3 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v6).slice (win1_3.rect t)).set ↔ _
  rw [View.set_slice_whole, Rect.mem_set_unit]
  exact Iff.rfl

/-- Every index is in the block of the odd point of its query block. -/
theorem cover3 (i : S8x2048x1024.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  obtain ⟨e0, e1, e2⟩ := idx_o ⟨((i 0).val * 4 + (i 1).val / 512) * 2 + 1, ptOdd_lt i⟩
  refine ⟨⟨((i 0).val * 4 + (i 1).val / 512) * 2 + 1, ptOdd_lt i⟩, (flush1_3 _).mpr (by show (((i 0).val * 4 + (i 1).val / 512) * 2 + 1) % 2 = 1; omega), ?_⟩
  rw [mem_blk3]
  intro a
  match a with
  | ⟨0, _⟩ =>
    show win1_3.index _ (0 : Fin 3) * 1 ≤ (i 0).val ∧ (i 0).val < win1_3.index _ (0 : Fin 3) * 1 + 1
    rw [e0]; show (((i 0).val * 4 + (i 1).val / 512) * 2 + 1) / 8 * 1 ≤ (i 0).val ∧ (i 0).val < (((i 0).val * 4 + (i 1).val / 512) * 2 + 1) / 8 * 1 + 1
    omega
  | ⟨1, _⟩ =>
    show win1_3.index _ (1 : Fin 3) * 512 ≤ (i 1).val ∧ (i 1).val < win1_3.index _ (1 : Fin 3) * 512 + 512
    rw [e1]; show (((i 0).val * 4 + (i 1).val / 512) * 2 + 1) / 2 % 4 * 512 ≤ (i 1).val ∧ (i 1).val < (((i 0).val * 4 + (i 1).val / 512) * 2 + 1) / 2 % 4 * 512 + 512
    omega
  | ⟨2, _⟩ =>
    show win1_3.index _ (2 : Fin 3) * 1024 ≤ (i 2).val ∧ (i 2).val < win1_3.index _ (2 : Fin 3) * 1024 + 1024
    rw [e2]; omega

/-- THE RESULT ARRAY after the region: `G1`. -/
theorem arr1_3 (c : Dev nD) : (dat1 V c).arrAt 3 cfg1.N = G1 V c :=
  (dat1 V c).arrAt_eq_of_cover 3 (G1 V c) (flushed1_eq V c) cover3

end Cert.KernelIdeal.HandVal

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.KI.Val0.lean ====
/-
  Region 0's three output arrays as functions of the arrays the region is entered with, on the extended reals.

  With A the flattened input [16384, 1024] and W the weight stack [3, 1024, 1024] as the region finds them, after the
  region
      array 2 (p, e) = (sum over d < 1024 of A (p, d) * W (0, d, e)) * 2^-5,
      array 3 (p, e) =  sum over d < 1024 of A (p, d) * W (1, d, e),
      array 4 (p, e) =  sum over d < 1024 of A (p, d) * W (2, d, e).
  On the extended reals a rounding is the identity, so the body's "round the block, multiply, (scale,) round" is the
  plain matrix product (times the scale). The proof goes in three steps per array: the body's payload at one entry of
  the block; what grid point t writes back is block t of the function above (row 512 t + r of the array is row r of
  the block, and the weight window is the whole stack at every point); and the 32 blocks cover the 16384 rows.
-/
import proofs.«165592_j29360396436110_2_alg».proof.Proof.KI.Reg0
import proofs.«165592_j29360396436110_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandVal

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

/-! ## The body's payloads at an entry of the block -/

/-- The whole-block rectangle sits at offset 0 on both axes. -/
theorem off_zero2 : (![0, 0] : Fin 2 → Nat) = fun _ => 0 :=
  funext fun a => by match a with | ⟨0, _⟩ => rfl | ⟨1, _⟩ => rfl

/-- Matrix j of the stack, as the body reads it: entry (0, d, e) of the 1 x 1024 x 1024 rectangle at offset (j, 0, 0)
    is entry (j, d, e) of the stack (offset plus coordinate, at unit stride). -/
theorem rW0_0_idx (d e : Fin 1024) : rW0_0.idx (ix3 (0 : Fin 1) d e) = ix3 (0 : Fin 3) d e :=
  funext fun a => Fin.ext (by
    match a with
    | ⟨0, _⟩ => rfl
    | ⟨1, _⟩ => show 0 + 1 * d.val = d.val; omega
    | ⟨2, _⟩ => show 0 + 1 * e.val = e.val; omega)
theorem rW0_1_idx (d e : Fin 1024) : rW0_1.idx (ix3 (0 : Fin 1) d e) = ix3 (1 : Fin 3) d e :=
  funext fun a => Fin.ext (by
    match a with
    | ⟨0, _⟩ => rfl
    | ⟨1, _⟩ => show 0 + 1 * d.val = d.val; omega
    | ⟨2, _⟩ => show 0 + 1 * e.val = e.val; omega)
theorem rW0_2_idx (d e : Fin 1024) : rW0_2.idx (ix3 (0 : Fin 1) d e) = ix3 (2 : Fin 3) d e :=
  funext fun a => Fin.ext (by
    match a with
    | ⟨0, _⟩ => rfl
    | ⟨1, _⟩ => show 0 + 1 * d.val = d.val; omega
    | ⟨2, _⟩ => show 0 + 1 * e.val = e.val; omega)

/-- The left factor of each product: the input block rounded to bf16, which on the extended reals is the block. -/
theorem lhs_apply (x0 : Vec Ideal S512x1024 .f32) (r : Fin 512) (d : Fin 1024) : k0_pay1 x0 (ix2 r d) = x0 (ix2 r d) := by
  show shapeCast S512x1024 x0 shapeCasts_S512x1024_S512x1024 (ix2 r d) = x0 (ix2 r d)
  rw [shapeCast_self]

/-- The right factor: the loaded 1 x 1024 x 1024 slab with its unit axis dropped, at (d, e), is the stack at (j, d, e). -/
theorem rhs0_apply (x1 : Vec Ideal S3x1024x1024 .bf16) (d e : Fin 1024) :
    shapeCast S1024x1024 (View.ld x1 rW0_0) shapeCasts_S1x1024x1024_S1024x1024 (ix2 d e) = x1 (ix3 (0 : Fin 3) d e) :=
  (shapeCast_1ab_ab_apply (View.ld x1 rW0_0) shapeCasts_S1x1024x1024_S1024x1024 d e).trans (congrArg x1 (rW0_0_idx d e))
theorem rhs1_apply (x1 : Vec Ideal S3x1024x1024 .bf16) (d e : Fin 1024) :
    shapeCast S1024x1024 (View.ld x1 rW0_1) shapeCasts_S1x1024x1024_S1024x1024 (ix2 d e) = x1 (ix3 (1 : Fin 3) d e) :=
  (shapeCast_1ab_ab_apply (View.ld x1 rW0_1) shapeCasts_S1x1024x1024_S1024x1024 d e).trans (congrArg x1 (rW0_1_idx d e))
theorem rhs2_apply (x1 : Vec Ideal S3x1024x1024 .bf16) (d e : Fin 1024) :
    shapeCast S1024x1024 (View.ld x1 rW0_2) shapeCasts_S1x1024x1024_S1024x1024 (ix2 d e) = x1 (ix3 (2 : Fin 3) d e) :=
  (shapeCast_1ab_ab_apply (View.ld x1 rW0_2) shapeCasts_S1x1024x1024_S1024x1024 d e).trans (congrArg x1 (rW0_2_idx d e))

/-- Window 2's buffer after the body, at entry (r, e): the one whole-block store leaves its payload; the payload is the
    product of the block with matrix 0 into a zero accumulator, times the constant whose word is 0x3D000000 (2^-5),
    rounded (the identity). The product at (r, e) is the sum over the contracted axis. -/
theorem out0_2_apply (x0 : Vec Ideal S512x1024 .f32) (x1 : Vec Ideal S3x1024x1024 .bf16) (r : Fin 512) (e : Fin 1024) :
    out0_2 x0 x1 (ix2 r e)
      = (∑ d : Fin 1024, x0 (ix2 r d) * x1 (ix3 (0 : Fin 3) d e)) * Ideal.ofBits .f32 0x3D000000#32 := by
  have hc : out0_2 x0 x1 = k0_pay2 x0 (View.ld x1 rW0_0) := by
    unfold out0_2
    exact (View.canon_unit_zero off_zero2 _ _).trans
      (congrArg (fun v => k0_pay2 v (View.ld x1 rW0_0)) (View.ld_unit_zero (S := S512x1024) off_zero2 _ x0))
  rw [hc]
  show (FloatOps.matmul (DotDims.plain 512 1024 1024) none (k0_pay1 x0)
      (shapeCast S1024x1024 (View.ld x1 rW0_0) shapeCasts_S1x1024x1024_S1024x1024)
      (constant (F := Ideal) S512x1024 .f32 0x00000000#32) (ix2 r e) : EReal) * Ideal.ofBits .f32 0x3D000000#32 = _
  refine congrArg (fun s : EReal => s * Ideal.ofBits .f32 0x3D000000#32) ?_
  refine (Cert.LibPlainDot.matmul_zero_apply none _ _ r e).trans ?_
  exact Finset.sum_congr rfl fun d _ =>
    congrArg₂ (fun a b : EReal => a * b) (lhs_apply x0 r d) (rhs0_apply x1 d e)

/-- Window 3's buffer after the body, at entry (r, e): the product of the block with matrix 1, rounded (the
    identity); no scale. -/
theorem out0_3_apply (x0 : Vec Ideal S512x1024 .f32) (x1 : Vec Ideal S3x1024x1024 .bf16) (r : Fin 512) (e : Fin 1024) :
    out0_3 x0 x1 (ix2 r e) = ∑ d : Fin 1024, x0 (ix2 r d) * x1 (ix3 (1 : Fin 3) d e) := by
  have hc : out0_3 x0 x1 = k0_pay3 x0 (View.ld x1 rW0_1) := by
    unfold out0_3
    exact (View.canon_unit_zero off_zero2 _ _).trans
      (congrArg (fun v => k0_pay3 v (View.ld x1 rW0_1)) (View.ld_unit_zero (S := S512x1024) off_zero2 _ x0))
  rw [hc]
  show (FloatOps.matmul (DotDims.plain 512 1024 1024) none (k0_pay1 x0)
      (shapeCast S1024x1024 (View.ld x1 rW0_1) shapeCasts_S1x1024x1024_S1024x1024)
      (constant (F := Ideal) S512x1024 .f32 0x00000000#32) (ix2 r e) : EReal) = _
  refine (Cert.LibPlainDot.matmul_zero_apply none _ _ r e).trans ?_
  exact Finset.sum_congr rfl fun d _ =>
    congrArg₂ (fun a b : EReal => a * b) (lhs_apply x0 r d) (rhs1_apply x1 d e)

/-- Window 4's buffer after the body, at entry (r, e): the product of the block with matrix 2, rounded (the
    identity); no scale. -/
theorem out0_4_apply (x0 : Vec Ideal S512x1024 .f32) (x1 : Vec Ideal S3x1024x1024 .bf16) (r : Fin 512) (e : Fin 1024) :
    out0_4 x0 x1 (ix2 r e) = ∑ d : Fin 1024, x0 (ix2 r d) * x1 (ix3 (2 : Fin 3) d e) := by
  have hc : out0_4 x0 x1 = k0_pay4 x0 (View.ld x1 rW0_2) := by
    unfold out0_4
    exact (View.canon_unit_zero off_zero2 _ _).trans
      (congrArg (fun v => k0_pay4 v (View.ld x1 rW0_2)) (View.ld_unit_zero (S := S512x1024) off_zero2 _ x0))
  rw [hc]
  show (FloatOps.matmul (DotDims.plain 512 1024 1024) none (k0_pay1 x0)
      (shapeCast S1024x1024 (View.ld x1 rW0_2) shapeCasts_S1x1024x1024_S1024x1024)
      (constant (F := Ideal) S512x1024 .f32 0x00000000#32) (ix2 r e) : EReal) = _
  refine (Cert.LibPlainDot.matmul_zero_apply none _ _ r e).trans ?_
  exact Finset.sum_congr rfl fun d _ =>
    congrArg₂ (fun a b : EReal => a * b) (lhs_apply x0 r d) (rhs2_apply x1 d e)

/-! ## The windows' blocks as parts of their arrays -/

variable (V : (c : Dev nD) → (b : Ref sig .tc) → Buf (Elt Ideal) ((c : Thread nD τ).loc b))

/-- The flattened input [16384, 1024] as the region finds it, its index and value types written out (a product of
    two entries needs both to be seen as extended reals). -/
abbrev inA (c : Dev nD) : S16384x1024.Idx → EReal := V c main_v0
/-- The weight stack [3, 1024, 1024] as the region finds it. -/
abbrev inW (c : Dev nD) : S3x1024x1024.Idx → EReal := V c main_v1

/-- Where each window's block sits at point t, decided once over the 32 points: the input block and the three output
    blocks are row block t (and the only column block); the weight window is its array's only block. -/
theorem blocks_at : ∀ t : Fin cfg0.N,
    (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- Row r of the input block at point t is row 512 t + r of the flattened input. -/
theorem inblk_apply (c : Dev nD) (t : Fin cfg0.N) (r : Fin 512) (d : Fin 1024) (p : Fin 16384)
    (hp : p.val = t.val * 512 + r.val) :
    (iblk0 V c 0 t : Vec Ideal S512x1024 .f32) (ix2 r d) = inA V c (ix2 p d) := by
  obtain ⟨⟨e0, e1⟩, -⟩ := blocks_at t
  show inA V c (((cfg0.win 0).blk t).view.emb (ix2 r d)) = _
  refine congrArg (inA V c) (funext fun a => Fin.ext ?_)
  match a with
  | ⟨0, _⟩ => show win0_0.index t (0 : Fin 2) * 512 + 1 * r.val = p.val; rw [e0, hp]; omega
  | ⟨1, _⟩ => show win0_0.index t (1 : Fin 2) * 1024 + 1 * d.val = d.val; rw [e1]; omega

/-- The weight window's block at every point is the whole stack. -/
theorem wblk_apply (c : Dev nD) (t : Fin cfg0.N) (j : Fin 3) (d e : Fin 1024) :
    (iblk0 V c 1 t : Vec Ideal S3x1024x1024 .bf16) (ix3 j d e) = inW V c (ix3 j d e) := by
  obtain ⟨-, ⟨e0, e1, e2⟩, -⟩ := blocks_at t
  show inW V c (((cfg0.win 1).blk t).view.emb (ix3 j d e)) = _
  refine congrArg (inW V c) (funext fun a => Fin.ext ?_)
  match a with
  | ⟨0, _⟩ => show win0_1.index t (0 : Fin 3) * 3 + 1 * j.val = j.val; rw [e0]; omega
  | ⟨1, _⟩ => show win0_1.index t (1 : Fin 3) * 1024 + 1 * d.val = d.val; rw [e1]; omega
  | ⟨2, _⟩ => show win0_1.index t (2 : Fin 3) * 1024 + 1 * e.val = e.val; rw [e2]; omega

/-! ## Array 2: the product with matrix 0, scaled -/

/-- The whole array as one function of the entry contents. -/
def proj0 (c : Dev nD) : S16384x1024.Idx → EReal := fun i =>
  (∑ d : Fin 1024, inA V c (ix2 (i 0) d) * inW V c (ix3 (0 : Fin 3) d (i 1))) * Ideal.ofBits .f32 0x3D000000#32

/-- What point t writes back is block t of that function: entry (r, e) of the body's result is the scaled sum over d
    of block (r, d) times stack (0, d, e); block row r is array row 512 t + r, which is where entry (r, e) of output
    block t sits. -/
theorem flushed0_2_eq (c : Dev nD) (t : Fin cfg0.N) :
    (dat0 V c).flushed 2 t = ((cfg0.win 2).blk t).view.read (Elt Ideal) (proj0 V c) := by
  show (cfg0.win 2).cut (grid0.coords t) ((dat0 V c).after 2 t) = _
  rw [after0_2]
  obtain ⟨-, -, ⟨e0, e1⟩, -⟩ := blocks_at t
  have ht : t.val < 32 := N_0 ▸ t.isLt
  funext y
  obtain ⟨r, e, rfl⟩ : ∃ (r : Fin 512) (e : Fin 1024), y = ix2 r e := ⟨y 0, y 1, eq_ix2 y⟩
  have hp : t.val * 512 + r.val < 16384 := by have := r.isLt; omega
  show out0_2 (iblk0 V c 0 t) (iblk0 V c 1 t) (ix2 r e) = proj0 V c (((cfg0.win 2).blk t).view.emb (ix2 r e))
  have hi : ((cfg0.win 2).blk t).view.emb (ix2 r e) = (ix2 (⟨t.val * 512 + r.val, hp⟩ : Fin 16384) e : S16384x1024.Idx) :=
    funext fun a => Fin.ext (by
      match a with
      | ⟨0, _⟩ => show win0_2.index t (0 : Fin 2) * 512 + 1 * r.val = t.val * 512 + r.val; rw [e0]; omega
      | ⟨1, _⟩ => show win0_2.index t (1 : Fin 2) * 1024 + 1 * e.val = e.val; rw [e1]; omega)
  rw [hi]
  refine (out0_2_apply _ _ r e).trans ?_
  refine congrArg (fun s : EReal => s * Ideal.ofBits .f32 0x3D000000#32) ?_
  exact Finset.sum_congr rfl fun d _ =>
    congrArg₂ (fun a b : EReal => a * b) (inblk_apply V c t r d ⟨t.val * 512 + r.val, hp⟩ rfl) (wblk_apply V c t 0 d e)

/-- An index of the array lies in point t's block iff on each axis its coordinate is within the block's range. -/
theorem mem_blk0_2 (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v2_0).slice (win0_2.rect t)).set ↔ _
  rw [View.set_slice_whole, Rect.mem_set_unit]
  exact Iff.rfl

/-- Every index of the array is in the block of a point that writes back: row p is in row block p / 512. -/
theorem cover0_2 (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨-, -, ⟨e0, e1⟩, -⟩ := blocks_at t
  refine ⟨t, flush0_2 t, ?_⟩
  rw [mem_blk0_2]
  intro a
  match a with
  | ⟨0, _⟩ =>
    show win0_2.index t (0 : Fin 2) * 512 ≤ (i 0).val ∧ (i 0).val < win0_2.index t (0 : Fin 2) * 512 + 512
    rw [e0]; show (i 0).val / 512 * 512 ≤ (i 0).val ∧ (i 0).val < (i 0).val / 512 * 512 + 512; omega
  | ⟨1, _⟩ =>
    show win0_2.index t (1 : Fin 2) * 1024 ≤ (i 1).val ∧ (i 1).val < win0_2.index t (1 : Fin 2) * 1024 + 1024
    rw [e1]; omega

/-- So array 2 ends as the scaled product with matrix 0. -/
theorem arr0_2_apply (c : Dev nD) (p : Fin 16384) (e : Fin 1024) :
    (dat0 (F := Ideal) V c).arrAt 2 cfg0.N (ix2 p e)
      = (∑ d : Fin 1024, inA V c (ix2 p d) * inW V c (ix3 (0 : Fin 3) d e)) * Ideal.ofBits .f32 0x3D000000#32 :=
  congrFun ((dat0 V c).arrAt_eq_of_cover 2 (proj0 V c) (fun t _ => flushed0_2_eq V c t) cover0_2) (ix2 p e)

/-! ## Array 3: the product with matrix 1 -/

/-- The whole array as one function of the entry contents. -/
def proj1 (c : Dev nD) : S16384x1024.Idx → EReal := fun i =>
  ∑ d : Fin 1024, inA V c (ix2 (i 0) d) * inW V c (ix3 (1 : Fin 3) d (i 1))

/-- What point t writes back is block t of that function (as for array 2, without the scale). -/
theorem flushed0_3_eq (c : Dev nD) (t : Fin cfg0.N) :
    (dat0 V c).flushed 3 t = ((cfg0.win 3).blk t).view.read (Elt Ideal) (proj1 V c) := by
  show (cfg0.win 3).cut (grid0.coords t) ((dat0 V c).after 3 t) = _
  rw [after0_3]
  obtain ⟨-, -, -, ⟨e0, e1⟩, -⟩ := blocks_at t
  have ht : t.val < 32 := N_0 ▸ t.isLt
  funext y
  obtain ⟨r, e, rfl⟩ : ∃ (r : Fin 512) (e : Fin 1024), y = ix2 r e := ⟨y 0, y 1, eq_ix2 y⟩
  have hp : t.val * 512 + r.val < 16384 := by have := r.isLt; omega
  show out0_3 (iblk0 V c 0 t) (iblk0 V c 1 t) (ix2 r e) = proj1 V c (((cfg0.win 3).blk t).view.emb (ix2 r e))
  have hi : ((cfg0.win 3).blk t).view.emb (ix2 r e) = (ix2 (⟨t.val * 512 + r.val, hp⟩ : Fin 16384) e : S16384x1024.Idx) :=
    funext fun a => Fin.ext (by
      match a with
      | ⟨0, _⟩ => show win0_3.index t (0 : Fin 2) * 512 + 1 * r.val = t.val * 512 + r.val; rw [e0]; omega
      | ⟨1, _⟩ => show win0_3.index t (1 : Fin 2) * 1024 + 1 * e.val = e.val; rw [e1]; omega)
  rw [hi]
  refine (out0_3_apply _ _ r e).trans ?_
  exact Finset.sum_congr rfl fun d _ =>
    congrArg₂ (fun a b : EReal => a * b) (inblk_apply V c t r d ⟨t.val * 512 + r.val, hp⟩ rfl) (wblk_apply V c t 1 d e)

/-- An index of the array lies in point t's block iff on each axis its coordinate is within the block's range. -/
theorem mem_blk0_3 (t : Fin cfg0.N) (i : S16384x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2_1).slice (win0_3.rect t)).set ↔ _
  rw [View.set_slice_whole, Rect.mem_set_unit]
  exact Iff.rfl

/-- Every index of the array is in the block of a point that writes back: row p is in row block p / 512. -/
theorem cover0_3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨-, -, -, ⟨e0, e1⟩, -⟩ := blocks_at t
  refine ⟨t, flush0_3 t, ?_⟩
  rw [mem_blk0_3]
  intro a
  match a with
  | ⟨0, _⟩ =>
    show win0_3.index t (0 : Fin 2) * 512 ≤ (i 0).val ∧ (i 0).val < win0_3.index t (0 : Fin 2) * 512 + 512
    rw [e0]; show (i 0).val / 512 * 512 ≤ (i 0).val ∧ (i 0).val < (i 0).val / 512 * 512 + 512; omega
  | ⟨1, _⟩ =>
    show win0_3.index t (1 : Fin 2) * 1024 ≤ (i 1).val ∧ (i 1).val < win0_3.index t (1 : Fin 2) * 1024 + 1024
    rw [e1]; omega

/-- So array 3 ends as the product with matrix 1. -/
theorem arr0_3_apply (c : Dev nD) (p : Fin 16384) (e : Fin 1024) :
    (dat0 (F := Ideal) V c).arrAt 3 cfg0.N (ix2 p e)
      = ∑ d : Fin 1024, inA V c (ix2 p d) * inW V c (ix3 (1 : Fin 3) d e) :=
  congrFun ((dat0 V c).arrAt_eq_of_cover 3 (proj1 V c) (fun t _ => flushed0_3_eq V c t) cover0_3) (ix2 p e)

/-! ## Array 4: the product with matrix 2 -/

/-- The whole array as one function of the entry contents. -/
def proj2 (c : Dev nD) : S16384x1024.Idx → EReal := fun i =>
  ∑ d : Fin 1024, inA V c (ix2 (i 0) d) * inW V c (ix3 (2 : Fin 3) d (i 1))

/-- What point t writes back is block t of that function (as for array 2, without the scale). -/
theorem flushed0_4_eq (c : Dev nD) (t : Fin cfg0.N) :
    (dat0 V c).flushed 4 t = ((cfg0.win 4).blk t).view.read (Elt Ideal) (proj2 V c) := by
  show (cfg0.win 4).cut (grid0.coords t) ((dat0 V c).after 4 t) = _
  rw [after0_4]
  obtain ⟨-, -, -, -, ⟨e0, e1⟩⟩ := blocks_at t
  have ht : t.val < 32 := N_0 ▸ t.isLt
  funext y
  obtain ⟨r, e, rfl⟩ : ∃ (r : Fin 512) (e : Fin 1024), y = ix2 r e := ⟨y 0, y 1, eq_ix2 y⟩
  have hp : t.val * 512 + r.val < 16384 := by have := r.isLt; omega
  show out0_4 (iblk0 V c 0 t) (iblk0 V c 1 t) (ix2 r e) = proj2 V c (((cfg0.win 4).blk t).view.emb (ix2 r e))
  have hi : ((cfg0.win 4).blk t).view.emb (ix2 r e) = (ix2 (⟨t.val * 512 + r.val, hp⟩ : Fin 16384) e : S16384x1024.Idx) :=
    funext fun a => Fin.ext (by
      match a with
      | ⟨0, _⟩ => show win0_4.index t (0 : Fin 2) * 512 + 1 * r.val = t.val * 512 + r.val; rw [e0]; omega
      | ⟨1, _⟩ => show win0_4.index t (1 : Fin 2) * 1024 + 1 * e.val = e.val; rw [e1]; omega)
  rw [hi]
  refine (out0_4_apply _ _ r e).trans ?_
  exact Finset.sum_congr rfl fun d _ =>
    congrArg₂ (fun a b : EReal => a * b) (inblk_apply V c t r d ⟨t.val * 512 + r.val, hp⟩ rfl) (wblk_apply V c t 2 d e)

/-- An index of the array lies in point t's block iff on each axis its coordinate is within the block's range. -/
theorem mem_blk0_4 (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v2_2).slice (win0_4.rect t)).set ↔ _
  rw [View.set_slice_whole, Rect.mem_set_unit]
  exact Iff.rfl

/-- Every index of the array is in the block of a point that writes back: row p is in row block p / 512. -/
theorem cover0_4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 32 := N_0
  let t : Fin cfg0.N := ⟨(i 0).val / 512, by rw [hN]; omega⟩
  obtain ⟨-, -, -, -, ⟨e0, e1⟩⟩ := blocks_at t
  refine ⟨t, flush0_4 t, ?_⟩
  rw [mem_blk0_4]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1024 ≤ (i 1).val ∧ (i 1).val < win0_4.index t (1 : Fin 2) * 1024 + 1024
    rw [e1]; omega

/-- So array 4 ends as the product with matrix 2. -/
theorem arr0_4_apply (c : Dev nD) (p : Fin 16384) (e : Fin 1024) :
    (dat0 (F := Ideal) V c).arrAt 4 cfg0.N (ix2 p e)
      = ∑ d : Fin 1024, inA V c (ix2 p d) * inW V c (ix3 (2 : Fin 3) d e) :=
  congrFun ((dat0 V c).arrAt_eq_of_cover 4 (proj2 V c) (fun t _ => flushed0_4_eq V c t) cover0_4) (ix2 p e)

end Cert.KernelIdeal.HandVal

end
-- ==== Proof.StepDefs.lean ====
/-
  One key tile's update of the attention scratch, on REAL blocks: a query block qr : 512 x 1024, a key tile
  kr : 1024 x 1024 and a value tile vr : 1024 x 1024. The score of query row r against key row kk of the tile is
  the dot product of the two rows. From the start (maximum -inf, sums 0) the tile leaves the row maximum of its
  scores, the row sum of the shifted scores' exponentials, and those exponentials times the value rows. From carried
  arrays (ms, ls, accs) it leaves the larger maximum, and the carried sums rescaled by exp (old maximum - new maximum)
  plus the tile's own.
-/
import Mathlib.Analysis.SpecialFunctions.Exp
import Mathlib.Data.Finset.Lattice.Fold
import Mathlib.Algebra.BigOperators.Group.Finset.Basic

noncomputable section

namespace Cert.Spec

variable (qr : Fin 512 → Fin 1024 → ℝ) (kr vr : Fin 1024 → Fin 1024 → ℝ)

/-- The score of query row r against key row kk of the tile. -/
def scB (r : Fin 512) (kk : Fin 1024) : ℝ := ∑ e : Fin 1024, qr r e * kr kk e

/-! ### From the start -/
def m0B (r : Fin 512) : ℝ := Finset.univ.sup' Finset.univ_nonempty (scB qr kr r)
def l0B (r : Fin 512) : ℝ := ∑ kk : Fin 1024, Real.exp (scB qr kr r kk - m0B qr kr r)
def acc0B (r : Fin 512) (e : Fin 1024) : ℝ := ∑ kk : Fin 1024, Real.exp (scB qr kr r kk - m0B qr kr r) * vr kk e

/-! ### From carried arrays -/
variable (ms ls : Fin 512 → ℝ) (accs : Fin 512 → Fin 1024 → ℝ)
def m1B (r : Fin 512) : ℝ := max (ms r) (Finset.univ.sup' Finset.univ_nonempty (scB qr kr r))
def l1B (r : Fin 512) : ℝ :=
  Real.exp (ms r - m1B qr kr ms r) * ls r + ∑ kk : Fin 1024, Real.exp (scB qr kr r kk - m1B qr kr ms r)
def acc1B (r : Fin 512) (e : Fin 1024) : ℝ :=
  Real.exp (ms r - m1B qr kr ms r) * accs r e + ∑ kk : Fin 1024, Real.exp (scB qr kr r kk - m1B qr kr ms r) * vr kk e

end Cert.Spec

end
-- ==== Proof.RefCoe.lean ====
/-
  Real numbers inside the extended reals: the facts that carry a computation on real numbers through the
  coercion ℝ → EReal, one operation at a time, and the three constants the reference program spells.

  * a finite sum of coerced reals is the coerced sum;
  * the maximum of a finite nonempty family of coerced reals, folded from minus infinity, is the coerced
    maximum: both are the least upper bound of the family;
  * a quotient by a nonzero coerced real is the coerced quotient;
  * the words 0x44800000 and 0xFF800000 denote 1024 and minus infinity, and the square root of 1024 is 32.
-/
import Idealize.ShloMosaic.PureOps.Ideal
import Idealize.ShloMosaic.PureOps.Ideal.Laws
import Mathlib.Analysis.SpecialFunctions.Exp
import Mathlib.Data.EReal.Basic

noncomputable section

namespace Cert.RefCoe

open Idealize.ShloMosaic
open scoped BigOperators

/-! ### Sums -/

/-- The coercion commutes with a finite sum: by induction on the index set, one term at a time. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, EReal.coe_add, ih]

/-- A sum of products of coerced reals is the coerced sum of products. -/
theorem coe_sum_mul {ι : Type} [Fintype ι] (f g : ι → ℝ) :
    ∑ k : ι, ((f k : ℝ) : EReal) * ((g k : ℝ) : EReal) = ((∑ k : ι, f k * g k : ℝ) : EReal) := by
  rw [← coe_sum]
  exact Finset.sum_congr rfl fun k _ => (EReal.coe_mul _ _).symm

/-! ### The maximum -/

/-- Folding the maximum from minus infinity over a nonempty finite family of coerced reals gives the coerced
    largest member. Both sides are the least upper bound of the family: the fold lies below any bound of the
    starting value and of every member, and the largest member is one of the members. -/
theorem fold_max_coe {ι : Type} [Fintype ι] [Nonempty ι] (f : ι → ℝ) :
    (Finset.univ : Finset ι).fold max (⊥ : EReal) (fun k => ((f k : ℝ) : EReal))
      = ((Finset.univ.sup' Finset.univ_nonempty f : ℝ) : EReal) := by
  apply le_antisymm
  · rw [Finset.fold_max_le]
    exact ⟨bot_le, fun k hk => EReal.coe_le_coe_iff.2 (Finset.le_sup' f hk)⟩
  · obtain ⟨k, hk, e⟩ := Finset.exists_mem_eq_sup' Finset.univ_nonempty f
    rw [Finset.le_fold_max, e]
    exact Or.inr ⟨k, hk, le_rfl⟩

/-! ### The quotient and the exponential -/

/-- The quotient of two coerced reals, the divisor nonzero, is the coerced quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The difference of two coerced reals is the coerced difference, and its exponential the coerced exponential. -/
theorem exp_sub_coe (a b : ℝ) : Ideal.exp ((a : EReal) - (b : EReal)) = ((Real.exp (a - b) : ℝ) : EReal) := by
  rw [← EReal.coe_sub, Ideal.exp_coe]

/-! ### The constants -/

/-- The word 0x44800000 (exponent field 137, significand 0) denotes 2 ^ 10 = 1024. -/
theorem word_1024 : Ideal.ofBits .f32 0x44800000#32 = ((1024 : ℝ) : EReal) := by
  simp [Ideal.ofBits, Ideal.ieee, -EReal.coe_mul]; norm_num

/-- The word 0xFF800000 (sign 1, exponent all ones, significand 0) denotes minus infinity. -/
theorem word_neg_inf : Ideal.ofBits .f32 0xFF800000#32 = (⊥ : EReal) := by
  simp [Ideal.ofBits, Ideal.ieee]

/-- The word 0 denotes zero. -/
theorem word_zero : Ideal.ofBits .f32 0x00000000#32 = (0 : EReal) := by
  simp [Ideal.ofBits, Ideal.ieee]

/-- The square root of 1024 = 32 * 32 is 32. -/
theorem sqrt_1024 : Ideal.sqrt ((1024 : ℝ) : EReal) = ((32 : ℝ) : EReal) := by
  rw [Ideal.sqrt_coe, if_neg (by norm_num)]
  have e : Real.sqrt 1024 = 32 := by
    rw [show (1024 : ℝ) = 32 * 32 by norm_num]
    exact Real.sqrt_mul_self (by norm_num)
  rw [e]

end Cert.RefCoe

end
-- ==== Proof.KI.StepML.lean ====
/-
  One key tile's update of the attention scratch, read at an index: the running row maximum and the running row
  sum, and the two factors the weighted sum is built from (the rescaling factor of a row and the exponential of a
  shifted score).

  When the query block and the key tile hold real numbers, every entry involved is a real number, given by the
  block formulas: the score of query row r against key row kk is the dot product of the two rows; the new maximum
  of row r is the larger of the carried one and the largest score of the row; the rescaling factor is
  exp (carried maximum - new maximum); a shifted score's exponential is exp (score - new maximum); the new sum is
  the carried sum rescaled plus the sum of those exponentials along the row. From the start the carried maximum is
  minus infinity, so the new maximum is the row's largest score and the rescaling factor is exp (-inf) = 0, and the
  carried sum is 0.
-/
import proofs.«165592_j29360396436110_2_alg».proof.Proof.KI.Defs
import proofs.«165592_j29360396436110_2_alg».proof.Proof.StepDefs
import proofs.«165592_j29360396436110_2_alg».proof.Proof.RefCoe
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Cert.KernelIdeal.Hand Cert.Spec Idealize.ShloMosaic Idealize.ShloMosaic.ValueIdx

/-! ## The layout operations at an index -/

/-- A [1, 512] array cast to [1, 512, 1] reads, at (0, r, 0), the operand at (0, r): the two indices have the
    same row-major position, (0 * 512 + r) * 1 + 0 = 0 * 512 + r. -/
theorem colCast_apply {α : Type} (v : S1x512.Idx → α) (r : Fin 512) :
    shapeCast S1x512x1 v shapeCasts_S1x512_S1x512x1 (ix3 (0 : Fin 1) r (0 : Fin 1)) = v (ix2 (0 : Fin 1) r) :=
  shapeCast_apply v shapeCasts_S1x512_S1x512x1 _ _ (by
    rw [Shape.rowMajor_val_three, Shape.rowMajor_val_two]
    show 0 * 512 + r.val = (0 * 512 + r.val) * 1 + 0
    omega)

/-- A [1, 512, 1] array broadcast to [1, 512, 1024] reads, at (0, r, kk), the operand at (0, r, 0): the last axis
    of the operand is a unit axis, so its coordinate is 0 whatever kk is. -/
theorem colBroadcast_apply {α : Type} (v : S1x512x1.Idx → α) (r : Fin 512) (kk : Fin 1024) :
    broadcastTo S1x512x1024 v broadcasts_S1x512x1_S1x512x1024 (ix3 (0 : Fin 1) r kk)
      = v (ix3 (0 : Fin 1) r (0 : Fin 1)) := by
  refine broadcastTo_apply v broadcasts_S1x512x1_S1x512x1024 (ix3 (0 : Fin 1) r kk)
    (ix3 (0 : Fin 1) r (0 : Fin 1)) fun ax => ?_
  match ax with
  | ⟨0, _⟩ => rfl
  | ⟨1, _⟩ => rfl
  | ⟨2, _⟩ => rfl

/-! ## The product of the query block with the key tile -/

/-- The dimension numbers of the score product: both operands contract their last axis, and the unit leading axis
    is a batch axis. -/
abbrev dQK : DotDims S1x512x1024 S1x1024x1024 S1x512x1024 := dot_S1x512x1024_S1x1024x1024_S1x512x1024_2_2_1_1_0_0

/-- The left operand's index for result index i and contraction index c: batch coordinate from i's first ... -/
theorem dQK_lhs0 (i : S1x512x1024.Idx) (c : dQK.contr.Idx) : (dQK.lhsIdx i c 0).val = (i 0).val := by
  unfold DotDims.lhsIdx
  rw [dif_pos (show (0 : Fin S1x512x1024.rank) ∈ dQK.lhsBatch by decide)]
  rfl
/-- ... row coordinate from i's second ... -/
theorem dQK_lhs1 (i : S1x512x1024.Idx) (c : dQK.contr.Idx) : (dQK.lhsIdx i c 1).val = (i 1).val := by
  unfold DotDims.lhsIdx
  rw [dif_neg (show ¬(1 : Fin S1x512x1024.rank) ∈ dQK.lhsBatch by decide),
    dif_pos (show (1 : Fin S1x512x1024.rank) ∈ dQK.lhsNonContracting by decide)]
  rfl
/-- ... and last coordinate the contraction index. -/
theorem dQK_lhs2 (i : S1x512x1024.Idx) (c : dQK.contr.Idx) : (dQK.lhsIdx i c 2).val = (c ⟨0, by decide⟩).val :=
  dQK.lhsIdx_val_of_single rfl i c
/-- The right operand's index: batch coordinate from i's first, row coordinate from i's THIRD (the key row), last
    coordinate the contraction index. -/
theorem dQK_rhs0 (i : S1x512x1024.Idx) (c : dQK.contr.Idx) : (dQK.rhsIdx i c 0).val = (i 0).val := by
  unfold DotDims.rhsIdx
  rw [dif_pos (show (0 : Fin S1x1024x1024.rank) ∈ dQK.rhsBatch by decide)]
  rfl
theorem dQK_rhs1 (i : S1x512x1024.Idx) (c : dQK.contr.Idx) : (dQK.rhsIdx i c 1).val = (i 2).val := by
  unfold DotDims.rhsIdx
  rw [dif_neg (show ¬(1 : Fin S1x1024x1024.rank) ∈ dQK.rhsBatch by decide),
    dif_pos (show (1 : Fin S1x1024x1024.rank) ∈ dQK.rhsNonContracting by decide)]
  rfl
theorem dQK_rhs2 (i : S1x512x1024.Idx) (c : dQK.contr.Idx) : (dQK.rhsIdx i c 2).val = (c ⟨0, by decide⟩).val :=
  dQK.rhsIdx_val_of_single rfl i c

/-- The product into the zero constant, at (0, r, kk): the sum over e of a (0, r, e) * b (0, kk, e). The sum over
    the one-axis contraction index is re-indexed by its coordinate. -/
theorem dotQK_apply (a : FVec Ideal S1x512x1024 .bf16) (b : FVec Ideal S1x1024x1024 .bf16) (r : Fin 512) (kk : Fin 1024) :
    FloatOps.matmul dQK none a b (constant (F := Ideal) S1x512x1024 .f32 0x00000000#32) (ix3 (0 : Fin 1) r kk)
      = ∑ e : Fin 1024, a (ix3 (0 : Fin 1) r e) * b (ix3 (0 : Fin 1) kk e) := by
  rw [Ideal.matmul_constant_zero_apply, ← Equiv.sum_comp (contrEquiv1 dQK 1024 rfl rfl).symm]
  refine Finset.sum_congr rfl fun e _ => ?_
  have he := contrEquiv1_symm_val dQK 1024 rfl rfl e
  have el : dQK.lhsIdx (ix3 (0 : Fin 1) r kk) ((contrEquiv1 dQK 1024 rfl rfl).symm e) = ix3 (0 : Fin 1) r e :=
    funext fun ax => Fin.ext (by
      match ax with
      | ⟨0, _⟩ => exact dQK_lhs0 _ _
      | ⟨1, _⟩ => exact dQK_lhs1 _ _
      | ⟨2, _⟩ => exact (dQK_lhs2 _ _).trans he)
  have er : dQK.rhsIdx (ix3 (0 : Fin 1) r kk) ((contrEquiv1 dQK 1024 rfl rfl).symm e) = ix3 (0 : Fin 1) kk e :=
    funext fun ax => Fin.ext (by
      match ax with
      | ⟨0, _⟩ => exact dQK_rhs0 _ _
      | ⟨1, _⟩ => exact dQK_rhs1 _ _
      | ⟨2, _⟩ => exact (dQK_rhs2 _ _).trans he)
  rw [el, er]

/-- The score array at (0, r, kk): the dot product of query row r with key row kk. The two same-shape casts in
    front of the product are the identity. -/
theorem pay8_apply (q : Vec Ideal S1x512x1024 .bf16) (k : Vec Ideal S1x1024x1024 .bf16) (r : Fin 512) (kk : Fin 1024) :
    k1_pay8 q k (ix3 (0 : Fin 1) r kk) = ∑ e : Fin 1024, q (ix3 (0 : Fin 1) r e) * k (ix3 (0 : Fin 1) kk e) := by
  unfold k1_pay8
  have hq : shapeCast S1x512x1024 q shapeCasts_S1x512x1024_S1x512x1024 = q := shapeCast_self q _
  have hk : shapeCast S1x1024x1024 k shapeCasts_S1x1024x1024_S1x1024x1024 = k := shapeCast_self k _
  refine (dotQK_apply (shapeCast S1x512x1024 q shapeCasts_S1x512x1024_S1x512x1024)
    (shapeCast S1x1024x1024 k shapeCasts_S1x1024x1024_S1x1024x1024) r kk).trans ?_
  rw [hq, hk]

/-! ## The two row reductions -/

/-- The source index over (0, r) with coordinate kk inserted on the last axis is (0, r, kk). -/
theorem liftRow (r : Fin 512) (kk : Fin 1024) :
    reduces_S1x512x1024_S1x512.lift (ix2 (0 : Fin 1) r) kk = ix3 (0 : Fin 1) r kk :=
  funext fun ax => Fin.ext (by
    match ax with
    | ⟨0, _⟩ => rfl
    | ⟨1, _⟩ => rfl
    | ⟨2, _⟩ => rfl)

/-- The row maximum at (0, r): the maximum, folded from minus infinity, of the row's 1024 entries. -/
theorem rowMax_apply (src : FVec Ideal S1x512x1024 .f32) (r : Fin 512) :
    multiReduction (F := Ideal) .maximumf [2] S1x512 src 0xFF800000#32 reduces_S1x512x1024_S1x512 (.inl rfl) rfl (ix2 (0 : Fin 1) r)
      = (Finset.univ : Finset (Fin 1024)).fold max (⊥ : EReal) (fun kk => src (ix3 (0 : Fin 1) r kk)) := by
  refine (Ideal.multiReduction_maximumf_single src 0xFF800000#32 reduces_S1x512x1024_S1x512 (.inl rfl) rfl
    (ix2 (0 : Fin 1) r)).trans ?_
  have hb : (FloatOps.ofBits (F := Ideal) .f32 0xFF800000#32 : EReal) = ⊥ := Cert.RefCoe.word_neg_inf
  have hl : (src ∘ reduces_S1x512x1024_S1x512.lift (ix2 (0 : Fin 1) r))
      = fun kk : Fin 1024 => src (ix3 (0 : Fin 1) r kk) := funext fun kk => congrArg src (liftRow r kk)
  rw [hb, hl]
  rfl

/-- The row sum at (0, r): the sum of the row's 1024 entries. -/
theorem rowSum_apply (src : FVec Ideal S1x512x1024 .f32) (r : Fin 512) :
    multiReduction (F := Ideal) .add [2] S1x512 src 0x00000000#32 reduces_S1x512x1024_S1x512 (.inl rfl) rfl (ix2 (0 : Fin 1) r)
      = ∑ kk : Fin 1024, src (ix3 (0 : Fin 1) r kk) := by
  refine (Ideal.multiReduction_add_single src 0x00000000#32 reduces_S1x512x1024_S1x512 (.inl rfl) rfl
    (ix2 (0 : Fin 1) r)).trans ?_
  exact Finset.sum_congr rfl fun kk _ => congrArg src (liftRow r kk)

/-! ## The payloads at an index, whatever the entries are -/

/-- The start's maximum is minus infinity everywhere: a splat of the word 0xFF800000 ... -/
theorem pay4_apply (i : S1x512x1.Idx) : k1_pay4 (F := Ideal) i = (⊥ : EReal) := by
  unfold k1_pay4
  refine (congrFun (shapeCast_self (broadcast S1x512x1 (Scalar.ofBits (F := Ideal) .f32 0xFF800000#32))
    shapeCasts_S1x512x1_S1x512x1) i).trans ?_
  exact Cert.RefCoe.word_neg_inf
/-- ... and the start's sum is zero everywhere: a splat of the zero word. -/
theorem pay5_apply (i : S1x512x1.Idx) : k1_pay5 (F := Ideal) i = (0 : EReal) := by
  unfold k1_pay5
  refine (congrFun (shapeCast_self (broadcast S1x512x1 (Scalar.ofBits (F := Ideal) .f32 0x00000000#32))
    shapeCasts_S1x512x1_S1x512x1) i).trans ?_
  exact Cert.RefCoe.word_zero

/-- The same-shape cast in front of the maximum's store is the identity. -/
theorem pay2_eq (v : FVec Ideal S1x512x1 .f32) : k1_pay2 v = v := by
  unfold k1_pay2
  exact shapeCast_self v _

/-- The new maximum at (0, r, 0): the larger of the carried one and the row maximum of the scores. -/
theorem pay9_apply (q : Vec Ideal S1x512x1024 .bf16) (k : Vec Ideal S1x1024x1024 .bf16) (m : FVec Ideal S1x512x1 .f32)
    (r : Fin 512) :
    k1_pay9 q k m (ix3 (0 : Fin 1) r (0 : Fin 1))
      = max (m (ix3 (0 : Fin 1) r (0 : Fin 1)))
          ((Finset.univ : Finset (Fin 1024)).fold max (⊥ : EReal) (fun kk => k1_pay8 q k (ix3 (0 : Fin 1) r kk))) := by
  unfold k1_pay9
  refine congrArg (max (m (ix3 (0 : Fin 1) r (0 : Fin 1)))) ?_
  refine (colCast_apply _ r).trans ?_
  exact rowMax_apply (k1_pay8 q k) r

/-- The rescaling factor at an index: the exponential of (a given maximum - the new maximum). -/
theorem pay10_apply (q : Vec Ideal S1x512x1024 .bf16) (k : Vec Ideal S1x1024x1024 .bf16) (m m' : FVec Ideal S1x512x1 .f32)
    (i : S1x512x1.Idx) : k1_pay10 q k m m' i = Ideal.exp (m' i - k1_pay9 q k m i) := rfl

/-- A shifted score's exponential at (0, r, kk): the new maximum of row r is broadcast along the row. -/
theorem pay11_apply (q : Vec Ideal S1x512x1024 .bf16) (k : Vec Ideal S1x1024x1024 .bf16) (m : FVec Ideal S1x512x1 .f32)
    (r : Fin 512) (kk : Fin 1024) :
    k1_pay11 q k m (ix3 (0 : Fin 1) r kk)
      = Ideal.exp (k1_pay8 q k (ix3 (0 : Fin 1) r kk) - k1_pay9 q k m (ix3 (0 : Fin 1) r (0 : Fin 1))) := by
  unfold k1_pay11
  exact congrArg (fun x => Ideal.exp (k1_pay8 q k (ix3 (0 : Fin 1) r kk) - x)) (colBroadcast_apply (k1_pay9 q k m) r kk)

/-- The new sum at (0, r, 0): the rescaling factor times the carried sum, plus the row sum of the shifted scores'
    exponentials. -/
theorem pay12_apply (q : Vec Ideal S1x512x1024 .bf16) (k : Vec Ideal S1x1024x1024 .bf16) (m m' l : FVec Ideal S1x512x1 .f32)
    (r : Fin 512) :
    k1_pay12 q k m m' l (ix3 (0 : Fin 1) r (0 : Fin 1))
      = k1_pay10 q k m m' (ix3 (0 : Fin 1) r (0 : Fin 1)) * l (ix3 (0 : Fin 1) r (0 : Fin 1))
        + ∑ kk : Fin 1024, k1_pay11 q k m (ix3 (0 : Fin 1) r kk) := by
  unfold k1_pay12
  refine (congrFun (shapeCast_self _ shapeCasts_S1x512x1_S1x512x1) _).trans ?_
  refine congrArg (fun x => k1_pay10 q k m m' (ix3 (0 : Fin 1) r (0 : Fin 1)) * l (ix3 (0 : Fin 1) r (0 : Fin 1)) + x) ?_
  refine (colCast_apply _ r).trans ?_
  exact rowSum_apply (k1_pay11 q k m) r

/-! ## Real entries -/

/-- The coercion of the larger of two reals is the larger of the two coercions: the coercion is monotone. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The score of query row r against key row kk: a sum of products of coerced reals is the coerced sum of
    products. -/
theorem score_apply (q : Vec Ideal S1x512x1024 .bf16) (k : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) (kk : Fin 1024) : k1_pay8 q k (ix3 (0 : Fin 1) r kk) = ((scB qr kr r kk : ℝ) : EReal) := by
  refine (pay8_apply q k r kk).trans ?_
  refine (Finset.sum_congr rfl fun e _ => ?_).trans (Cert.RefCoe.coe_sum_mul (qr r) (kr kk))
  rw [hq r e, hk kk e]

/-- The row maximum of the scores, folded from minus infinity, is the coerced largest score of the row. -/
theorem rowMaxScore (q : Vec Ideal S1x512x1024 .bf16) (k : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) :
    (Finset.univ : Finset (Fin 1024)).fold max (⊥ : EReal) (fun kk => k1_pay8 q k (ix3 (0 : Fin 1) r kk))
      = ((Finset.univ.sup' Finset.univ_nonempty (scB qr kr r) : ℝ) : EReal) := by
  have h : (fun kk : Fin 1024 => k1_pay8 q k (ix3 (0 : Fin 1) r kk)) = fun kk => ((scB qr kr r kk : ℝ) : EReal) :=
    funext fun kk => score_apply q k qr kr hq hk r kk
  rw [h]
  exact Cert.RefCoe.fold_max_coe (scB qr kr r)

/-- From the start the new maximum is the row's largest score: the larger of minus infinity and it. -/
theorem pay9_start (q : Vec Ideal S1x512x1024 .bf16) (k : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) :
    k1_pay9 q k (scr0 (F := Ideal)).1 (ix3 (0 : Fin 1) r (0 : Fin 1)) = ((m0B qr kr r : ℝ) : EReal) := by
  refine (pay9_apply q k (scr0 (F := Ideal)).1 r).trans ?_
  have h4 : (scr0 (F := Ideal)).1 (ix3 (0 : Fin 1) r (0 : Fin 1)) = (⊥ : EReal) := pay4_apply (ix3 (0 : Fin 1) r (0 : Fin 1))
  rw [rowMaxScore q k qr kr hq hk r, h4]
  exact max_bot_left _

/-- From carried real maxima the new maximum is the larger of the carried one and the row's largest score. -/
theorem pay9_carried (q : Vec Ideal S1x512x1024 .bf16) (k : Vec Ideal S1x1024x1024 .bf16) (s : Scr Ideal)
    (qr : Fin 512 → Fin 1024 → ℝ) (kr : Fin 1024 → Fin 1024 → ℝ) (ms : Fin 512 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hm : ∀ r : Fin 512, s.1 (ix3 (0 : Fin 1) r (0 : Fin 1)) = ((ms r : ℝ) : EReal))
    (r : Fin 512) :
    k1_pay9 q k s.1 (ix3 (0 : Fin 1) r (0 : Fin 1)) = ((m1B qr kr ms r : ℝ) : EReal) := by
  refine (pay9_apply q k s.1 r).trans ?_
  rw [rowMaxScore q k qr kr hq hk r, hm r]
  exact (coe_max _ _).symm

/-- From the start the rescaling factor is exp (-inf - new maximum) = exp (-inf) = 0. -/
theorem alpha0_apply (q : Vec Ideal S1x512x1024 .bf16) (k : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) :
    k1_pay10 q k (scr0 (F := Ideal)).1 (scr0 (F := Ideal)).1 (ix3 (0 : Fin 1) r (0 : Fin 1)) = 0 := by
  refine (pay10_apply q k (scr0 (F := Ideal)).1 (scr0 (F := Ideal)).1 _).trans ?_
  have h4 : (scr0 (F := Ideal)).1 (ix3 (0 : Fin 1) r (0 : Fin 1)) = (⊥ : EReal) := pay4_apply (ix3 (0 : Fin 1) r (0 : Fin 1))
  rw [pay9_start q k qr kr hq hk r, h4, EReal.bot_sub]
  rfl

/-- From carried real maxima the rescaling factor is exp (carried maximum - new maximum). -/
theorem alpha1_apply (q : Vec Ideal S1x512x1024 .bf16) (k : Vec Ideal S1x1024x1024 .bf16) (s : Scr Ideal)
    (qr : Fin 512 → Fin 1024 → ℝ) (kr : Fin 1024 → Fin 1024 → ℝ) (ms : Fin 512 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hm : ∀ r : Fin 512, s.1 (ix3 (0 : Fin 1) r (0 : Fin 1)) = ((ms r : ℝ) : EReal))
    (r : Fin 512) :
    k1_pay10 q k s.1 s.1 (ix3 (0 : Fin 1) r (0 : Fin 1)) = ((Real.exp (ms r - m1B qr kr ms r) : ℝ) : EReal) := by
  refine (pay10_apply q k s.1 s.1 _).trans ?_
  rw [pay9_carried q k s qr kr ms hq hk hm r, hm r]
  exact Cert.RefCoe.exp_sub_coe _ _

/-- From the start a shifted score's exponential is exp (score - the row's largest score). -/
theorem p0_apply (q : Vec Ideal S1x512x1024 .bf16) (k : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) (kk : Fin 1024) :
    k1_pay11 q k (scr0 (F := Ideal)).1 (ix3 (0 : Fin 1) r kk)
      = ((Real.exp (scB qr kr r kk - m0B qr kr r) : ℝ) : EReal) := by
  refine (pay11_apply q k (scr0 (F := Ideal)).1 r kk).trans ?_
  rw [score_apply q k qr kr hq hk r kk, pay9_start q k qr kr hq hk r]
  exact Cert.RefCoe.exp_sub_coe _ _

/-- From carried real maxima it is exp (score - new maximum). -/
theorem p1_apply (q : Vec Ideal S1x512x1024 .bf16) (k : Vec Ideal S1x1024x1024 .bf16) (s : Scr Ideal)
    (qr : Fin 512 → Fin 1024 → ℝ) (kr : Fin 1024 → Fin 1024 → ℝ) (ms : Fin 512 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hm : ∀ r : Fin 512, s.1 (ix3 (0 : Fin 1) r (0 : Fin 1)) = ((ms r : ℝ) : EReal))
    (r : Fin 512) (kk : Fin 1024) :
    k1_pay11 q k s.1 (ix3 (0 : Fin 1) r kk)
      = ((Real.exp (scB qr kr r kk - m1B qr kr ms r) : ℝ) : EReal) := by
  refine (pay11_apply q k s.1 r kk).trans ?_
  rw [score_apply q k qr kr hq hk r kk, pay9_carried q k s qr kr ms hq hk hm r]
  exact Cert.RefCoe.exp_sub_coe _ _

/-! ## One key tile's update: the maximum and the sum -/

/-- From the start the new maximum of row r is the row's largest score. -/
theorem step0_m (q : Vec Ideal S1x512x1024 .bf16) (k v : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) :
    (step q k v scr0).1 (ix3 (0 : Fin 1) r (0 : Fin 1)) = ((m0B qr kr r : ℝ) : EReal) := by
  show k1_pay2 (k1_pay9 q k (scr0 (F := Ideal)).1) (ix3 (0 : Fin 1) r (0 : Fin 1)) = _
  rw [pay2_eq]
  exact pay9_start q k qr kr hq hk r

/-- From the start the new sum of row r is 0 * 0 plus the sum of the shifted scores' exponentials. -/
theorem step0_l (q : Vec Ideal S1x512x1024 .bf16) (k v : Vec Ideal S1x1024x1024 .bf16)
    (qr : Fin 512 → Fin 1024 → ℝ) (kr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (r : Fin 512) :
    (step q k v scr0).2.1 (ix3 (0 : Fin 1) r (0 : Fin 1)) = ((l0B qr kr r : ℝ) : EReal) := by
  show k1_pay12 q k (scr0 (F := Ideal)).1 (scr0 (F := Ideal)).1 (scr0 (F := Ideal)).2.1 (ix3 (0 : Fin 1) r (0 : Fin 1)) = _
  refine (pay12_apply q k (scr0 (F := Ideal)).1 (scr0 (F := Ideal)).1 (scr0 (F := Ideal)).2.1 r).trans ?_
  have h5 : (scr0 (F := Ideal)).2.1 (ix3 (0 : Fin 1) r (0 : Fin 1)) = (0 : EReal) := pay5_apply (ix3 (0 : Fin 1) r (0 : Fin 1))
  rw [alpha0_apply q k qr kr hq hk r, h5, mul_zero, zero_add]
  refine (Finset.sum_congr rfl fun kk _ => p0_apply q k qr kr hq hk r kk).trans ?_
  exact Cert.RefCoe.coe_sum _ _

/-- From carried real arrays the new maximum of row r is the larger of the carried one and the row's largest
    score. -/
theorem step1_m (q : Vec Ideal S1x512x1024 .bf16) (k v : Vec Ideal S1x1024x1024 .bf16) (s : Scr Ideal)
    (qr : Fin 512 → Fin 1024 → ℝ) (kr : Fin 1024 → Fin 1024 → ℝ) (ms : Fin 512 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hm : ∀ r : Fin 512, s.1 (ix3 (0 : Fin 1) r (0 : Fin 1)) = ((ms r : ℝ) : EReal))
    (r : Fin 512) :
    (step q k v s).1 (ix3 (0 : Fin 1) r (0 : Fin 1)) = ((m1B qr kr ms r : ℝ) : EReal) := by
  show k1_pay2 (k1_pay9 q k s.1) (ix3 (0 : Fin 1) r (0 : Fin 1)) = _
  rw [pay2_eq]
  exact pay9_carried q k s qr kr ms hq hk hm r

/-- From carried real arrays the new sum of row r is the carried sum rescaled plus the sum of the shifted scores'
    exponentials. -/
theorem step1_l (q : Vec Ideal S1x512x1024 .bf16) (k v : Vec Ideal S1x1024x1024 .bf16) (s : Scr Ideal)
    (qr : Fin 512 → Fin 1024 → ℝ) (kr : Fin 1024 → Fin 1024 → ℝ) (ms ls : Fin 512 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hm : ∀ r : Fin 512, s.1 (ix3 (0 : Fin 1) r (0 : Fin 1)) = ((ms r : ℝ) : EReal))
    (hl : ∀ r : Fin 512, s.2.1 (ix3 (0 : Fin 1) r (0 : Fin 1)) = ((ls r : ℝ) : EReal))
    (r : Fin 512) :
    (step q k v s).2.1 (ix3 (0 : Fin 1) r (0 : Fin 1)) = ((l1B qr kr ms ls r : ℝ) : EReal) := by
  show k1_pay12 q k s.1 s.1 s.2.1 (ix3 (0 : Fin 1) r (0 : Fin 1)) = _
  refine (pay12_apply q k s.1 s.1 s.2.1 r).trans ?_
  have hs : ∑ kk : Fin 1024, k1_pay11 q k s.1 (ix3 (0 : Fin 1) r kk)
      = ((∑ kk : Fin 1024, Real.exp (scB qr kr r kk - m1B qr kr ms r) : ℝ) : EReal) :=
    (Finset.sum_congr rfl fun kk _ => p1_apply q k s qr kr ms hq hk hm r kk).trans (Cert.RefCoe.coe_sum _ _)
  rw [alpha1_apply q k s qr kr ms hq hk hm r, hl r, hs, ← EReal.coe_mul, ← EReal.coe_add]
  rfl

end Cert.KernelIdeal.HandVal

end
-- ==== Proof.KI.StepAcc.lean ====
/-
  The weighted-sum side of one key tile's update of the attention scratch, read entry by entry.

  The update of the weighted sum is  acc' = a * acc + P V  where a is the column of rescaling factors
  exp (old maximum - new maximum) broadcast along the row, P the tile's weights exp (score - new maximum) and V the
  value tile; the stored quotient is acc / l with the column of row sums l broadcast along the row. Read at the
  entry (0, r, e):

    acc' (0, r, e) = a (0, r, 0) * acc (0, r, e) + ∑ kk, P (0, r, kk) * V (0, kk, e)
    (acc / l) (0, r, e) = acc (0, r, e) / l (0, r, 0).

  When the query block, key tile, value tile and the carried arrays are real, so is every entry, and the entries
  are the real block formulas acc0B (from the start: the factor is exp (-inf) = 0, which annihilates the carried
  entry whatever it is) and acc1B (from carried real arrays).
-/
import proofs.«165592_j29360396436110_2_alg».proof.Proof.KI.Defs
import proofs.«165592_j29360396436110_2_alg».proof.Proof.StepDefs
import proofs.«165592_j29360396436110_2_alg».proof.Proof.RefCoe
import proofs.«165592_j29360396436110_2_alg».proof.Proof.KI.StepML
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Cert.KernelIdeal.Hand Cert.Spec Idealize.ShloMosaic Idealize.ShloMosaic.ValueIdx

/-! ## The layout and contraction operations at an entry -/

/-! The product of the weights with the value tile contracts the weights' last axis with the value tile's middle
    axis, batched over the unit leading axis. The operand indices at output index (b, r, e) and contraction
    position q are (b, r, q) and (b, q, e): one coordinate at a time. -/
abbrev dotPV := dot_S1x512x1024_S1x1024x1024_S1x512x1024_2_1_1_2_0_0

theorem pv_lhs_0 (i : S1x512x1024.Idx) (q : dotPV.contr.Idx) : (dotPV.lhsIdx i q 0).val = (i 0).val := by
  unfold DotDims.lhsIdx
  rw [dif_pos (show (0 : Fin S1x512x1024.rank) ∈ dotPV.lhsBatch by decide)]
  rfl
theorem pv_lhs_1 (i : S1x512x1024.Idx) (q : dotPV.contr.Idx) : (dotPV.lhsIdx i q 1).val = (i 1).val := by
  unfold DotDims.lhsIdx
  rw [dif_neg (show ¬(1 : Fin S1x512x1024.rank) ∈ dotPV.lhsBatch by decide), dif_pos (show (1 : Fin S1x512x1024.rank) ∈ dotPV.lhsNonContracting by decide)]
  rfl
theorem pv_lhs_2 (i : S1x512x1024.Idx) (q : dotPV.contr.Idx) : (dotPV.lhsIdx i q 2).val = (q ⟨0, by decide⟩).val :=
  dotPV.lhsIdx_val_of_single rfl i q
theorem pv_rhs_0 (i : S1x512x1024.Idx) (q : dotPV.contr.Idx) : (dotPV.rhsIdx i q 0).val = (i 0).val := by
  unfold DotDims.rhsIdx
  rw [dif_pos (show (0 : Fin S1x1024x1024.rank) ∈ dotPV.rhsBatch by decide)]
  rfl
theorem pv_rhs_1 (i : S1x512x1024.Idx) (q : dotPV.contr.Idx) : (dotPV.rhsIdx i q 1).val = (q ⟨0, by decide⟩).val :=
  dotPV.rhsIdx_val_of_single rfl i q
theorem pv_rhs_2 (i : S1x512x1024.Idx) (q : dotPV.contr.Idx) : (dotPV.rhsIdx i q 2).val = (i 2).val := by
  unfold DotDims.rhsIdx
  rw [dif_neg (show ¬(2 : Fin S1x1024x1024.rank) ∈ dotPV.rhsBatch by decide), dif_pos (show (2 : Fin S1x1024x1024.rank) ∈ dotPV.rhsNonContracting by decide)]
  rfl

/-- Entry (0, r, e) of the product into the zero accumulator is the sum over the key rows kk of the weight at
    (0, r, kk) times the value at (0, kk, e). -/
theorem pv_apply (p : FVec Ideal S1x512x1024 .bf16) (v : FVec Ideal S1x1024x1024 .bf16) (r : Fin 512) (e : Fin 1024) :
    matmul dotPV none p v (constant (F := Ideal) S1x512x1024 .f32 0x00000000#32) (ix3 (0 : Fin 1) r e)
      = ∑ kk : Fin 1024, p (ix3 (0 : Fin 1) r kk) * v (ix3 (0 : Fin 1) kk e) := by
  refine (Ideal.matmul_constant_zero_apply dotPV none p v (ix3 (0 : Fin 1) r e)).trans ?_
  rw [← Equiv.sum_comp (contrEquiv1 dotPV 1024 rfl rfl).symm]
  refine Finset.sum_congr rfl fun kk _ => ?_
  have hk := contrEquiv1_symm_val dotPV 1024 rfl rfl kk
  have el : dotPV.lhsIdx (ix3 (0 : Fin 1) r e) ((contrEquiv1 dotPV 1024 rfl rfl).symm kk) = ix3 (0 : Fin 1) r kk :=
    funext fun a => Fin.ext (by
      match a with
      | ⟨0, _⟩ => exact pv_lhs_0 _ _
      | ⟨1, _⟩ => exact pv_lhs_1 _ _
      | ⟨2, _⟩ => exact (pv_lhs_2 _ _).trans hk)
  have er : dotPV.rhsIdx (ix3 (0 : Fin 1) r e) ((contrEquiv1 dotPV 1024 rfl rfl).symm kk) = ix3 (0 : Fin 1) kk e :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-- The weighted-sum update at an entry: the carried entry rescaled by the row's factor, plus the tile's weights
    times the value rows. (The narrowing of the weights and the same-shape casts are the identity on extended reals.) -/
theorem wsum_apply (α : Vec Ideal S1x512x1 .f32) (p acc : Vec Ideal S1x512x1024 .f32) (v : Vec Ideal S1x1024x1024 .bf16)
    (r : Fin 512) (e : Fin 1024) :
    k1_pay1 (k1_pay7 v) α p acc (ix3 (0 : Fin 1) r e)
      = α (ix3 (0 : Fin 1) r (0 : Fin 1)) * acc (ix3 (0 : Fin 1) r e)
        + ∑ kk : Fin 1024, p (ix3 (0 : Fin 1) r kk) * v (ix3 (0 : Fin 1) kk e) := by
  unfold k1_pay1 k1_pay7
  -- the outer same-shape cast is the identity
  refine (congrFun (shapeCast_self _ shapeCasts_S1x512x1024_S1x512x1024) (ix3 (0 : Fin 1) r e)).trans ?_
  refine (addf_apply _ _ _).trans ?_
  refine congrArg₂ (· + ·) ?_ ?_
  · -- the rescaled carried entry
    refine (mulf_apply _ _ _).trans ?_
    exact congrArg (· * acc (ix3 (0 : Fin 1) r e)) (colBroadcast_apply α r e)
  · -- the product: the value tile's same-shape cast is the identity, and so is the weights' narrowing
    refine (congrArg (fun w => matmul dotPV none (truncf .bf16 p bitsLt_bf16_f32) w
      (constant (F := Ideal) S1x512x1024 .f32 0x00000000#32) (ix3 (0 : Fin 1) r e))
      (shapeCast_self v shapeCasts_S1x1024x1024_S1x1024x1024)).trans ?_
    exact pv_apply (truncf .bf16 p bitsLt_bf16_f32) v r e

/-- The stored quotient at an entry: the weighted sum's entry over the row's sum, a real quotient when both are
    real and the row's sum is not zero. -/
theorem fin_apply (s : Scr Ideal) (ls : Fin 512 → ℝ) (accs : Fin 512 → Fin 1024 → ℝ)
    (hl : ∀ r : Fin 512, s.2.1 (ix3 (0 : Fin 1) r (0 : Fin 1)) = ((ls r : ℝ) : EReal))
    (ha : ∀ (r : Fin 512) (e : Fin 1024), s.2.2 (ix3 (0 : Fin 1) r e) = ((accs r e : ℝ) : EReal))
    (hpos : ∀ r, ls r ≠ 0) (r : Fin 512) (e : Fin 1024) :
    fin s (ix3 (0 : Fin 1) r e) = (((accs r e / ls r : ℝ)) : EReal) := by
  unfold fin k1_pay3
  refine (divf_apply _ _ _).trans ?_
  refine (congrArg₂ Ideal.div (ha r e) ((colBroadcast_apply s.2.1 r e).trans (hl r))).trans ?_
  exact Cert.RefCoe.div_coe_coe (accs r e) (hpos r)

/-! ## The update on real blocks -/

/-- The tile's weights times the value rows, when both are real: the coerced real sum. -/
theorem pv_real (p : Vec Ideal S1x512x1024 .f32) (v : Vec Ideal S1x1024x1024 .bf16) (w : Fin 1024 → ℝ)
    (vr : Fin 1024 → Fin 1024 → ℝ) (r : Fin 512) (e : Fin 1024)
    (hp : ∀ kk : Fin 1024, p (ix3 (0 : Fin 1) r kk) = ((w kk : ℝ) : EReal))
    (hv : ∀ (kk : Fin 1024) (e : Fin 1024), v (ix3 (0 : Fin 1) kk e) = ((vr kk e : ℝ) : EReal)) :
    ∑ kk : Fin 1024, p (ix3 (0 : Fin 1) r kk) * v (ix3 (0 : Fin 1) kk e) = ((∑ kk : Fin 1024, w kk * vr kk e : ℝ) : EReal) := by
  refine Eq.trans (Finset.sum_congr rfl fun kk _ => ?_) (Cert.RefCoe.coe_sum_mul w (fun kk => vr kk e))
  rw [hp kk, hv kk e]

/-- One tile's update of the weighted sum from the start, given what the rescaling factor and the weights are:
    the factor is 0, so the carried entry drops out whatever it is (0 * x = 0 on the extended reals), and what is
    left is the real weights times the value rows. -/
theorem step0_acc_of (q : Vec Ideal S1x512x1024 .bf16) (k v : Vec Ideal S1x1024x1024 .bf16)
    (w : Fin 512 → Fin 1024 → ℝ) (vr : Fin 1024 → Fin 1024 → ℝ)
    (hα : ∀ r : Fin 512, k1_pay10 q k (scr0 (F := Ideal)).1 (scr0 (F := Ideal)).1 (ix3 (0 : Fin 1) r (0 : Fin 1)) = 0)
    (hp : ∀ (r : Fin 512) (kk : Fin 1024), k1_pay11 q k (scr0 (F := Ideal)).1 (ix3 (0 : Fin 1) r kk) = ((w r kk : ℝ) : EReal))
    (hv : ∀ (kk : Fin 1024) (e : Fin 1024), v (ix3 (0 : Fin 1) kk e) = ((vr kk e : ℝ) : EReal))
    (r : Fin 512) (e : Fin 1024) :
    (step q k v scr0).2.2 (ix3 (0 : Fin 1) r e) = ((∑ kk : Fin 1024, w r kk * vr kk e : ℝ) : EReal) := by
  refine (wsum_apply _ _ _ v r e).trans ?_
  rw [hα r, zero_mul, zero_add]
  exact pv_real _ v (w r) vr r e (hp r) hv

/-- One tile's update of the weighted sum from carried real entries, given the real rescaling factor and the real
    weights: the carried entry times the factor, plus the weights times the value rows. -/
theorem step1_acc_of (q : Vec Ideal S1x512x1024 .bf16) (k v : Vec Ideal S1x1024x1024 .bf16) (s : Scr Ideal)
    (a : Fin 512 → ℝ) (w : Fin 512 → Fin 1024 → ℝ) (vr : Fin 1024 → Fin 1024 → ℝ) (accs : Fin 512 → Fin 1024 → ℝ)
    (hα : ∀ r : Fin 512, k1_pay10 q k s.1 s.1 (ix3 (0 : Fin 1) r (0 : Fin 1)) = ((a r : ℝ) : EReal))
    (hp : ∀ (r : Fin 512) (kk : Fin 1024), k1_pay11 q k s.1 (ix3 (0 : Fin 1) r kk) = ((w r kk : ℝ) : EReal))
    (hv : ∀ (kk : Fin 1024) (e : Fin 1024), v (ix3 (0 : Fin 1) kk e) = ((vr kk e : ℝ) : EReal))
    (ha : ∀ (r : Fin 512) (e : Fin 1024), s.2.2 (ix3 (0 : Fin 1) r e) = ((accs r e : ℝ) : EReal))
    (r : Fin 512) (e : Fin 1024) :
    (step q k v s).2.2 (ix3 (0 : Fin 1) r e) = ((a r * accs r e + ∑ kk : Fin 1024, w r kk * vr kk e : ℝ) : EReal) := by
  refine (wsum_apply _ _ _ v r e).trans ?_
  rw [hα r, ha r e, pv_real _ v (w r) vr r e (hp r) hv, ← EReal.coe_mul, ← EReal.coe_add]

/-- From the start: the entry is the tile's exponentials exp (score - row maximum) times the value rows. -/
theorem step0_acc (q : Vec Ideal S1x512x1024 .bf16) (k v : Vec Ideal S1x1024x1024 .bf16)
    (qr : Fin 512 → Fin 1024 → ℝ) (kr vr : Fin 1024 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hv : ∀ (kk : Fin 1024) (e : Fin 1024), v (ix3 (0 : Fin 1) kk e) = ((vr kk e : ℝ) : EReal))
    (r : Fin 512) (e : Fin 1024) :
    (step q k v scr0).2.2 (ix3 (0 : Fin 1) r e) = ((acc0B qr kr vr r e : ℝ) : EReal) :=
  step0_acc_of q k v (fun r kk => Real.exp (scB qr kr r kk - m0B qr kr r)) vr
    (fun r => alpha0_apply q k qr kr hq hk r) (fun r kk => p0_apply q k qr kr hq hk r kk) hv r e

/-- From carried real arrays: the carried entry rescaled by exp (old maximum - new maximum), plus the tile's
    exponentials exp (score - new maximum) times the value rows. -/
theorem step1_acc (q : Vec Ideal S1x512x1024 .bf16) (k v : Vec Ideal S1x1024x1024 .bf16) (s : Scr Ideal)
    (qr : Fin 512 → Fin 1024 → ℝ) (kr vr : Fin 1024 → Fin 1024 → ℝ) (ms : Fin 512 → ℝ) (accs : Fin 512 → Fin 1024 → ℝ)
    (hq : ∀ (r : Fin 512) (e : Fin 1024), q (ix3 (0 : Fin 1) r e) = ((qr r e : ℝ) : EReal))
    (hk : ∀ (kk : Fin 1024) (e : Fin 1024), k (ix3 (0 : Fin 1) kk e) = ((kr kk e : ℝ) : EReal))
    (hv : ∀ (kk : Fin 1024) (e : Fin 1024), v (ix3 (0 : Fin 1) kk e) = ((vr kk e : ℝ) : EReal))
    (hm : ∀ r : Fin 512, s.1 (ix3 (0 : Fin 1) r (0 : Fin 1)) = ((ms r : ℝ) : EReal))
    (ha : ∀ (r : Fin 512) (e : Fin 1024), s.2.2 (ix3 (0 : Fin 1) r e) = ((accs r e : ℝ) : EReal))
    (r : Fin 512) (e : Fin 1024) :
    (step q k v s).2.2 (ix3 (0 : Fin 1) r e) = ((acc1B qr kr vr ms accs r e : ℝ) : EReal) :=
  step1_acc_of q k v s (fun r => Real.exp (ms r - m1B qr kr ms r)) (fun r kk => Real.exp (scB qr kr r kk - m1B qr kr ms r)) vr accs
    (fun r => alpha1_apply q k s qr kr ms hq hk hm r) (fun r kk => p1_apply q k s qr kr ms hq hk hm r kk) hv ha r e

end Cert.KernelIdeal.HandVal

end
-- ==== Proof.Spec.lean ====
/-
  The specification: single-head self-attention of an input x : [8, 2048, 1024] with a weight stack
  w : [3, 1024, 1024], as a function of real arrays, written twice.

  * `outR`: the textbook form. Q, K, V are the three products x * w[j]; the score of query row q against key row k
    is (Q_q . K_k) / 32 (32 is the square root of the width 1024); each score row is shifted by its maximum,
    exponentiated and normalised by its sum; the result row is the weighted sum of the value rows.
  * `flashR`: the same quantity accumulated over the keys in two tiles of 1024 with a running maximum, a running
    sum and a running weighted sum, the earlier tile's sums rescaled by exp (old maximum - new maximum) when the
    maximum moves, the scale 1/32 folded into Q, and ONE division at the end.

  `G` is `outR` on extended-real arrays, read at their real parts; it is what both programs compute when every
  input entry is a real number.
-/
import Idealize.ShloMosaic.PureOps.Ideal
import Idealize.ShloMosaic.Lib.ValueIdx
import Mathlib.Analysis.SpecialFunctions.Exp
import Mathlib.Data.EReal.Basic

noncomputable section

namespace Cert.Spec

open Idealize.ShloMosaic Idealize.ShloMosaic.ValueIdx

/-- The input's shape and the weight stack's. -/
abbrev SX : Shape := ⟨3, ![8, 2048, 1024]⟩
abbrev SW : Shape := ⟨3, ![3, 1024, 1024]⟩

section Real

variable (x : Fin 8 → Fin 2048 → Fin 1024 → ℝ) (w : Fin 3 → Fin 1024 → Fin 1024 → ℝ)

/-- Entry (b, s, e) of the product of x with matrix j of the stack. -/
def projR (j : Fin 3) (b : Fin 8) (s : Fin 2048) (e : Fin 1024) : ℝ := ∑ d : Fin 1024, x b s d * w j d e

/-! ### The textbook form -/

/-- The score of query row q against key row k. -/
def scoreR (b : Fin 8) (q k : Fin 2048) : ℝ := (∑ e : Fin 1024, projR x w 0 b q e * projR x w 1 b k e) / 32
/-- The largest score of a query row. -/
def rowMaxR (b : Fin 8) (q : Fin 2048) : ℝ := Finset.univ.sup' Finset.univ_nonempty (scoreR x w b q)
/-- A shifted score's exponential. -/
def expR (b : Fin 8) (q k : Fin 2048) : ℝ := Real.exp (scoreR x w b q k - rowMaxR x w b q)
/-- Their sum along the row. -/
def denomR (b : Fin 8) (q : Fin 2048) : ℝ := ∑ k : Fin 2048, expR x w b q k
/-- The attention output. -/
def outR (b : Fin 8) (q : Fin 2048) (e : Fin 1024) : ℝ := ∑ k : Fin 2048, expR x w b q k / denomR x w b q * projR x w 2 b k e

/-! ### The two-tile form -/

/-- Key row kk of tile kt. -/
def tk (kt : Fin 2) (kk : Fin 1024) : Fin 2048 := ⟨kt.val * 1024 + kk.val, by have := kt.isLt; have := kk.isLt; omega⟩
/-- The score with the scale folded into the query. -/
def scoreK (b : Fin 8) (q k : Fin 2048) : ℝ := ∑ e : Fin 1024, (projR x w 0 b q e * (1 / 32)) * projR x w 1 b k e
/-- The first tile's row maximum, sum of exponentials and weighted sum of value rows. -/
def m0R (b : Fin 8) (q : Fin 2048) : ℝ := Finset.univ.sup' Finset.univ_nonempty fun kk : Fin 1024 => scoreK x w b q (tk 0 kk)
def l0R (b : Fin 8) (q : Fin 2048) : ℝ := ∑ kk : Fin 1024, Real.exp (scoreK x w b q (tk 0 kk) - m0R x w b q)
def acc0R (b : Fin 8) (q : Fin 2048) (e : Fin 1024) : ℝ :=
  ∑ kk : Fin 1024, Real.exp (scoreK x w b q (tk 0 kk) - m0R x w b q) * projR x w 2 b (tk 0 kk) e
/-- After the second tile: the maximum of both, the first tile's sums rescaled plus the second tile's. -/
def m1R (b : Fin 8) (q : Fin 2048) : ℝ :=
  max (m0R x w b q) (Finset.univ.sup' Finset.univ_nonempty fun kk : Fin 1024 => scoreK x w b q (tk 1 kk))
def l1R (b : Fin 8) (q : Fin 2048) : ℝ :=
  Real.exp (m0R x w b q - m1R x w b q) * l0R x w b q + ∑ kk : Fin 1024, Real.exp (scoreK x w b q (tk 1 kk) - m1R x w b q)
def acc1R (b : Fin 8) (q : Fin 2048) (e : Fin 1024) : ℝ :=
  Real.exp (m0R x w b q - m1R x w b q) * acc0R x w b q e
    + ∑ kk : Fin 1024, Real.exp (scoreK x w b q (tk 1 kk) - m1R x w b q) * projR x w 2 b (tk 1 kk) e
/-- The two-tile result. -/
def flashR (b : Fin 8) (q : Fin 2048) (e : Fin 1024) : ℝ := acc1R x w b q e / l1R x w b q

end Real

/-- An extended-real array every entry of which is a real number. -/
def IsReal {s : Shape} (a : s.Idx → EReal) : Prop := ∀ i, ∃ r : ℝ, a i = (r : EReal)

/-- The real parts of the two argument arrays, by coordinates. -/
def xR (x : SX.Idx → EReal) : Fin 8 → Fin 2048 → Fin 1024 → ℝ := fun b s d => (x (ix3 b s d)).toReal
def wR (w : SW.Idx → EReal) : Fin 3 → Fin 1024 → Fin 1024 → ℝ := fun j d e => (w (ix3 j d e)).toReal

/-- THE SPECIFICATION: the attention output of the arrays' real parts, as an extended-real array. -/
def G (x : SX.Idx → EReal) (w : SW.Idx → EReal) : SX.Idx → EReal :=
  fun i => ((outR (xR x) (wR w) (i 0) (i 1) (i 2) : ℝ) : EReal)

/-- The same from the two-tile form. -/
def Gflash (x : SX.Idx → EReal) (w : SW.Idx → EReal) : SX.Idx → EReal :=
  fun i => ((flashR (xR x) (wR w) (i 0) (i 1) (i 2) : ℝ) : EReal)

end Cert.Spec

end
-- ==== Proof.Algebra.lean ====
/-
  The two forms of the attention output agree over the reals: the two-tile form `flashR` is the textbook
  form `outR`.

  The argument has four steps.
  (i)   The two score formulas agree: the factor 1/32 sits on one factor of every term of the inner product in
        one and on the whole inner product in the other.
  (ii)  The 2048 key rows are the rows of tile 0 followed by the rows of tile 1, so a sum over all key rows is the
        sum of the two tiles' sums, and a maximum over all key rows is the larger of the two tiles' maxima. Hence
        the running maximum after the second tile is the row maximum.
  (iii) exp (m - m') * exp (a - m) = exp (a - m'): rescaling the first tile's sums by exp (old maximum - new maximum)
        turns every exponential shifted by the old maximum into the same exponential shifted by the new one. Hence
        the running sum after the second tile is the softmax denominator, and the running weighted sum is the
        unnormalised output.
  (iv)  Dividing every weight by the denominator and then summing is summing and then dividing once.
-/
import proofs.«165592_j29360396436110_2_alg».proof.Proof.Spec
import Mathlib.Algebra.BigOperators.Fin
import Mathlib.Algebra.BigOperators.Ring.Finset
import Mathlib.Algebra.Order.BigOperators.Group.Finset
import Mathlib.Data.Finset.Lattice.Fold

noncomputable section

namespace Cert.Spec

/-! ### (ii) The key rows in two tiles -/

/-- Every key row k lies in a tile: it is row k of tile 0 when k < 1024 and row k - 1024 of tile 1 otherwise. -/
theorem tk_cover (k : Fin 2048) : (∃ kk : Fin 1024, tk 0 kk = k) ∨ (∃ kk : Fin 1024, tk 1 kk = k) := by
  have hk := k.isLt
  by_cases h : k.val < 1024
  · left
    refine ⟨⟨k.val, h⟩, ?_⟩
    apply Fin.ext
    show (0 : Fin 2).val * 1024 + k.val = k.val
    have h0 : (0 : Fin 2).val = 0 := rfl
    rw [h0]
    omega
  · right
    refine ⟨⟨k.val - 1024, by omega⟩, ?_⟩
    apply Fin.ext
    show (1 : Fin 2).val * 1024 + (k.val - 1024) = k.val
    have h1 : (1 : Fin 2).val = 1 := rfl
    rw [h1]
    omega

/-- The pairs (tile, row within the tile) are the key rows: (kt, kk) is row kt * 1024 + kk, and row k is the pair
    (k div 1024, k mod 1024). -/
def tkEquiv : Fin 2 × Fin 1024 ≃ Fin 2048 where
  toFun p := tk p.1 p.2
  invFun k := (⟨k.val / 1024, by have := k.isLt; omega⟩, ⟨k.val % 1024, by omega⟩)
  left_inv := by
    rintro ⟨kt, kk⟩
    have h1 := kt.isLt
    have h2 := kk.isLt
    apply Prod.ext
    · apply Fin.ext
      show (kt.val * 1024 + kk.val) / 1024 = kt.val
      omega
    · apply Fin.ext
      show (kt.val * 1024 + kk.val) % 1024 = kk.val
      omega
  right_inv := by
    intro k
    apply Fin.ext
    show k.val / 1024 * 1024 + k.val % 1024 = k.val
    omega

/-- A sum over all key rows is the sum over tile 0 plus the sum over tile 1: reindex the rows by the pairs
    (tile, row within the tile), sum over the pair's two coordinates in turn, and write out the two tiles. -/
theorem sum_tiles (f : Fin 2048 → ℝ) :
    ∑ k : Fin 2048, f k = ∑ kk : Fin 1024, f (tk 0 kk) + ∑ kk : Fin 1024, f (tk 1 kk) := by
  rw [← Equiv.sum_comp tkEquiv f, Fintype.sum_prod_type, Fin.sum_univ_two]
  rfl

/-- A maximum over all key rows is the larger of the two tiles' maxima. Both inequalities come from the
    universal property of the supremum: every row lies in one of the tiles, so it is at most that tile's maximum;
    and every row of a tile is a key row, so it is at most the overall maximum. -/
theorem sup_tiles (f : Fin 2048 → ℝ) :
    Finset.univ.sup' Finset.univ_nonempty f
      = max (Finset.univ.sup' Finset.univ_nonempty fun kk : Fin 1024 => f (tk 0 kk))
            (Finset.univ.sup' Finset.univ_nonempty fun kk : Fin 1024 => f (tk 1 kk)) := by
  apply le_antisymm
  · rw [Finset.sup'_le_iff]
    intro k _
    rcases tk_cover k with ⟨kk, rfl⟩ | ⟨kk, rfl⟩
    · exact le_max_of_le_left
        (Finset.le_sup' (fun kk : Fin 1024 => f (tk 0 kk)) (Finset.mem_univ kk))
    · exact le_max_of_le_right
        (Finset.le_sup' (fun kk : Fin 1024 => f (tk 1 kk)) (Finset.mem_univ kk))
  · apply max_le
    · rw [Finset.sup'_le_iff]
      intro kk _
      exact Finset.le_sup' f (Finset.mem_univ (tk 0 kk))
    · rw [Finset.sup'_le_iff]
      intro kk _
      exact Finset.le_sup' f (Finset.mem_univ (tk 1 kk))

/-! ### (iii) Rescaling a tile's sums when the maximum moves -/

/-- exp (m - m') * exp (a - m) = exp (a - m'), because (m - m') + (a - m) = a - m'. -/
theorem exp_rescale (a m m' : ℝ) : Real.exp (m - m') * Real.exp (a - m) = Real.exp (a - m') := by
  rw [← Real.exp_add]
  have h : m - m' + (a - m) = a - m' := by ring
  rw [h]

/-- Rescaling a sum of exponentials shifted by m by the factor exp (m - m') gives the same sum shifted by m'. -/
theorem rescale_sum {ι : Type} [Fintype ι] (a : ι → ℝ) (m m' : ℝ) :
    Real.exp (m - m') * ∑ i, Real.exp (a i - m) = ∑ i, Real.exp (a i - m') := by
  rw [Finset.mul_sum]
  apply Finset.sum_congr rfl
  intro i _
  exact exp_rescale (a i) m m'

/-- The same for a weighted sum: the factor exp (m - m') meets the exponential in every term. -/
theorem rescale_wsum {ι : Type} [Fintype ι] (a v : ι → ℝ) (m m' : ℝ) :
    Real.exp (m - m') * ∑ i, Real.exp (a i - m) * v i = ∑ i, Real.exp (a i - m') * v i := by
  rw [Finset.mul_sum]
  apply Finset.sum_congr rfl
  intro i _
  rw [← mul_assoc, exp_rescale]

section Real

variable (x : Fin 8 → Fin 2048 → Fin 1024 → ℝ) (w : Fin 3 → Fin 1024 → Fin 1024 → ℝ)

/-! ### (i) The two score formulas -/

/-- (Q_q e * (1/32)) * K_k e = (Q_q e * K_k e) / 32 term by term, and a sum of quotients by 32 is the quotient of
    the sum. -/
theorem scoreK_eq_scoreR (b : Fin 8) (q k : Fin 2048) : scoreK x w b q k = scoreR x w b q k := by
  unfold scoreK scoreR
  rw [Finset.sum_div]
  apply Finset.sum_congr rfl
  intro e _
  ring

/-! ### The running quantities after the second tile are the textbook ones -/

/-- The running maximum after the second tile is the row maximum. -/
theorem m1R_eq_rowMaxR (b : Fin 8) (q : Fin 2048) : m1R x w b q = rowMaxR x w b q := by
  unfold m1R m0R rowMaxR
  rw [sup_tiles (scoreR x w b q)]
  simp only [scoreK_eq_scoreR]

/-- The running sum after the second tile is the softmax denominator: the first tile's sum, rescaled, is that
    tile's sum of exponentials shifted by the final maximum; the two tiles' sums together are the sum over all
    key rows. -/
theorem l1R_eq_denomR (b : Fin 8) (q : Fin 2048) : l1R x w b q = denomR x w b q := by
  unfold l1R l0R denomR expR
  rw [rescale_sum, ← m1R_eq_rowMaxR,
    sum_tiles (fun k => Real.exp (scoreR x w b q k - m1R x w b q))]
  simp only [scoreK_eq_scoreR]

/-- The running weighted sum after the second tile is the unnormalised output. -/
theorem acc1R_eq (b : Fin 8) (q : Fin 2048) (e : Fin 1024) :
    acc1R x w b q e = ∑ k : Fin 2048, expR x w b q k * projR x w 2 b k e := by
  unfold acc1R acc0R expR
  rw [rescale_wsum, ← m1R_eq_rowMaxR,
    sum_tiles (fun k => Real.exp (scoreR x w b q k - m1R x w b q) * projR x w 2 b k e)]
  simp only [scoreK_eq_scoreR]

/-! ### (iv) One division at the end -/

/-- (a / d) * v = (a * v) / d term by term, and a sum of quotients by d is the quotient of the sum. -/
theorem outR_eq (b : Fin 8) (q : Fin 2048) (e : Fin 1024) :
    outR x w b q e = (∑ k : Fin 2048, expR x w b q k * projR x w 2 b k e) / denomR x w b q := by
  unfold outR
  rw [Finset.sum_div]
  apply Finset.sum_congr rfl
  intro k _
  rw [div_mul_eq_mul_div]

end Real

/-! ### The results -/

/-- The two-tile form is the textbook form. -/
theorem flashR_eq_outR (x : Fin 8 → Fin 2048 → Fin 1024 → ℝ) (w : Fin 3 → Fin 1024 → Fin 1024 → ℝ)
    (b : Fin 8) (q : Fin 2048) (e : Fin 1024) : flashR x w b q e = outR x w b q e := by
  rw [outR_eq]
  unfold flashR
  rw [acc1R_eq, l1R_eq_denomR]

/-- The first tile's running sum is positive: a sum of exponentials over 1024 rows. -/
theorem l0R_pos (x : Fin 8 → Fin 2048 → Fin 1024 → ℝ) (w : Fin 3 → Fin 1024 → Fin 1024 → ℝ)
    (b : Fin 8) (q : Fin 2048) : 0 < l0R x w b q := by
  unfold l0R
  exact Finset.sum_pos (fun kk _ => Real.exp_pos _) Finset.univ_nonempty

/-- The running sum after the second tile is positive: a positive multiple of a positive sum, plus a sum of
    exponentials. -/
theorem l1R_pos (x : Fin 8 → Fin 2048 → Fin 1024 → ℝ) (w : Fin 3 → Fin 1024 → Fin 1024 → ℝ)
    (b : Fin 8) (q : Fin 2048) : 0 < l1R x w b q := by
  unfold l1R
  exact add_pos (mul_pos (Real.exp_pos _) (l0R_pos x w b q))
    (Finset.sum_pos (fun kk _ => Real.exp_pos _) Finset.univ_nonempty)

/-- The two extended-real arrays agree entry by entry, since the real numbers they embed agree. -/
theorem Gflash_eq_G (x : SX.Idx → EReal) (w : SW.Idx → EReal) : Gflash x w = G x w := by
  funext i
  exact congrArg (fun r : ℝ => (r : EReal)) (flashR_eq_outR (xR x) (wR w) (i 0) (i 1) (i 2))

end Cert.Spec

end
-- ==== Proof.KI.Bridge.lean ====
/-
  The kernel program's result, entry by entry, when every input entry is a real number.

  The three projections region 1 is entered from are, entry by entry, the coerced real products of the input with
  the weight matrices, the first scaled by 1/32. At the two points of a query block the body is handed that block's
  query rows and the two key / value tiles; two updates from the start and the final quotient give, at row s of batch
  b, the two-tile form of the attention output: the coerced `flashR`.
-/
import proofs.«165592_j29360396436110_2_alg».proof.Proof.KI.Host
import proofs.«165592_j29360396436110_2_alg».proof.Proof.KI.Val1
import proofs.«165592_j29360396436110_2_alg».proof.Proof.KI.Val0
import proofs.«165592_j29360396436110_2_alg».proof.Proof.KI.StepML
import proofs.«165592_j29360396436110_2_alg».proof.Proof.KI.StepAcc
import proofs.«165592_j29360396436110_2_alg».proof.Proof.Spec
import proofs.«165592_j29360396436110_2_alg».proof.Proof.Algebra
import proofs.«165592_j29360396436110_2_alg».proof.Proof.RefCoe

noncomputable section

namespace Cert.KernelIdeal.HandVal

open Idealize.ShloMosaic Idealize.ShloMosaic.TcCoe Idealize.SL.Sem Idealize.ShloMosaic.ValueIdx
open Cert.KernelIdeal Cert.KernelIdeal.Gen Cert.KernelIdeal.Hand Cert.Spec Cert.RefCoe

variable (m : (ℓ : Loc nD τ sig) → Buf (Elt Ideal) ℓ) (c : Dev nD)

/-- The two argument arrays. -/
abbrev xA : SX.Idx → EReal := m ((c : Thread nD τ).loc main_arg0)
abbrev wA : SW.Idx → EReal := m ((c : Thread nD τ).loc main_arg1)

/-- An entry of a real-valued array is the coercion of its real part. -/
theorem coe_toReal_of_isReal {s : Shape} {a : s.Idx → EReal} (h : IsReal a) (i : s.Idx) : a i = (((a i).toReal : ℝ) : EReal) := by
  obtain ⟨r, hr⟩ := h i; rw [hr, EReal.toReal_coe]

/-- The word 0x3D000000 (exponent field 122, significand 0) denotes 2 ^ -5 = 1/32. -/
theorem word_scale : Ideal.ofBits .f32 0x3D000000#32 = (((1 / 32 : ℝ)) : EReal) := by
  simp [Ideal.ofBits, Ideal.ieee, -EReal.coe_mul]; norm_num

/-- The flattened input and the weight stack as region 0 finds them, at an index, are the arguments. -/
theorem inA_apply (b : Fin 8) (s : Fin 2048) (d : Fin 1024) : inA (Vin0 m) c (ix2 (flat b s) d) = xA m c (ix3 b s d) :=
  vin0_v0_apply m c b s d
theorem inW_apply (j : Fin 3) (d e : Fin 1024) : inW (Vin0 m) c (ix3 j d e) = wA m c (ix3 j d e) :=
  congrFun (vin0_v1 m c) (ix3 j d e)

variable (hx : IsReal (xA m c)) (hw : IsReal (wA m c))

include hx hw in
/-- One product term of a projection, as coerced reals. -/
theorem term_real (j : Fin 3) (b : Fin 8) (s : Fin 2048) (d e : Fin 1024) :
    inA (Vin0 m) c (ix2 (flat b s) d) * inW (Vin0 m) c (ix3 j d e)
      = ((xR (xA m c) b s d : ℝ) : EReal) * ((wR (wA m c) j d e : ℝ) : EReal) := by
  rw [inA_apply, inW_apply]
  exact congrArg₂ (· * ·) (coe_toReal_of_isReal hx (ix3 b s d)) (coe_toReal_of_isReal hw (ix3 j d e))

include hx hw in
/-- The query array region 1 is entered from: the product with the first matrix, scaled by 1/32. -/
theorem q_real (b : Fin 8) (s : Fin 2048) (e : Fin 1024) :
    (Vin1 m c main_v3 : S8x2048x1024.Idx → EReal) (ix3 b s e) = ((projR (xR (xA m c)) (wR (wA m c)) 0 b s e * (1 / 32) : ℝ) : EReal) := by
  rw [vin1_v3, unflat_apply, arr0_2_apply, Finset.sum_congr rfl (fun d _ => term_real m c hx hw 0 b s d e), coe_sum_mul, word_scale, ← EReal.coe_mul]
  rfl

include hx hw in
/-- The key array: the product with the second matrix. -/
theorem k_real (b : Fin 8) (s : Fin 2048) (e : Fin 1024) :
    (Vin1 m c main_v4 : S8x2048x1024.Idx → EReal) (ix3 b s e) = ((projR (xR (xA m c)) (wR (wA m c)) 1 b s e : ℝ) : EReal) := by
  rw [vin1_v4, unflat_apply, arr0_3_apply, Finset.sum_congr rfl (fun d _ => term_real m c hx hw 1 b s d e), coe_sum_mul]
  rfl

include hx hw in
/-- The value array: the product with the third matrix. -/
theorem v_real (b : Fin 8) (s : Fin 2048) (e : Fin 1024) :
    (Vin1 m c main_v5 : S8x2048x1024.Idx → EReal) (ix3 b s e) = ((projR (xR (xA m c)) (wR (wA m c)) 2 b s e : ℝ) : EReal) := by
  rw [vin1_v5, unflat_apply, arr0_4_apply, Finset.sum_congr rfl (fun d _ => term_real m c hx hw 2 b s d e), coe_sum_mul]
  rfl

/-- Row r of the query block that holds row s. -/
def rowOf (s : Fin 2048) (r : Fin 512) : Fin 2048 := ⟨s.val / 512 * 512 + r.val, by have := s.isLt; have := r.isLt; omega⟩

theorem ptE_lt (b : Fin 8) (s : Fin 2048) : (b.val * 4 + s.val / 512) * 2 < cfg1.N := by
  have := b.isLt; have := s.isLt; rw [show cfg1.N = 64 from N_1]; omega
theorem ptO_lt (b : Fin 8) (s : Fin 2048) : (b.val * 4 + s.val / 512) * 2 + 1 < cfg1.N := by
  have := b.isLt; have := s.isLt; rw [show cfg1.N = 64 from N_1]; omega

include hx hw in
/-- The query block at either point of the query block of row s, as coerced reals. -/
theorem qblk_real (b : Fin 8) (s : Fin 2048) (t : Fin cfg1.N) (h8 : t.val / 8 = b.val) (h4 : t.val / 2 % 4 = s.val / 512)
    (r : Fin 512) (e : Fin 1024) :
    (iblk1 (Vin1 m) c 0 t : Vec Ideal S1x512x1024 .bf16) (ix3 (0 : Fin 1) r e)
      = ((projR (xR (xA m c)) (wR (wA m c)) 0 b (rowOf s r) e * (1 / 32) : ℝ) : EReal) :=
  (qblk_apply (Vin1 m) c t r e (ix3 b (rowOf s r) e) h8.symm (by show s.val / 512 * 512 + r.val = t.val / 2 % 4 * 512 + r.val; rw [h4]) rfl).trans
    (q_real m c hx hw b (rowOf s r) e)

include hx hw in
/-- The key tile at a point of key tile kt, as coerced reals. -/
theorem kblk_real (b : Fin 8) (kt : Fin 2) (t : Fin cfg1.N) (h8 : t.val / 8 = b.val) (h2 : t.val % 2 = kt.val)
    (kk : Fin 1024) (e : Fin 1024) :
    (iblk1 (Vin1 m) c 1 t : Vec Ideal S1x1024x1024 .bf16) (ix3 (0 : Fin 1) kk e)
      = ((projR (xR (xA m c)) (wR (wA m c)) 1 b (tk kt kk) e : ℝ) : EReal) :=
  (kblk_apply (Vin1 m) c t kk e (ix3 b (tk kt kk) e) h8.symm (by show kt.val * 1024 + kk.val = t.val % 2 * 1024 + kk.val; rw [h2]) rfl).trans
    (k_real m c hx hw b (tk kt kk) e)

include hx hw in
/-- The value tile likewise. -/
theorem vblk_real (b : Fin 8) (kt : Fin 2) (t : Fin cfg1.N) (h8 : t.val / 8 = b.val) (h2 : t.val % 2 = kt.val)
    (kk : Fin 1024) (e : Fin 1024) :
    (iblk1 (Vin1 m) c 2 t : Vec Ideal S1x1024x1024 .bf16) (ix3 (0 : Fin 1) kk e)
      = ((projR (xR (xA m c)) (wR (wA m c)) 2 b (tk kt kk) e : ℝ) : EReal) :=
  (vblk_apply (Vin1 m) c t kk e (ix3 b (tk kt kk) e) h8.symm (by show kt.val * 1024 + kk.val = t.val % 2 * 1024 + kk.val; rw [h2]) rfl).trans
    (v_real m c hx hw b (tk kt kk) e)

include hx hw in
/-- THE RESULT ENTRY: the coerced two-tile form. -/
theorem out_real (b : Fin 8) (s : Fin 2048) (e : Fin 1024) :
    G1 (Vin1 m) c (ix3 b s e) = ((flashR (xR (xA m c)) (wR (wA m c)) b s e : ℝ) : EReal) := by
  have hb := b.isLt
  have hs := s.isLt
  -- the two points of the query block, and the real blocks they are handed
  let tE : Fin cfg1.N := ⟨(b.val * 4 + s.val / 512) * 2, ptE_lt b s⟩
  let tO : Fin cfg1.N := ⟨(b.val * 4 + s.val / 512) * 2 + 1, ptO_lt b s⟩
  have hq_e := qblk_real m c hx hw b s tE (by show (b.val * 4 + s.val / 512) * 2 / 8 = b.val; omega) (by show (b.val * 4 + s.val / 512) * 2 / 2 % 4 = s.val / 512; omega)
  have hq_o := qblk_real m c hx hw b s tO (by show ((b.val * 4 + s.val / 512) * 2 + 1) / 8 = b.val; omega) (by show ((b.val * 4 + s.val / 512) * 2 + 1) / 2 % 4 = s.val / 512; omega)
  have hk_e := kblk_real m c hx hw b 0 tE (by show (b.val * 4 + s.val / 512) * 2 / 8 = b.val; omega) (by show (b.val * 4 + s.val / 512) * 2 % 2 = 0; omega)
  have hk_o := kblk_real m c hx hw b 1 tO (by show ((b.val * 4 + s.val / 512) * 2 + 1) / 8 = b.val; omega) (by show ((b.val * 4 + s.val / 512) * 2 + 1) % 2 = 1; omega)
  have hv_e := vblk_real m c hx hw b 0 tE (by show (b.val * 4 + s.val / 512) * 2 / 8 = b.val; omega) (by show (b.val * 4 + s.val / 512) * 2 % 2 = 0; omega)
  have hv_o := vblk_real m c hx hw b 1 tO (by show ((b.val * 4 + s.val / 512) * 2 + 1) / 8 = b.val; omega) (by show ((b.val * 4 + s.val / 512) * 2 + 1) % 2 = 1; omega)
  -- after the even point
  have hm0 := step0_m (v := iblk1 (Vin1 m) c 2 tE) (hq := hq_e) (hk := hk_e)
  have hl0 := step0_l (v := iblk1 (Vin1 m) c 2 tE) (hq := hq_e) (hk := hk_e)
  have ha0 := step0_acc (hq := hq_e) (hk := hk_e) (hv := hv_e)
  -- after the odd point
  have hl1 := step1_l (v := iblk1 (Vin1 m) c 2 tO) (hq := hq_o) (hk := hk_o) (hm := hm0) (hl := hl0)
  have ha1 := step1_acc (hq := hq_o) (hk := hk_o) (hv := hv_o) (hm := hm0) (ha := ha0)
  -- the row sums are positive
  have hrow : ∀ r : Fin 512, l1B (fun r e => projR (xR (xA m c)) (wR (wA m c)) 0 b (rowOf s r) e * (1 / 32))
      (fun kk e => projR (xR (xA m c)) (wR (wA m c)) 1 b (tk 1 kk) e)
      (m0B (fun r e => projR (xR (xA m c)) (wR (wA m c)) 0 b (rowOf s r) e * (1 / 32)) (fun kk e => projR (xR (xA m c)) (wR (wA m c)) 1 b (tk 0 kk) e))
      (l0B (fun r e => projR (xR (xA m c)) (wR (wA m c)) 0 b (rowOf s r) e * (1 / 32)) (fun kk e => projR (xR (xA m c)) (wR (wA m c)) 1 b (tk 0 kk) e)) r
      = l1R (xR (xA m c)) (wR (wA m c)) b (rowOf s r) := fun r => rfl
  have hpos : ∀ r : Fin 512, l1B (fun r e => projR (xR (xA m c)) (wR (wA m c)) 0 b (rowOf s r) e * (1 / 32))
      (fun kk e => projR (xR (xA m c)) (wR (wA m c)) 1 b (tk 1 kk) e)
      (m0B (fun r e => projR (xR (xA m c)) (wR (wA m c)) 0 b (rowOf s r) e * (1 / 32)) (fun kk e => projR (xR (xA m c)) (wR (wA m c)) 1 b (tk 0 kk) e))
      (l0B (fun r e => projR (xR (xA m c)) (wR (wA m c)) 0 b (rowOf s r) e * (1 / 32)) (fun kk e => projR (xR (xA m c)) (wR (wA m c)) 1 b (tk 0 kk) e)) r ≠ 0 :=
    fun r => by rw [hrow r]; exact ne_of_gt (l1R_pos _ _ b (rowOf s r))
  have hfin := fin_apply (hl := hl1) (ha := ha1) (hpos := hpos) (r := ⟨s.val % 512, Nat.mod_lt _ (by norm_num)⟩) (e := e)
  -- the entry of G1 is that quotient, and row s is row s % 512 of its query block
  have hsrow : rowOf s ⟨s.val % 512, Nat.mod_lt _ (by norm_num)⟩ = s := Fin.ext (by show s.val / 512 * 512 + s.val % 512 = s.val; omega)
  show (fin (scrAt (Vin1 m) c ((b.val * 4 + s.val / 512) * 2 + 1) _) : Vec Ideal S1x512x1024 .f32) (ix3 (0 : Fin 1) ⟨s.val % 512, _⟩ ⟨e.val, _⟩) = _
  rw [scrAt_odd (Vin1 m) c ((b.val * 4 + s.val / 512) * 2) (ptO_lt b s) (by omega)]
  refine hfin.trans ?_
  rw [show flashR (xR (xA m c)) (wR (wA m c)) b s e = flashR (xR (xA m c)) (wR (wA m c)) b (rowOf s ⟨s.val % 512, Nat.mod_lt _ (by norm_num)⟩) e from by rw [hsrow]]
  rfl

include hx hw in
/-- THE RESULT ARRAY of the kernel program is the specification of the two arguments. -/
theorem result_eq : W4 m c (Proc.devRef .tc main_v6) = G (xA m c) (wA m c) := by
  rw [show W4 m c (Proc.devRef .tc main_v6) = (dat1 (Vin1 m) c).arrAt 3 cfg1.N from W4_arr m c 3, arr1_3, ← Gflash_eq_G]
  funext i
  obtain ⟨b, s, e, rfl⟩ : ∃ (b : Fin 8) (s : Fin 2048) (e : Fin 1024), i = ix3 b s e := ⟨i 0, i 1, i 2, eq_ix3 i⟩
  exact out_real m c hx hw b s e

end Cert.KernelIdeal.HandVal

end
-- ==== Proof.RefProj.lean ====
/-
  The reference program's three projections, read at an index.

  The program slices matrix j out of the weight stack w : [3, 1024, 1024], reshapes it to [1024, 1024] and
  contracts the last axis of x : [8, 2048, 1024] with its first. When the two arrays hold coerced real numbers,
  entry (b, s, e) of the result is the coerced real sum over d of x (b, s, d) * w (j, d, e).
-/
import proofs.«165592_j29360396436110_2_alg».proof.Proof.Gen.ReferenceIdeal.Read
import proofs.«165592_j29360396436110_2_alg».proof.Proof.Spec
import proofs.«165592_j29360396436110_2_alg».proof.Proof.RefCoe
import Idealize.ShloMosaic.Lib.ValueIdx

noncomputable section

namespace Cert.RefIsSpec

open Idealize.ShloMosaic Idealize.ShloMosaic.ValueIdx Cert.ReferenceIdeal Cert.ReferenceIdeal.Read Cert.Spec Cert.RefCoe

/-- The two argument arrays as extended-real arrays holding the real numbers xr, wr, by coordinates. -/
def xE (xr : Fin 8 → Fin 2048 → Fin 1024 → ℝ) : S8x2048x1024.Idx → EReal :=
  fun i => ((xr (i 0) (i 1) (i 2) : ℝ) : EReal)
def wE (wr : Fin 3 → Fin 1024 → Fin 1024 → ℝ) : S3x1024x1024.Idx → EReal :=
  fun i => ((wr (i 0) (i 1) (i 2) : ℝ) : EReal)

variable (xr : Fin 8 → Fin 2048 → Fin 1024 → ℝ) (wr : Fin 3 → Fin 1024 → Fin 1024 → ℝ)

/-- Composing the reshape's and the slice's index maps: entry (d, e) of matrix 0 of the stack is entry (0, d, e) of the
    stack. The reshape reads the flat position d * 1024 + e back as the pair (d, e), since e < 1024. -/
theorem idx_w0 (d e : Fin 1024) : idx_main_v0 (idx_main_v1 (ix2 d e)) = ix3 (0 : Fin 3) d e := by
  have hd := d.isLt
  have he := e.isLt
  funext a
  apply Fin.ext
  match a with
  | ⟨0, _⟩ => rfl
  | ⟨1, _⟩ => show (d.val * 1024 + e.val) / 1024 % 1024 = d.val; omega
  | ⟨2, _⟩ => show (d.val * 1024 + e.val) % 1024 = e.val; omega

/-- Matrix 0 of the weight stack, at (d, e). -/
theorem w0_apply (d e : Fin 1024) : val_main_v1 (F := Ideal) (wE wr) (ix2 d e) = ((wr 0 d e : ℝ) : EReal) := by
  rw [val_main_v1_apply, val_main_v0_apply, idx_w0]
  rfl

/-- The query projection: entry (b, s, e) of x times matrix 0 is the sum over the contracted coordinate d. -/
theorem proj0_apply (b : Fin 8) (s : Fin 2048) (e : Fin 1024) :
    val_main_v2 (F := Ideal) (xE xr) (wE wr) (ix3 b s e) = ((projR xr wr 0 b s e : ℝ) : EReal) := by
  rw [val_main_v2_apply]
  unfold projR
  rw [← coe_sum_mul]
  refine Finset.sum_congr rfl fun k _ => ?_
  have el : lidx_main_v2 (ix3 b s e) k = ix3 b s k := funext fun a => Fin.ext (by
    match a with | ⟨0, _⟩ => rfl | ⟨1, _⟩ => rfl | ⟨2, _⟩ => rfl)
  have er : ridx_main_v2 (ix3 b s e) k = ix2 k e := funext fun a => Fin.ext (by
    match a with | ⟨0, _⟩ => rfl | ⟨1, _⟩ => rfl)
  rw [el, er, w0_apply]
  rfl

/-- Composing the reshape's and the slice's index maps: entry (d, e) of matrix 1 of the stack is entry (1, d, e) of the
    stack. The reshape reads the flat position d * 1024 + e back as the pair (d, e), since e < 1024. -/
theorem idx_w1 (d e : Fin 1024) : idx_main_v3 (idx_main_v4 (ix2 d e)) = ix3 (1 : Fin 3) d e := by
  have hd := d.isLt
  have he := e.isLt
  funext a
  apply Fin.ext
  match a with
  | ⟨0, _⟩ => rfl
  | ⟨1, _⟩ => show (d.val * 1024 + e.val) / 1024 % 1024 = d.val; omega
  | ⟨2, _⟩ => show (d.val * 1024 + e.val) % 1024 = e.val; omega

/-- Matrix 1 of the weight stack, at (d, e). -/
theorem w1_apply (d e : Fin 1024) : val_main_v4 (F := Ideal) (wE wr) (ix2 d e) = ((wr 1 d e : ℝ) : EReal) := by
  rw [val_main_v4_apply, val_main_v3_apply, idx_w1]
  rfl

/-- The key projection: entry (b, s, e) of x times matrix 1 is the sum over the contracted coordinate d. -/
theorem proj1_apply (b : Fin 8) (s : Fin 2048) (e : Fin 1024) :
    val_main_v5 (F := Ideal) (xE xr) (wE wr) (ix3 b s e) = ((projR xr wr 1 b s e : ℝ) : EReal) := by
  rw [val_main_v5_apply]
  unfold projR
  rw [← coe_sum_mul]
  refine Finset.sum_congr rfl fun k _ => ?_
  have el : lidx_main_v5 (ix3 b s e) k = ix3 b s k := funext fun a => Fin.ext (by
    match a with | ⟨0, _⟩ => rfl | ⟨1, _⟩ => rfl | ⟨2, _⟩ => rfl)
  have er : ridx_main_v5 (ix3 b s e) k = ix2 k e := funext fun a => Fin.ext (by
    match a with | ⟨0, _⟩ => rfl | ⟨1, _⟩ => rfl)
  rw [el, er, w1_apply]
  rfl

/-- Composing the reshape's and the slice's index maps: entry (d, e) of matrix 2 of the stack is entry (2, d, e) of the
    stack. The reshape reads the flat position d * 1024 + e back as the pair (d, e), since e < 1024. -/
theorem idx_w2 (d e : Fin 1024) : idx_main_v6 (idx_main_v7 (ix2 d e)) = ix3 (2 : Fin 3) d e := by
  have hd := d.isLt
  have he := e.isLt
  funext a
  apply Fin.ext
  match a with
  | ⟨0, _⟩ => rfl
  | ⟨1, _⟩ => show (d.val * 1024 + e.val) / 1024 % 1024 = d.val; omega
  | ⟨2, _⟩ => show (d.val * 1024 + e.val) % 1024 = e.val; omega

/-- Matrix 2 of the weight stack, at (d, e). -/
theorem w2_apply (d e : Fin 1024) : val_main_v7 (F := Ideal) (wE wr) (ix2 d e) = ((wr 2 d e : ℝ) : EReal) := by
  rw [val_main_v7_apply, val_main_v6_apply, idx_w2]
  rfl

/-- The value projection: entry (b, s, e) of x times matrix 2 is the sum over the contracted coordinate d. -/
theorem proj2_apply (b : Fin 8) (s : Fin 2048) (e : Fin 1024) :
    val_main_v8 (F := Ideal) (xE xr) (wE wr) (ix3 b s e) = ((projR xr wr 2 b s e : ℝ) : EReal) := by
  rw [val_main_v8_apply]
  unfold projR
  rw [← coe_sum_mul]
  refine Finset.sum_congr rfl fun k _ => ?_
  have el : lidx_main_v8 (ix3 b s e) k = ix3 b s k := funext fun a => Fin.ext (by
    match a with | ⟨0, _⟩ => rfl | ⟨1, _⟩ => rfl | ⟨2, _⟩ => rfl)
  have er : ridx_main_v8 (ix3 b s e) k = ix2 k e := funext fun a => Fin.ext (by
    match a with | ⟨0, _⟩ => rfl | ⟨1, _⟩ => rfl)
  rw [el, er, w2_apply]
  rfl

end Cert.RefIsSpec

end
-- ==== Proof.RefScore.lean ====
/-
  The reference program's scores and their row maxima, read at an index.

  The score array contracts the last axes of the query and key projections, batched over the first axis, and is
  divided by the square root of the width 1024, which is 32. The row maximum is a fold of the maximum along the
  key axis starting from minus infinity, followed by one more maximum with minus infinity. On coerced real
  numbers the score at (b, q, k) is the coerced real score, and the row maximum at (b, q) is the coerced largest
  score of the row: the fold is the least upper bound of the row, and so is the largest member.
-/
import proofs.«165592_j29360396436110_2_alg».proof.Proof.RefProj
import Idealize.ShloMosaic.PureOps.Reduce
import Idealize.ShloMosaic.PureOps.Ideal.Laws

noncomputable section

namespace Cert.RefIsSpec

open Idealize.ShloMosaic Idealize.ShloMosaic.ValueIdx Cert.ReferenceIdeal Cert.ReferenceIdeal.Read Cert.Spec Cert.RefCoe

variable (xr : Fin 8 → Fin 2048 → Fin 1024 → ℝ) (wr : Fin 3 → Fin 1024 → Fin 1024 → ℝ)

/-- The contraction of the query row q with the key row k, before scaling. -/
theorem dots_apply (b : Fin 8) (q k : Fin 2048) :
    val_main_v9 (F := Ideal) (xE xr) (wE wr) (ix3 b q k)
      = ((∑ e : Fin 1024, projR xr wr 0 b q e * projR xr wr 1 b k e : ℝ) : EReal) := by
  rw [val_main_v9_apply, ← coe_sum_mul]
  refine Finset.sum_congr rfl fun e _ => ?_
  have el : lidx_main_v9 (ix3 b q k) e = ix3 b q e := funext fun a => Fin.ext (by
    match a with | ⟨0, _⟩ => rfl | ⟨1, _⟩ => rfl | ⟨2, _⟩ => rfl)
  have er : ridx_main_v9 (ix3 b q k) e = ix3 b k e := funext fun a => Fin.ext (by
    match a with | ⟨0, _⟩ => rfl | ⟨1, _⟩ => rfl | ⟨2, _⟩ => rfl)
  rw [el, er, proj0_apply, proj1_apply]

/-- The divisor, everywhere: the square root of the constant 1024, which is 32. -/
theorem scale_apply (i : S8x2048x2048.Idx) : val_main_v11 (F := Ideal) i = ((32 : ℝ) : EReal) := by
  rw [val_main_v11_apply, val_main_v10_apply, val_main_cst_apply, Ideal.ofBits_def, Ideal.hostUnary_sqrt_def,
    word_1024, sqrt_1024]

/-- The score of query row q against key row k. -/
theorem score_apply (b : Fin 8) (q k : Fin 2048) :
    val_main_v12 (F := Ideal) (xE xr) (wE wr) (ix3 b q k) = ((scoreR xr wr b q k : ℝ) : EReal) := by
  rw [val_main_v12_apply, dots_apply, scale_apply, Ideal.hostDivf_def, div_coe_coe _ (by norm_num : (32 : ℝ) ≠ 0)]
  rfl

/-- The row index (b, q) with the coordinate k put back on the reduced key axis is (b, q, k). -/
theorem lift_row (h : S8x2048x2048.Reduces [2] S8x2048) (b : Fin 8) (q : Fin 2048) (k : Fin (S8x2048x2048.size 2)) :
    h.lift (ix2 b q) k = ix3 b q (⟨k.val, k.isLt⟩ : Fin 2048) := by
  funext c
  apply Fin.ext
  fin_cases c <;> rfl

/-- The fold of the maximum along the key axis from minus infinity is the largest score of the row. -/
theorem rowmax_fold_apply (b : Fin 8) (q : Fin 2048) :
    val_main_v13 (F := Ideal) (xE xr) (wE wr) (ix2 b q) = ((rowMaxR xr wr b q : ℝ) : EReal) := by
  unfold val_main_v13
  have h : S8x2048x2048.Reduces [2] S8x2048 := by decide
  rw [Host.reduce_eq_fold_single FloatOps.maximumf _ _ _ h]
  have hf : (val_main_v12 (F := Ideal) (xE xr) (wE wr) ∘ h.lift (ix2 b q))
      = fun k : Fin 2048 => ((scoreR xr wr b q k : ℝ) : EReal) := funext fun k => by
    show val_main_v12 (F := Ideal) (xE xr) (wE wr) (h.lift (ix2 b q) k) = _
    rw [lift_row h b q k]
    exact score_apply xr wr b q _
  rw [hf, val_main_cst_0_apply, Ideal.ofBits_def, word_neg_inf]
  exact fold_max_coe fun k : Fin 2048 => scoreR xr wr b q k

/-- One more maximum with minus infinity changes nothing. -/
theorem rowmax_apply (b : Fin 8) (q : Fin 2048) :
    val_main_v15 (F := Ideal) (xE xr) (wE wr) (ix2 b q) = ((rowMaxR xr wr b q : ℝ) : EReal) := by
  rw [val_main_v15_apply, val_main_v14_apply, val_main_cst_1_apply, rowmax_fold_apply, Ideal.ofBits_def,
    Ideal.maximumf_def, word_neg_inf]
  exact max_eq_right bot_le

end Cert.RefIsSpec

end
-- ==== Proof.RefSoft.lean ====
/-
  The reference program's exponentials, their row sums, the normalised weights and the output, read at an index.

  Each score is shifted by its row's maximum and exponentiated; the row sum of the exponentials is a sum of
  positive numbers, hence positive, so dividing by it is the real division; the output row is the sum over the
  keys of the weights times the value rows. On coerced real numbers every stage is the coerced real stage.
-/
import proofs.«165592_j29360396436110_2_alg».proof.Proof.RefScore

noncomputable section

namespace Cert.RefIsSpec

open Idealize.ShloMosaic Idealize.ShloMosaic.ValueIdx Cert.ReferenceIdeal Cert.ReferenceIdeal.Read Cert.Spec Cert.RefCoe

variable (xr : Fin 8 → Fin 2048 → Fin 1024 → ℝ) (wr : Fin 3 → Fin 1024 → Fin 1024 → ℝ)

/-- The row maximum broadcast back along the key axis. -/
theorem rowmax_bcast_apply (b : Fin 8) (q k : Fin 2048) :
    val_main_v17 (F := Ideal) (xE xr) (wE wr) (ix3 b q k) = ((rowMaxR xr wr b q : ℝ) : EReal) := by
  rw [val_main_v17_apply, val_main_v16_apply]
  have e : idx_main_v16 (idx_main_v17 (ix3 b q k)) = ix2 b q := funext fun a => Fin.ext (by
    match a with | ⟨0, _⟩ => rfl | ⟨1, _⟩ => rfl)
  rw [e, rowmax_apply]

/-- The exponential of a score shifted by its row's maximum. -/
theorem exp_apply (b : Fin 8) (q k : Fin 2048) :
    val_main_v19 (F := Ideal) (xE xr) (wE wr) (ix3 b q k) = ((expR xr wr b q k : ℝ) : EReal) := by
  rw [val_main_v19_apply, val_main_v18_apply, score_apply, rowmax_bcast_apply, Ideal.subf_def,
    Ideal.hostUnary_exp_def, exp_sub_coe]
  rfl

/-- The row sum of the exponentials: the sum along the key axis from zero. -/
theorem denom_apply (b : Fin 8) (q : Fin 2048) :
    val_main_v20 (F := Ideal) (xE xr) (wE wr) (ix2 b q) = ((denomR xr wr b q : ℝ) : EReal) := by
  rw [val_main_v20_apply, val_main_cst_2_apply, Ideal.ofBits_def, word_zero, zero_add]
  unfold denomR
  rw [← coe_sum]
  refine Finset.sum_congr rfl fun k _ => ?_
  have e : idx_main_v20 (ix2 b q) k = ix3 b q k := funext fun a => Fin.ext (by
    match a with | ⟨0, _⟩ => rfl | ⟨1, _⟩ => rfl | ⟨2, _⟩ => rfl)
  rw [e, exp_apply]

/-- A sum of exponentials over a nonempty range is positive. -/
theorem denom_pos (b : Fin 8) (q : Fin 2048) : 0 < denomR xr wr b q := by
  unfold denomR
  exact Finset.sum_pos (fun k _ => Real.exp_pos _) Finset.univ_nonempty

/-- The row sum broadcast back along the key axis. -/
theorem denom_bcast_apply (b : Fin 8) (q k : Fin 2048) :
    val_main_v22 (F := Ideal) (xE xr) (wE wr) (ix3 b q k) = ((denomR xr wr b q : ℝ) : EReal) := by
  rw [val_main_v22_apply, val_main_v21_apply]
  have e : idx_main_v21 (idx_main_v22 (ix3 b q k)) = ix2 b q := funext fun a => Fin.ext (by
    match a with | ⟨0, _⟩ => rfl | ⟨1, _⟩ => rfl)
  rw [e, denom_apply]

/-- The normalised weight of key k for query q: the divisor is positive, so this is the real quotient. -/
theorem weight_apply (b : Fin 8) (q k : Fin 2048) :
    val_main_v23 (F := Ideal) (xE xr) (wE wr) (ix3 b q k)
      = ((expR xr wr b q k / denomR xr wr b q : ℝ) : EReal) := by
  rw [val_main_v23_apply, exp_apply, denom_bcast_apply, Ideal.hostDivf_def,
    div_coe_coe _ (denom_pos xr wr b q).ne']

/-- The output: the weighted sum of the value rows. -/
theorem out_apply (b : Fin 8) (q : Fin 2048) (e : Fin 1024) :
    val_main_v24 (F := Ideal) (xE xr) (wE wr) (ix3 b q e) = ((outR xr wr b q e : ℝ) : EReal) := by
  rw [val_main_v24_apply]
  unfold outR
  rw [← coe_sum_mul]
  refine Finset.sum_congr rfl fun k _ => ?_
  have el : lidx_main_v24 (ix3 b q e) k = ix3 b q k := funext fun a => Fin.ext (by
    match a with | ⟨0, _⟩ => rfl | ⟨1, _⟩ => rfl | ⟨2, _⟩ => rfl)
  have er : ridx_main_v24 (ix3 b q e) k = ix3 b k e := funext fun a => Fin.ext (by
    match a with | ⟨0, _⟩ => rfl | ⟨1, _⟩ => rfl | ⟨2, _⟩ => rfl)
  rw [el, er, weight_apply, proj2_apply]

end Cert.RefIsSpec

end
-- ==== Proof.Ref.lean ====
/-
  The reference's result is the specification: the reference program's run term, read one operation at a time,
  is the attention output `Cert.Spec.G` of the two argument arrays when every entry of them is a real number.

  An array every entry of which is a real number is the coercion of its real parts. On such arrays every stage of
  the reference program is the coercion of the corresponding real stage of the specification (the projections,
  the scores, the row maxima, the exponentials, their row sums, the normalised weights), and the last stage is
  the coerced attention output, which is what `G` says.
-/
import proofs.«165592_j29360396436110_2_alg».proof.Proof.Gen.ReferenceIdeal.Read
import proofs.«165592_j29360396436110_2_alg».proof.Proof.Spec
import proofs.«165592_j29360396436110_2_alg».proof.Proof.RefSoft

noncomputable section

namespace Cert.RefIsSpec

open Idealize.ShloMosaic Idealize.ShloMosaic.ValueIdx Cert.ReferenceIdeal Cert.ReferenceIdeal.Read Cert.Spec Cert.RefCoe

/-- An input array of real numbers is the coercion of its real parts, coordinate by coordinate. -/
theorem x_eq_coe (x : SX.Idx → EReal) (hx : IsReal x) : x = xE (xR x) := by
  funext i
  obtain ⟨r, hr⟩ := hx i
  have e : xE (xR x) i = (((x i).toReal : ℝ) : EReal) :=
    congrArg (fun j => (((x j).toReal : ℝ) : EReal)) (eq_ix3 i).symm
  rw [e, hr, EReal.toReal_coe]

/-- A weight stack of real numbers is the coercion of its real parts, coordinate by coordinate. -/
theorem w_eq_coe (w : SW.Idx → EReal) (hw : IsReal w) : w = wE (wR w) := by
  funext i
  obtain ⟨r, hr⟩ := hw i
  have e : wE (wR w) i = (((w i).toReal : ℝ) : EReal) :=
    congrArg (fun j => (((w j).toReal : ℝ) : EReal)) (eq_ix3 i).symm
  rw [e, hr, EReal.toReal_coe]

/-- On arrays of real numbers the reference program computes the specification. -/
theorem ref_eq (x : (⟨Cert.ReferenceIdeal.S8x2048x1024, .f32⟩ : BufTy).Contents (Elt Ideal))
    (w : (⟨Cert.ReferenceIdeal.S3x1024x1024, .f32⟩ : BufTy).Contents (Elt Ideal))
    (hx : Cert.Spec.IsReal x) (hw : Cert.Spec.IsReal w) :
    Cert.ReferenceIdeal.Read.val_main_v24 (F := Ideal) x w = Cert.Spec.G x w := by
  funext i
  obtain ⟨b, q, e, rfl⟩ : ∃ (b : Fin 8) (q : Fin 2048) (e : Fin 1024), i = ix3 b q e := ⟨i 0, i 1, i 2, eq_ix3 i⟩
  have h := out_apply (xR x) (wR w) b q e
  rw [← x_eq_coe x hx, ← w_eq_coe w hw] at h
  exact h

end Cert.RefIsSpec

end
-- ==== Proof.PreReal.lean ====
/-
  From the precondition to "every entry is a real number".

  The precondition is the conjunction of two tests, one per argument array: every entry's absolute value lies
  strictly below plus infinity. Over the extended reals the absolute value of a is max a (-a); it is plus infinity
  exactly when a is one of the two infinities, so the test passing at an entry says that the entry is a real number.
  Each test is folded over the whole array by "and" starting from 1, so the fold being 1 says that every entry passed.
-/
import proofs.«165592_j29360396436110_2_alg».proof.Pre_finite_inputs
import proofs.«165592_j29360396436110_2_alg».proof.KernelIdeal
import proofs.«165592_j29360396436110_2_alg».proof.Proof.Spec
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx

/-- The shape of a scalar has exactly one index (a function out of the empty set of axes). -/
instance : Subsingleton Cert.Pre_finite_inputs.S_.Idx := ⟨fun a b => funext fun d => d.elim0⟩

/-- The bit pattern 0x7F800000 (sign 0, exponent all ones, significand 0) denotes plus infinity. -/
theorem inf_word : Ideal.ofBits .f32 0x7F800000#32 = (⊤ : EReal) := by
  simp [Ideal.ofBits, Ideal.ieee]

/-- An extended real whose absolute value max a (-a) lies strictly below plus infinity is a real number:
    at a = +inf the maximum is +inf, at a = -inf its negation is +inf. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One entry's test: the comparison |a| < +inf evaluating to 1 says that a is a real number. -/
theorem real_of_test (a : EReal)
    (h : FloatOps.cmpf (F := Ideal) (φ := .f32) .olt (FloatOps.absf (F := Ideal) (φ := .f32) a)
      (Ideal.ofBits .f32 0x7F800000#32) = 1#1) : ∃ r : ℝ, a = (r : EReal) := by
  rw [inf_word] at h
  refine real_of_abs_lt_top a ?_
  by_contra hn
  have : FloatOps.cmpf (F := Ideal) (φ := .f32) .olt (FloatOps.absf (F := Ideal) (φ := .f32) a) (⊤ : EReal) = 0#1 := by
    show BitVec.ofBool (decide (max a (-a) < ⊤)) = 0#1
    rw [decide_eq_false hn]; rfl
  rw [this] at h
  exact absurd h (by decide)

/-- The precondition holding of two arrays says that every entry of both is a real number. -/
theorem isReal_of_pre [Cert.Pre_finite_inputs.Facts]
    (x : (⟨Cert.KernelIdeal.S8x2048x1024, .f32⟩ : BufTy).Contents (Elt Ideal))
    (w : (⟨Cert.KernelIdeal.S3x1024x1024, .f32⟩ : BufTy).Contents (Elt Ideal))
    (h : Cert.Pre_finite_inputs.fn (F := Ideal) x w = (fun _ => 1#1)) :
    Cert.Spec.IsReal x ∧ Cert.Spec.IsReal w := by
  have h0 := congrFun h ValueIdx.ix0
  dsimp only [Cert.Pre_finite_inputs.fn] at h0
  obtain ⟨hx, hw⟩ := IntOp.andi_eq_one.1 h0
  refine ⟨fun i => ?_, fun i => ?_⟩
  · exact real_of_test (x i) (Host.reduce_andi_all _ _ _ _ _ hx i)
  · exact real_of_test (w i) (Host.reduce_andi_all _ _ _ _ _ hw i)

end Cert.PreReal

end
-- ==== Proof.lean ====
/-
  Single-head self-attention over x : [8, 2048, 1024] with a weight stack w : [3, 1024, 1024]:
  out = softmax ((x w0) (x w1)^T / 32) (x w2), the softmax along the key axis, 32 the square root of the width.

  The kernel program computes it in two regions. Region 0 forms the three products x w0, x w1, x w2 by row blocks
  of 512, the first already scaled by 2^-5 = 1/32. Region 1 walks, for each block of 512 query rows, the keys in two
  tiles of 1024, carrying the running row maximum, the running sum of exponentials and the running weighted sum of
  value rows from the first tile to the second, rescaling the first tile's sums by exp (old maximum - new maximum), and
  divides once at the end. The reference computes the scores of all 2048 keys at once, divides them by sqrt 1024,
  subtracts each row's maximum, exponentiates, normalises and multiplies by the value rows.

  On extended reals the two agree whenever every input entry is a real number, which is the precondition: then every
  intermediate value is a real number, exp (m0 - m) * exp (a - m0) = exp (a - m) moves the first tile's terms under
  the common maximum, a sum over 2048 keys is the sum over the two tiles, and the positive row sum divides either
  the whole weighted sum or each weight. Both programs' results are the one function `Cert.Spec.G` of the arguments.

  The three frames: each program runs to the end from any memory, faults nowhere and writes neither argument. For the
  two kernel programs this is the run of the four items (host operations, region 0, host operations, region 1), each
  region's body run symbolically at every grid point; for the reference it is its run of host operations.
-/
import proofs.«165592_j29360396436110_2_alg».proof.Defs
import proofs.«165592_j29360396436110_2_alg».proof.Proof.Gen.Kernel
import proofs.«165592_j29360396436110_2_alg».proof.Proof.Gen.KernelIdeal
import proofs.«165592_j29360396436110_2_alg».proof.Proof.Gen.ReferenceIdeal
import proofs.«165592_j29360396436110_2_alg».proof.Proof.Gen.Pre_finite_inputs
import proofs.«165592_j29360396436110_2_alg».proof.Proof.Gen.ReferenceIdeal.Run
import proofs.«165592_j29360396436110_2_alg».proof.Proof.Gen.ReferenceIdeal.Read
import proofs.«165592_j29360396436110_2_alg».proof.Proof.K.Run
import proofs.«165592_j29360396436110_2_alg».proof.Proof.KI.Run
import proofs.«165592_j29360396436110_2_alg».proof.Proof.KI.Bridge
import proofs.«165592_j29360396436110_2_alg».proof.Proof.Ref
import proofs.«165592_j29360396436110_2_alg».proof.Proof.PreReal

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- The idealized kernel program likewise. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the attention output `Cert.Spec.G` of the arguments in their result arrays: the kernel
    program's is what region 1's write-backs leave, read as the two-tile form and brought to the textbook form by the
    algebra over the reals; the reference's is its run term read one operation at a time. The precondition makes every
    entry of both arguments a real number. -/
theorem algebraic : Cert.algebraic_KernelIdeal_ReferenceIdeal := by
  intro m ρ m' ρ' hpre hagree
  have hreal := fun c : Dev Cert.KernelIdeal.nD => Cert.PreReal.isReal_of_pre _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c _ (Cert.KernelIdeal.Hand.mem_uc Cert.KernelIdeal.main_v6 (by decide))).trans
          (Cert.KernelIdeal.HandVal.result_eq m c (hreal c).1 (hreal c).2),
        (h c _ (Cert.KernelIdeal.Hand.mem_uc Cert.KernelIdeal.main_arg0 (by decide))).trans (Cert.KernelIdeal.Hand.W4_main_arg0 m c),
        (h c _ (Cert.KernelIdeal.Hand.mem_uc Cert.KernelIdeal.main_arg1 (by decide))).trans (Cert.KernelIdeal.Hand.W4_main_arg1 m c)⟩)
      (Cert.KernelIdeal.Hand.run_all (F := Ideal) m ρ)
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v24_eq, (hagree c).1, (hagree c).2]
    exact Cert.RefIsSpec.ref_eq _ _ (hreal c).1 (hreal c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
